-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x784x512 : Shape := ⟨3, ![16, 784, 512]⟩
abbrev S1536x512 : Shape := ⟨2, ![1536, 512]⟩
abbrev S1536 : Shape := ⟨1, ![1536]⟩
abbrev S8x784 : Shape := ⟨2, ![8, 784]⟩
abbrev S512x1024 : Shape := ⟨2, ![512, 1024]⟩
abbrev S512 : Shape := ⟨1, ![512]⟩
abbrev S784x784 : Shape := ⟨2, ![784, 784]⟩
abbrev S_ : Shape := ⟨0, ![]⟩

class Facts : Prop where
  bcast_S_S16x784x512 : S_.BroadcastsInDim S16x784x512 (![] : Fin 0 → Fin S16x784x512.rank)
  reducesTo_S16x784x512_S_d0_1_2 : S16x784x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S8x784 : S_.BroadcastsInDim S8x784 (![] : Fin 0 → Fin S8x784.rank)
  reducesTo_S8x784_S_d0_1 : S8x784.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512x1024 .f32) (main_arg8 : FVec F S512 .f32) (main_arg9 : FVec F S512 .f32) (main_arg10 : FVec F S512 .f32) (main_arg11 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S1536 .f32) (main_arg5 : FVec F S1536 .f32) (main_arg6 : FVec F S8x784 .f32) (main_arg7 : FVec F S512x1024 .f32) (main_arg8 : FVec F S512 .f32) (main_arg9 : FVec F S512 .f32) (main_arg10 : FVec F S512 .f32) (main_arg11 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536 .f32 := Host.absf main_arg5
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S8x784 .f32 := Host.absf main_arg6
  let main_cst_10 : FVec F S_ .f32 := constant S_ .f32 0x7F800000#32
  let main_v30 : FVec F S8x784 .f32 := broadcastInDim S8x784 ![] bcast_S_S8x784 main_cst_10
  let main_v31 : IVec S8x784 1 := cmpf .olt main_v29 main_v30
  let main_c_11 : IVec S_ 1 := constantI S_ 1 1#1
  let main_v32 : IVec S_ 1 := (fun x v => Host.reduce IntOp.andi x v reducesTo_S8x784_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x784x512 .f32) (main_arg1 : FVec F S1536x512 .f32) (main_arg2 : FVec F S1536 .f32) (main_arg3 : FVec F S1536 .f32) (main_arg4 : FVec F S1536 .f32) (main_arg5 : FVec F S1536 .f32) (main_arg6 : FVec F S8x784 .f32) (main_arg7 : FVec F S512x1024 .f32) (main_arg8 : FVec F S512 .f32) (main_arg9 : FVec F S512 .f32) (main_arg10 : FVec F S512 .f32) (main_arg11 : FVec F S512 .f32) (main_arg12 : IVec S784x784 32) : IVec S_ 1 :=
  let main_v0 : FVec F S16x784x512 .f32 := Host.absf main_arg0
  let main_cst : FVec F S_ .f32 := constant S_ .f32 0x7F800000#32
  let main_v1 : FVec F S16x784x512 .f32 := broadcastInDim S16x784x512 ![] bcast_S_S16x784x512 main_cst
  let main_v2 : IVec S16x784x512 1 := cmpf .olt main_v0 main_v1
  let main_c : IVec S_ 1 := constantI S_ 1 1#1
  let main_v3 : IVec S_ 1 := (fun x v => Host.reduce IntOp.andi x v reducesTo_S16x784x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_arg6 main_arg7 main_arg8 main_arg9 main_arg10 main_arg11 main_v13 main_v16
-- ==== Kernel.lean ====
abbrev S16x784x512 : Shape := ⟨3, ![16, 784, 512]⟩
abbrev S1536x512 : Shape := ⟨2, ![1536, 512]⟩
abbrev S1536 : Shape := ⟨1, ![1536]⟩
abbrev S8x784 : Shape := ⟨2, ![8, 784]⟩
abbrev S512x1024 : Shape := ⟨2, ![512, 1024]⟩
abbrev S512 : Shape := ⟨1, ![512]⟩
abbrev S784x784 : Shape := ⟨2, ![784, 784]⟩
abbrev S_ : Shape := ⟨0, ![]⟩
abbrev S784x784x1 : Shape := ⟨3, ![784, 784, 1]⟩
abbrev S8x784x784 : Shape := ⟨3, ![8, 784, 784]⟩
abbrev S512x1536 : Shape := ⟨2, ![512, 1536]⟩
abbrev S1x1536 : Shape := ⟨2, ![1, 1536]⟩
abbrev S16x784x1536 : Shape := ⟨3, ![16, 784, 1536]⟩
abbrev S1x784x512 : Shape := ⟨3, ![1, 784, 512]⟩
abbrev S1x784x1536 : Shape := ⟨3, ![1, 784, 1536]⟩
abbrev S784x512 : Shape := ⟨2, ![784, 512]⟩
abbrev S784x1536 : Shape := ⟨2, ![784, 1536]⟩
abbrev S16x784x1024 : Shape := ⟨3, ![16, 784, 1024]⟩
abbrev S1x784x1024 : Shape := ⟨3, ![1, 784, 1024]⟩
abbrev S784x32 : Shape := ⟨2, ![784, 32]⟩
abbrev S784x128 : Shape := ⟨2, ![784, 128]⟩
abbrev S1x784x784 : Shape := ⟨3, ![1, 784, 784]⟩
abbrev S32x784 : Shape := ⟨2, ![32, 784]⟩
abbrev S784 : Shape := ⟨1, ![784]⟩
abbrev S784x1 : Shape := ⟨2, ![784, 1]⟩
abbrev S1x784x128 : Shape := ⟨3, ![1, 784, 128]⟩
abbrev S1024x512 : Shape := ⟨2, ![1024, 512]⟩
abbrev S1x512 : Shape := ⟨2, ![1, 512]⟩
abbrev S784x1024 : Shape := ⟨2, ![784, 1024]⟩

abbrev nBuf : Space → Nat
  | .hbm => 38
  | .vmem => 23
  | .smem => 0
  | _ => 0

abbrev bufTy : (tb : Table) → Fin (tcTables nBuf tb) → BufTy
  | .hbm, ⟨0, _⟩ => ⟨S16x784x512, .f32⟩
  | .hbm, ⟨1, _⟩ => ⟨S1536x512, .f32⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S1536, .f32⟩
  | .hbm, ⟨6, _⟩ => ⟨S8x784, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S784x784, .i32⟩
  | .hbm, ⟨13, _⟩ => ⟨S_, .i32⟩
  | .hbm, ⟨14, _⟩ => ⟨S784x784, .i32⟩
  | .hbm, ⟨15, _⟩ => ⟨S784x784, .i1⟩
  | .hbm, ⟨16, _⟩ => ⟨S_, .i32⟩
  | .hbm, ⟨17, _⟩ => ⟨S784x784, .i32⟩
  | .hbm, ⟨18, _⟩ => ⟨S784x784, .i32⟩
  | .hbm, ⟨19, _⟩ => ⟨S784x784, .i32⟩
  | .hbm, ⟨20, _⟩ => ⟨S784x784x1, .i32⟩
  | .hbm, ⟨21, _⟩ => ⟨S8x784x784, .f32⟩
  | .hbm, ⟨22, _⟩ => ⟨S8x784x784, .bf16⟩
  | .hbm, ⟨23, _⟩ => ⟨S512x1536, .f32⟩
  | .hbm, ⟨24, _⟩ => ⟨S512x1536, .bf16⟩
  | .hbm, ⟨25, _⟩ => ⟨S1x1536, .f32⟩
  | .hbm, ⟨26, _⟩ => ⟨S1x1536, .f32⟩
  | .hbm, ⟨27, _⟩ => ⟨S1x1536, .f32⟩
  | .hbm, ⟨28, _⟩ => ⟨S1x1536, .f32⟩
  | .hbm, ⟨29, _⟩ => ⟨S16x784x1536, .bf16⟩
  | .hbm, ⟨30, _⟩ => ⟨S16x784x1024, .bf16⟩
  | .hbm, ⟨31, _⟩ => ⟨S1024x512, .f32⟩
  | .hbm, ⟨32, _⟩ => ⟨S1024x512, .bf16⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S16x784x512, .f32⟩
  | .local _ .vmem, ⟨0, _⟩ => ⟨S1x784x512, .f32⟩
  | .local _ .vmem, ⟨1, _⟩ => ⟨S1x784x512, .f32⟩
  | .local _ .vmem, ⟨2, _⟩ => ⟨S512x1536, .bf16⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | .local _ .vmem, ⟨7, _⟩ => ⟨S1x784x1536, .bf16⟩
  | .local _ .vmem, ⟨8, _⟩ => ⟨S1x784x1536, .bf16⟩
  | .local _ .vmem, ⟨9, _⟩ => ⟨S1x784x1536, .bf16⟩
  | .local _ .vmem, ⟨10, _⟩ => ⟨S1x784x1536, .bf16⟩
  | .local _ .vmem, ⟨11, _⟩ => ⟨S8x784x784, .bf16⟩
  | .local _ .vmem, ⟨12, _⟩ => ⟨S1x784x1024, .bf16⟩
  | .local _ .vmem, ⟨13, _⟩ => ⟨S1x784x1024, .bf16⟩
  | .local _ .vmem, ⟨14, _⟩ => ⟨S1x784x1024, .bf16⟩
  | .local _ .vmem, ⟨15, _⟩ => ⟨S1x784x1024, .bf16⟩
  | .local _ .vmem, ⟨16, _⟩ => ⟨S1024x512, .bf16⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x784x512, .f32⟩
  | .local _ .vmem, ⟨22, _⟩ => ⟨S1x784x512, .f32⟩
  | _, _ => ⟨S16x784x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x784x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x784x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x784x784 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x784x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x784x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x784x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S784x784 : S_.BroadcastsInDim S784x784 (![] : Fin 0 → Fin S784x784.rank)
  bcast_S784x784_S784x784x1_0_1 : S784x784.BroadcastsInDim S784x784x1 (![0, 1] : Fin 2 → Fin S784x784x1.rank)
  bitsLt_bf16_f32 : FTy.bits .bf16 < FTy.bits .f32
  transposes_S1536x512_S512x1536_1_0 : S1536x512.Transposes [1, 0] S512x1536
  shapeCasts_S1536_S1x1536 : S1536.ShapeCasts S1x1536
  inb_S1x784x512_S1x784x512_0_0_0 : ∀ a, (![0, 0, 0] : Fin 3 → Nat) a + S1x784x512.size a ≤ S1x784x512.size a
  h_S1x784x512 : 0 < S1x784x512.numel
  shapeCasts_S1x784x512_S784x512 : S1x784x512.ShapeCasts S784x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S784x1536 : S1x1536.Broadcasts S784x1536
  inb_S1x784x1536_S1x784x1536_0_0_0 : ∀ a, (![0, 0, 0] : Fin 3 → Nat) a + S1x784x1536.size a ≤ S1x784x1536.size a
  h_S1x784x1536 : 0 < S1x784x1536.numel
  shapeCasts_S1x784x1536_S784x1536 : S1x784x1536.ShapeCasts S784x1536
  shapeCasts_S784x1536_S1x784x1536 : S784x1536.ShapeCasts S1x784x1536
  packedbf16_S1x784x1536_S1x784x1536_0_0_0 : (Rect.unit (s := S1x784x1536) ![0, 0, 0] S1x784x1536.size inb_S1x784x1536_S1x784x1536_0_0_0).PackedRows (EltTy.packing .bf16)
  inb_S8x784x784_S8x784x784_0_0_0 : ∀ a, (![0, 0, 0] : Fin 3 → Nat) a + S8x784x784.size a ≤ S8x784x784.size a
  h_S8x784x784 : 0 < S8x784x784.numel
  shapeCasts_S8x784x784_S8x784x784 : S8x784x784.ShapeCasts S8x784x784
  slices_S784x1536_o0_0_S784x32 : S784x1536.Slices ![0, 0] S784x32
  slices_S784x1536_o0_32_S784x32 : S784x1536.Slices ![0, 32] S784x32
  slices_S784x1536_o0_64_S784x128 : S784x1536.Slices ![0, 64] S784x128
  slices_S8x784x784_o0_0_0_S1x784x784 : S8x784x784.Slices ![0, 0, 0] S1x784x784
  shapeCasts_S1x784x784_S784x784 : S1x784x784.ShapeCasts S784x784
  transposes_S784x32_p1_0_S32x784 : S784x32.Transposes [1, 0] S32x784
  reduces_S784x784_S784 : S784x784.Reduces [1] S784
  shapeCasts_S784_S784x1 : S784.ShapeCasts S784x1
  broadcasts_S784x1_S784x784 : S784x1.Broadcasts S784x784
  inb_S1x784x1024_S1x784x128_0_0_0 : ∀ a, (![0, 0, 0] : Fin 3 → Nat) a + S1x784x128.size a ≤ S1x784x1024.size a
  h_S1x784x128 : 0 < S1x784x128.numel
  shapeCasts_S1x784x128_S784x128 : S1x784x128.ShapeCasts S784x128
  shapeCasts_S784x128_S1x784x128 : S784x128.ShapeCasts S1x784x128
  packedbf16_S1x784x1024_S1x784x128_0_0_0 : (Rect.unit (s := S1x784x1024) ![0, 0, 0] S1x784x128.size inb_S1x784x1024_S1x784x128_0_0_0).PackedRows (EltTy.packing .bf16)
  slices_S784x1536_o0_192_S784x32 : S784x1536.Slices ![0, 192] S784x32
  slices_S784x1536_o0_224_S784x32 : S784x1536.Slices ![0, 224] S784x32
  slices_S784x1536_o0_256_S784x128 : S784x1536.Slices ![0, 256] S784x128
  slices_S8x784x784_o1_0_0_S1x784x784 : S8x784x784.Slices ![1, 0, 0] S1x784x784
  inb_S1x784x1024_S1x784x128_0_0_128 : ∀ a, (![0, 0, 128] : Fin 3 → Nat) a + S1x784x128.size a ≤ S1x784x1024.size a
  packedbf16_S1x784x1024_S1x784x128_0_0_128 : (Rect.unit (s := S1x784x1024) ![0, 0, 128] S1x784x128.size inb_S1x784x1024_S1x784x128_0_0_128).PackedRows (EltTy.packing .bf16)
  slices_S784x1536_o0_384_S784x32 : S784x1536.Slices ![0, 384] S784x32
  slices_S784x1536_o0_416_S784x32 : S784x1536.Slices ![0, 416] S784x32
  slices_S784x1536_o0_448_S784x128 : S784x1536.Slices ![0, 448] S784x128
  slices_S8x784x784_o2_0_0_S1x784x784 : S8x784x784.Slices ![2, 0, 0] S1x784x784
  inb_S1x784x1024_S1x784x128_0_0_256 : ∀ a, (![0, 0, 256] : Fin 3 → Nat) a + S1x784x128.size a ≤ S1x784x1024.size a
  packedbf16_S1x784x1024_S1x784x128_0_0_256 : (Rect.unit (s := S1x784x1024) ![0, 0, 256] S1x784x128.size inb_S1x784x1024_S1x784x128_0_0_256).PackedRows (EltTy.packing .bf16)
  slices_S784x1536_o0_576_S784x32 : S784x1536.Slices ![0, 576] S784x32
  slices_S784x1536_o0_608_S784x32 : S784x1536.Slices ![0, 608] S784x32
  slices_S784x1536_o0_640_S784x128 : S784x1536.Slices ![0, 640] S784x128
  slices_S8x784x784_o3_0_0_S1x784x784 : S8x784x784.Slices ![3, 0, 0] S1x784x784
  inb_S1x784x1024_S1x784x128_0_0_384 : ∀ a, (![0, 0, 384] : Fin 3 → Nat) a + S1x784x128.size a ≤ S1x784x1024.size a
  packedbf16_S1x784x1024_S1x784x128_0_0_384 : (Rect.unit (s := S1x784x1024) ![0, 0, 384] S1x784x128.size inb_S1x784x1024_S1x784x128_0_0_384).PackedRows (EltTy.packing .bf16)
  slices_S784x1536_o0_768_S784x32 : S784x1536.Slices ![0, 768] S784x32
  slices_S784x1536_o0_800_S784x32 : S784x1536.Slices ![0, 800] S784x32
  slices_S784x1536_o0_832_S784x128 : S784x1536.Slices ![0, 832] S784x128
  slices_S8x784x784_o4_0_0_S1x784x784 : S8x784x784.Slices ![4, 0, 0] S1x784x784
  inb_S1x784x1024_S1x784x128_0_0_512 : ∀ a, (![0, 0, 512] : Fin 3 → Nat) a + S1x784x128.size a ≤ S1x784x1024.size a
  packedbf16_S1x784x1024_S1x784x128_0_0_512 : (Rect.unit (s := S1x784x1024) ![0, 0, 512] S1x784x128.size inb_S1x784x1024_S1x784x128_0_0_512).PackedRows (EltTy.packing .bf16)
  slices_S784x1536_o0_960_S784x32 : S784x1536.Slices ![0, 960] S784x32
  slices_S784x1536_o0_992_S784x32 : S784x1536.Slices ![0, 992] S784x32
  slices_S784x1536_o0_1024_S784x128 : S784x1536.Slices ![0, 1024] S784x128
  slices_S8x784x784_o5_0_0_S1x784x784 : S8x784x784.Slices ![5, 0, 0] S1x784x784
  inb_S1x784x1024_S1x784x128_0_0_640 : ∀ a, (![0, 0, 640] : Fin 3 → Nat) a + S1x784x128.size a ≤ S1x784x1024.size a
  packedbf16_S1x784x1024_S1x784x128_0_0_640 : (Rect.unit (s := S1x784x1024) ![0, 0, 640] S1x784x128.size inb_S1x784x1024_S1x784x128_0_0_640).PackedRows (EltTy.packing .bf16)
  slices_S784x1536_o0_1152_S784x32 : S784x1536.Slices ![0, 1152] S784x32
  slices_S784x1536_o0_1184_S784x32 : S784x1536.Slices ![0, 1184] S784x32
  slices_S784x1536_o0_1216_S784x128 : S784x1536.Slices ![0, 1216] S784x128
  slices_S8x784x784_o6_0_0_S1x784x784 : S8x784x784.Slices ![6, 0, 0] S1x784x784
  inb_S1x784x1024_S1x784x128_0_0_768 : ∀ a, (![0, 0, 768] : Fin 3 → Nat) a + S1x784x128.size a ≤ S1x784x1024.size a
  packedbf16_S1x784x1024_S1x784x128_0_0_768 : (Rect.unit (s := S1x784x1024) ![0, 0, 768] S1x784x128.size inb_S1x784x1024_S1x784x128_0_0_768).PackedRows (EltTy.packing .bf16)
  slices_S784x1536_o0_1344_S784x32 : S784x1536.Slices ![0, 1344] S784x32
  slices_S784x1536_o0_1376_S784x32 : S784x1536.Slices ![0, 1376] S784x32
  slices_S784x1536_o0_1408_S784x128 : S784x1536.Slices ![0, 1408] S784x128
  slices_S8x784x784_o7_0_0_S1x784x784 : S8x784x784.Slices ![7, 0, 0] S1x784x784
  inb_S1x784x1024_S1x784x128_0_0_896 : ∀ a, (![0, 0, 896] : Fin 3 → Nat) a + S1x784x128.size a ≤ S1x784x1024.size a
  packedbf16_S1x784x1024_S1x784x128_0_0_896 : (Rect.unit (s := S1x784x1024) ![0, 0, 896] S1x784x128.size inb_S1x784x1024_S1x784x128_0_0_896).PackedRows (EltTy.packing .bf16)
  transposes_S512x1024_S1024x512_1_0 : S512x1024.Transposes [1, 0] S1024x512
  shapeCasts_S512_S1x512 : S512.ShapeCasts S1x512
  inb_S1x784x1024_S1x784x1024_0_0_0 : ∀ a, (![0, 0, 0] : Fin 3 → Nat) a + S1x784x1024.size a ≤ S1x784x1024.size a
  h_S1x784x1024 : 0 < S1x784x1024.numel
  shapeCasts_S1x784x1024_S784x1024 : S1x784x1024.ShapeCasts S784x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S784x512 : S1x512.Broadcasts S784x512
  shapeCasts_S784x512_S1x784x512 : S784x512.ShapeCasts S1x784x512
  gather_S8x784_S784x784x1_S8x784x784_0_1_n_n_1_2_81_wf : GatherDims.WF S8x784 S784x784x1 S8x784x784 [0] [1] [] [1] [] 2 ![8, 1]
  dot_S784x512_S512x1536_S784x1536_1_0_0_1_n_n_wf : DotDims.WF S784x512 S512x1536 S784x1536 [1] [0] [0] [1] [] []
  dot_S784x32_S32x784_S784x784_1_0_0_1_n_n_wf : DotDims.WF S784x32 S32x784 S784x784 [1] [0] [0] [1] [] []
  dot_S784x784_S784x128_S784x128_1_0_0_1_n_n_wf : DotDims.WF S784x784 S784x128 S784x128 [1] [0] [0] [1] [] []
  dot_S784x1024_S1024x512_S784x512_1_0_0_1_n_n_wf : DotDims.WF S784x1024 S1024x512 S784x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x784x512.size a ≤ S16x784x512.size a
  hwx0_0 : ∀ i : grid0.Coords, EltTy.bits .f32 = 32 ∨ (Rect.block (s := S16x784x512) S1x784x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x784x1536.size a ≤ S16x784x1536.size a
  hwx0_6 : ∀ i : grid0.Coords, EltTy.bits .bf16 = 32 ∨ (Rect.block (s := S16x784x1536) S1x784x1536.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x784x1536.size a ≤ S16x784x1536.size a
  hwx1_0 : ∀ i : grid1.Coords, EltTy.bits .bf16 = 32 ∨ (Rect.block (s := S16x784x1536) S1x784x1536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x784x784.size a ≤ S8x784x784.size a
  hwx1_1 : ∀ i : grid1.Coords, EltTy.bits .bf16 = 32 ∨ (Rect.block (s := S8x784x784) S8x784x784.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x784x1024.size a ≤ S16x784x1024.size a
  hwx1_2 : ∀ i : grid1.Coords, EltTy.bits .bf16 = 32 ∨ (Rect.block (s := S16x784x1024) S1x784x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x784x1024.size a ≤ S16x784x1024.size a
  hwx2_0 : ∀ i : grid2.Coords, EltTy.bits .bf16 = 32 ∨ (Rect.block (s := S16x784x1024) S1x784x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x512.size a
  hwx2_1 : ∀ i : grid2.Coords, EltTy.bits .bf16 = 32 ∨ (Rect.block (s := S1024x512) S1024x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x784x512.size a ≤ S16x784x512.size a
  hwx2_6 : ∀ i : grid2.Coords, EltTy.bits .f32 = 32 ∨ (Rect.block (s := S16x784x512) S1x784x512.size (cc2_transform_6 i) (hinb2_6 i)).WholeWords (EltTy.packing .f32)

variable [Facts₀]

def gather_S8x784_S784x784x1_S8x784x784_0_1_n_n_1_2_81 : GatherDims S8x784 S784x784x1 S8x784x784 where
  offsetDims := [0]
  collapsedSliceDims := [1]
  operandBatchingDims := []
  startIndicesBatchingDims := []
  startIndexMap := [1]
  indexVectorDim := 2
  sliceSizes := ![8, 1]
  wf := gather_S8x784_S784x784x1_S8x784x784_0_1_n_n_1_2_81_wf
def dot_S784x512_S512x1536_S784x1536_1_0_0_1_n_n : DotDims S784x512 S512x1536 S784x1536 where
  lhsContracting := [1]
  rhsContracting := [0]
  lhsNonContracting := [0]
  rhsNonContracting := [1]
  lhsBatch := []
  rhsBatch := []
  wf := dot_S784x512_S512x1536_S784x1536_1_0_0_1_n_n_wf
def dot_S784x32_S32x784_S784x784_1_0_0_1_n_n : DotDims S784x32 S32x784 S784x784 where
  lhsContracting := [1]
  rhsContracting := [0]
  lhsNonContracting := [0]
  rhsNonContracting := [1]
  lhsBatch := []
  rhsBatch := []
  wf := dot_S784x32_S32x784_S784x784_1_0_0_1_n_n_wf
def dot_S784x784_S784x128_S784x128_1_0_0_1_n_n : DotDims S784x784 S784x128 S784x128 where
  lhsContracting := [1]
  rhsContracting := [0]
  lhsNonContracting := [0]
  rhsNonContracting := [1]
  lhsBatch := []
  rhsBatch := []
  wf := dot_S784x784_S784x128_S784x128_1_0_0_1_n_n_wf
def dot_S784x1024_S1024x512_S784x512_1_0_0_1_n_n : DotDims S784x1024 S1024x512 S784x512 where
  lhsContracting := [1]
  rhsContracting := [0]
  lhsNonContracting := [0]
  rhsNonContracting := [1]
  lhsBatch := []
  rhsBatch := []
  wf := dot_S784x1024_S1024x512_S784x512_1_0_0_1_n_n_wf

abbrev win0_0 : Pipeline.Window sig grid0 :=
  Pipeline.Window.ofSpec (Memref.whole main_arg0) S1x784x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x784x1536.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S1x784x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8x784x784.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x784x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S1x784x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x784x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16x784x512 : Shape := ⟨3, ![16, 784, 512]⟩
abbrev S1536x512 : Shape := ⟨2, ![1536, 512]⟩
abbrev S1536 : Shape := ⟨1, ![1536]⟩
abbrev S8x784 : Shape := ⟨2, ![8, 784]⟩
abbrev S512x1024 : Shape := ⟨2, ![512, 1024]⟩
abbrev S512 : Shape := ⟨1, ![512]⟩
abbrev S784x784 : Shape := ⟨2, ![784, 784]⟩
abbrev S16x784x1536 : Shape := ⟨3, ![16, 784, 1536]⟩
abbrev S1x1x1536 : Shape := ⟨3, ![1, 1, 1536]⟩
abbrev S_ : Shape := ⟨0, ![]⟩
abbrev S16x784x8x192 : Shape := ⟨4, ![16, 784, 8, 192]⟩
abbrev S16x784x8x32 : Shape := ⟨4, ![16, 784, 8, 32]⟩
abbrev S16x784x8x128 : Shape := ⟨4, ![16, 784, 8, 128]⟩
abbrev S16x8x784x32 : Shape := ⟨4, ![16, 8, 784, 32]⟩
abbrev S16x8x784x128 : Shape := ⟨4, ![16, 8, 784, 128]⟩
abbrev S784x784x1 : Shape := ⟨3, ![784, 784, 1]⟩
abbrev S8x784x784 : Shape := ⟨3, ![8, 784, 784]⟩
abbrev S16x8x784x784 : Shape := ⟨4, ![16, 8, 784, 784]⟩
abbrev S1x8x784x784 : Shape := ⟨4, ![1, 8, 784, 784]⟩
abbrev S16x8x784 : Shape := ⟨3, ![16, 8, 784]⟩
abbrev S16x8x784x1 : Shape := ⟨4, ![16, 8, 784, 1]⟩
abbrev S16x784x1024 : Shape := ⟨3, ![16, 784, 1024]⟩
abbrev S1x1x512 : Shape := ⟨3, ![1, 1, 512]⟩

abbrev nBuf : Space → Nat
  | .hbm => 98
  | .vmem => 0
  | .smem => 0
  | _ => 0

abbrev bufTy : (tb : Table) → Fin (tcTables nBuf tb) → BufTy
  | .hbm, ⟨0, _⟩ => ⟨S16x784x512, .f32⟩
  | .hbm, ⟨1, _⟩ => ⟨S1536x512, .f32⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S1536, .f32⟩
  | .hbm, ⟨6, _⟩ => ⟨S8x784, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S784x784, .i32⟩
  | .hbm, ⟨13, _⟩ => ⟨S16x784x1536, .f32⟩
  | .hbm, ⟨14, _⟩ => ⟨S1x1x1536, .f32⟩
  | .hbm, ⟨15, _⟩ => ⟨S16x784x1536, .f32⟩
  | .hbm, ⟨16, _⟩ => ⟨S16x784x1536, .f32⟩
  | .hbm, ⟨17, _⟩ => ⟨S_, .f32⟩
  | .hbm, ⟨18, _⟩ => ⟨S1536, .f32⟩
  | .hbm, ⟨19, _⟩ => ⟨S1536, .f32⟩
  | .hbm, ⟨20, _⟩ => ⟨S1536, .f32⟩
  | .hbm, ⟨21, _⟩ => ⟨S1536, .f32⟩
  | .hbm, ⟨22, _⟩ => ⟨S1x1x1536, .f32⟩
  | .hbm, ⟨23, _⟩ => ⟨S16x784x1536, .f32⟩
  | .hbm, ⟨24, _⟩ => ⟨S16x784x1536, .f32⟩
  | .hbm, ⟨25, _⟩ => ⟨S1x1x1536, .f32⟩
  | .hbm, ⟨26, _⟩ => ⟨S16x784x1536, .f32⟩
  | .hbm, ⟨27, _⟩ => ⟨S16x784x1536, .f32⟩
  | .hbm, ⟨28, _⟩ => ⟨S16x784x8x192, .f32⟩
  | .hbm, ⟨29, _⟩ => ⟨S16x784x8x32, .f32⟩
  | .hbm, ⟨30, _⟩ => ⟨S16x784x8x32, .f32⟩
  | .hbm, ⟨31, _⟩ => ⟨S16x784x8x128, .f32⟩
  | .hbm, ⟨32, _⟩ => ⟨S16x8x784x32, .f32⟩
  | .hbm, ⟨33, _⟩ => ⟨S16x8x784x32, .f32⟩
  | .hbm, ⟨34, _⟩ => ⟨S16x8x784x128, .f32⟩
  | .hbm, ⟨35, _⟩ => ⟨S_, .i32⟩
  | .hbm, ⟨36, _⟩ => ⟨S784x784, .i32⟩
  | .hbm, ⟨37, _⟩ => ⟨S784x784, .i1⟩
  | .hbm, ⟨38, _⟩ => ⟨S_, .i32⟩
  | .hbm, ⟨39, _⟩ => ⟨S784x784, .i32⟩
  | .hbm, ⟨40, _⟩ => ⟨S784x784, .i32⟩
  | .hbm, ⟨41, _⟩ => ⟨S784x784, .i32⟩
  | .hbm, ⟨42, _⟩ => ⟨S784x784x1, .i32⟩
  | .hbm, ⟨43, _⟩ => ⟨S8x784x784, .f32⟩
  | .hbm, ⟨44, _⟩ => ⟨S16x8x784x784, .f32⟩
  | .hbm, ⟨45, _⟩ => ⟨S_, .f32⟩
  | .hbm, ⟨46, _⟩ => ⟨S16x8x784x784, .f32⟩
  | .hbm, ⟨47, _⟩ => ⟨S16x8x784x784, .f32⟩
  | .hbm, ⟨48, _⟩ => ⟨S1x8x784x784, .f32⟩
  | .hbm, ⟨49, _⟩ => ⟨S16x8x784x784, .f32⟩
  | .hbm, ⟨50, _⟩ => ⟨S16x8x784x784, .f32⟩
  | .hbm, ⟨51, _⟩ => ⟨S_, .f32⟩
  | .hbm, ⟨52, _⟩ => ⟨S16x8x784, .f32⟩
  | .hbm, ⟨53, _⟩ => ⟨S_, .f32⟩
  | .hbm, ⟨54, _⟩ => ⟨S16x8x784, .f32⟩
  | .hbm, ⟨55, _⟩ => ⟨S16x8x784, .f32⟩
  | .hbm, ⟨56, _⟩ => ⟨S16x8x784x1, .f32⟩
  | .hbm, ⟨57, _⟩ => ⟨S16x8x784x784, .f32⟩
  | .hbm, ⟨58, _⟩ => ⟨S16x8x784x784, .f32⟩
  | .hbm, ⟨59, _⟩ => ⟨S16x8x784x784, .f32⟩
  | .hbm, ⟨60, _⟩ => ⟨S_, .f32⟩
  | .hbm, ⟨61, _⟩ => ⟨S16x8x784, .f32⟩
  | .hbm, ⟨62, _⟩ => ⟨S16x8x784x1, .f32⟩
  | .hbm, ⟨63, _⟩ => ⟨S16x8x784x784, .f32⟩
  | .hbm, ⟨64, _⟩ => ⟨S16x8x784x784, .f32⟩
  | .hbm, ⟨65, _⟩ => ⟨S16x8x784x128, .f32⟩
  | .hbm, ⟨66, _⟩ => ⟨S16x784x8x128, .f32⟩
  | .hbm, ⟨67, _⟩ => ⟨S16x784x1024, .f32⟩
  | .hbm, ⟨68, _⟩ => ⟨S_, .f32⟩
  | .hbm, ⟨69, _⟩ => ⟨S16x784x1024, .f32⟩
  | .hbm, ⟨70, _⟩ => ⟨S16x784x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16x784x1024, .f32⟩
  | .hbm, ⟨75, _⟩ => ⟨S16x784x1024, .f32⟩
  | .hbm, ⟨76, _⟩ => ⟨S_, .f32⟩
  | .hbm, ⟨77, _⟩ => ⟨S16x784x1024, .f32⟩
  | .hbm, ⟨78, _⟩ => ⟨S16x784x1024, .f32⟩
  | .hbm, ⟨79, _⟩ => ⟨S16x784x1024, .f32⟩
  | .hbm, ⟨80, _⟩ => ⟨S_, .f32⟩
  | .hbm, ⟨81, _⟩ => ⟨S16x784x1024, .f32⟩
  | .hbm, ⟨82, _⟩ => ⟨S16x784x1024, .f32⟩
  | .hbm, ⟨83, _⟩ => ⟨S16x784x512, .f32⟩
  | .hbm, ⟨84, _⟩ => ⟨S1x1x512, .f32⟩
  | .hbm, ⟨85, _⟩ => ⟨S16x784x512, .f32⟩
  | .hbm, ⟨86, _⟩ => ⟨S16x784x512, .f32⟩
  | .hbm, ⟨87, _⟩ => ⟨S_, .f32⟩
  | .hbm, ⟨88, _⟩ => ⟨S512, .f32⟩
  | .hbm, ⟨89, _⟩ => ⟨S512, .f32⟩
  | .hbm, ⟨90, _⟩ => ⟨S512, .f32⟩
  | .hbm, ⟨91, _⟩ => ⟨S512, .f32⟩
  | .hbm, ⟨92, _⟩ => ⟨S1x1x512, .f32⟩
  | .hbm, ⟨93, _⟩ => ⟨S16x784x512, .f32⟩
  | .hbm, ⟨94, _⟩ => ⟨S16x784x512, .f32⟩
  | .hbm, ⟨95, _⟩ => ⟨S1x1x512, .f32⟩
  | .hbm, ⟨96, _⟩ => ⟨S16x784x512, .f32⟩
  | .hbm, ⟨97, _⟩ => ⟨S16x784x512, .f32⟩
  | _, _ => ⟨S16x784x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S16x784x1536_0_1_2 : S1x1x1536.BroadcastsInDim S16x784x1536 (![0, 1, 2] : Fin 3 → Fin S16x784x1536.rank)
  bcast_S_S1536 : S_.BroadcastsInDim S1536 (![] : Fin 0 → Fin S1536.rank)
  shapeCasts_S16x784x1536_S16x784x8x192 : S16x784x1536.ShapeCasts S16x784x8x192
  slices_S16x784x8x192_S16x784x8x32_0_0_0_0 : S16x784x8x192.Slices ![0, 0, 0, 0] S16x784x8x32
  slices_S16x784x8x192_S16x784x8x32_0_0_0_32 : S16x784x8x192.Slices ![0, 0, 0, 32] S16x784x8x32
  slices_S16x784x8x192_S16x784x8x128_0_0_0_64 : S16x784x8x192.Slices ![0, 0, 0, 64] S16x784x8x128
  transposes_S16x784x8x32_S16x8x784x32_0_2_1_3 : S16x784x8x32.Transposes [0, 2, 1, 3] S16x8x784x32
  transposes_S16x784x8x128_S16x8x784x128_0_2_1_3 : S16x784x8x128.Transposes [0, 2, 1, 3] S16x8x784x128
  bcast_S_S784x784 : S_.BroadcastsInDim S784x784 (![] : Fin 0 → Fin S784x784.rank)
  bcast_S784x784_S784x784x1_0_1 : S784x784.BroadcastsInDim S784x784x1 (![0, 1] : Fin 2 → Fin S784x784x1.rank)
  bcast_S_S16x8x784x784 : S_.BroadcastsInDim S16x8x784x784 (![] : Fin 0 → Fin S16x8x784x784.rank)
  bcast_S8x784x784_S1x8x784x784_1_2_3 : S8x784x784.BroadcastsInDim S1x8x784x784 (![1, 2, 3] : Fin 3 → Fin S1x8x784x784.rank)
  bcast_S1x8x784x784_S16x8x784x784_0_1_2_3 : S1x8x784x784.BroadcastsInDim S16x8x784x784 (![0, 1, 2, 3] : Fin 4 → Fin S16x8x784x784.rank)
  reducesTo_S16x8x784x784_S16x8x784_d3 : S16x8x784x784.ReducesTo [3] S16x8x784
  h_S_ : 0 < S_.numel
  bcast_S_S16x8x784 : S_.BroadcastsInDim S16x8x784 (![] : Fin 0 → Fin S16x8x784.rank)
  bcast_S16x8x784_S16x8x784x1_0_1_2 : S16x8x784.BroadcastsInDim S16x8x784x1 (![0, 1, 2] : Fin 3 → Fin S16x8x784x1.rank)
  bcast_S16x8x784x1_S16x8x784x784_0_1_2_3 : S16x8x784x1.BroadcastsInDim S16x8x784x784 (![0, 1, 2, 3] : Fin 4 → Fin S16x8x784x784.rank)
  transposes_S16x8x784x128_S16x784x8x128_0_2_1_3 : S16x8x784x128.Transposes [0, 2, 1, 3] S16x784x8x128
  shapeCasts_S16x784x8x128_S16x784x1024 : S16x784x8x128.ShapeCasts S16x784x1024
  bcast_S_S16x784x1024 : S_.BroadcastsInDim S16x784x1024 (![] : Fin 0 → Fin S16x784x1024.rank)
  bcast_S512_S1x1x512_2 : S512.BroadcastsInDim S1x1x512 (![2] : Fin 1 → Fin S1x1x512.rank)
  bcast_S1x1x512_S16x784x512_0_1_2 : S1x1x512.BroadcastsInDim S16x784x512 (![0, 1, 2] : Fin 3 → Fin S16x784x512.rank)
  bcast_S_S512 : S_.BroadcastsInDim S512 (![] : Fin 0 → Fin S512.rank)
  dot_S16x784x512_S1536x512_S16x784x1536_2_1_01_0_n_n_wf : DotDims.WF S16x784x512 S1536x512 S16x784x1536 [2] [1] [0, 1] [0] [] []
  gather_S8x784_S784x784x1_S8x784x784_0_1_n_n_1_2_81_wf : GatherDims.WF S8x784 S784x784x1 S8x784x784 [0] [1] [] [1] [] 2 ![8, 1]
  dot_S16x8x784x32_S16x8x784x32_S16x8x784x784_3_3_2_2_01_01_wf : DotDims.WF S16x8x784x32 S16x8x784x32 S16x8x784x784 [3] [3] [2] [2] [0, 1] [0, 1]
  dot_S16x8x784x784_S16x8x784x128_S16x8x784x128_3_2_2_3_01_01_wf : DotDims.WF S16x8x784x784 S16x8x784x128 S16x8x784x128 [3] [2] [2] [3] [0, 1] [0, 1]
  dot_S16x784x1024_S512x1024_S16x784x512_2_1_01_0_n_n_wf : DotDims.WF S16x784x1024 S512x1024 S16x784x512 [2] [1] [0, 1] [0] [] []

variable [Facts₀]

def dot_S16x784x512_S1536x512_S16x784x1536_2_1_01_0_n_n : DotDims S16x784x512 S1536x512 S16x784x1536 where
  lhsContracting := [2]
  rhsContracting := [1]
  lhsNonContracting := [0, 1]
  rhsNonContracting := [0]
  lhsBatch := []
  rhsBatch := []
  wf := dot_S16x784x512_S1536x512_S16x784x1536_2_1_01_0_n_n_wf
def gather_S8x784_S784x784x1_S8x784x784_0_1_n_n_1_2_81 : GatherDims S8x784 S784x784x1 S8x784x784 where
  offsetDims := [0]
  collapsedSliceDims := [1]
  operandBatchingDims := []
  startIndicesBatchingDims := []
  startIndexMap := [1]
  indexVectorDim := 2
  sliceSizes := ![8, 1]
  wf := gather_S8x784_S784x784x1_S8x784x784_0_1_n_n_1_2_81_wf
def dot_S16x8x784x32_S16x8x784x32_S16x8x784x784_3_3_2_2_01_01 : DotDims S16x8x784x32 S16x8x784x32 S16x8x784x784 where
  lhsContracting := [3]
  rhsContracting := [3]
  lhsNonContracting := [2]
  rhsNonContracting := [2]
  lhsBatch := [0, 1]
  rhsBatch := [0, 1]
  wf := dot_S16x8x784x32_S16x8x784x32_S16x8x784x784_3_3_2_2_01_01_wf
def dot_S16x8x784x784_S16x8x784x128_S16x8x784x128_3_2_2_3_01_01 : DotDims S16x8x784x784 S16x8x784x128 S16x8x784x128 where
  lhsContracting := [3]
  rhsContracting := [2]
  lhsNonContracting := [2]
  rhsNonContracting := [3]
  lhsBatch := [0, 1]
  rhsBatch := [0, 1]
  wf := dot_S16x8x784x784_S16x8x784x128_S16x8x784x128_3_2_2_3_01_01_wf
def dot_S16x784x1024_S512x1024_S16x784x512_2_1_01_0_n_n : DotDims S16x784x1024 S512x1024 S16x784x512 where
  lhsContracting := [2]
  rhsContracting := [1]
  lhsNonContracting := [0, 1]
  rhsNonContracting := [0]
  lhsBatch := []
  rhsBatch := []
  wf := dot_S16x784x1024_S512x1024_S16x784x512_2_1_01_0_n_n_wf

class Facts : Prop extends Facts₀ where

variable [Facts]
-- ==== Proof.Run.lean ====
/-
  The run of the three-kernel program with its RESULT named: every weakly fair execution from a memory with zero
  counters terminates without a fault, the result array holds what the third kernel's write-backs leave
  (the contents after the last region, read at the result's buffer), and the argument arrays are unchanged.
-/
import proofs.«120797_j82815559401482_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result array ends at the contents after the last region, the arguments as launched. -/
theorem run : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.ResultRun

end
-- ==== Proof.Host.lean ====
/-
  What the host operations around the three kernels leave in the buffers the kernels read: the transposed weights
  (entry `(k, h)` of the transpose is entry `(h, k)` of the weight; the change of float format is the identity on the
  extended reals), the normalisation vectors recast as one-row matrices, the gathered position bias, and each
  kernel's output array handed on unchanged to the next kernel.
-/
import proofs.«120797_j82815559401482_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The argument arrays as launched, as functions of an index. -/
abbrev mX (c : Dev nD) : S16x784x512.Idx → EReal := m ((c : Thread nD τ).loc main_arg0)
abbrev mWq (c : Dev nD) : S1536x512.Idx → EReal := m ((c : Thread nD τ).loc main_arg1)
abbrev mA2 (c : Dev nD) : S1536.Idx → EReal := m ((c : Thread nD τ).loc main_arg2)
abbrev mA3 (c : Dev nD) : S1536.Idx → EReal := m ((c : Thread nD τ).loc main_arg3)
abbrev mA4 (c : Dev nD) : S1536.Idx → EReal := m ((c : Thread nD τ).loc main_arg4)
abbrev mA5 (c : Dev nD) : S1536.Idx → EReal := m ((c : Thread nD τ).loc main_arg5)
abbrev mWp (c : Dev nD) : S512x1024.Idx → EReal := m ((c : Thread nD τ).loc main_arg7)
abbrev mA8 (c : Dev nD) : S512.Idx → EReal := m ((c : Thread nD τ).loc main_arg8)
abbrev mA9 (c : Dev nD) : S512.Idx → EReal := m ((c : Thread nD τ).loc main_arg9)
abbrev mA10 (c : Dev nD) : S512.Idx → EReal := m ((c : Thread nD τ).loc main_arg10)
abbrev mA11 (c : Dev nD) : S512.Idx → EReal := m ((c : Thread nD τ).loc main_arg11)

/-- The gathered position bias: the table's rows taken at the (wrapped) integer indices. -/
def biasK (x6 : (⟨S8x784, .f32⟩ : BufTy).Contents (Elt Ideal)) (x12 : (⟨S784x784, .i32⟩ : BufTy).Contents (Elt Ideal)) : S8x784x784.Idx → EReal :=
  Host.gather gather_S8x784_S784x784x1_S8x784x784_0_1_n_n_1_2_81 x6
    (broadcastInDim S784x784x1 ![0, 1] bcast_S784x784_S784x784x1_0_1
      (select (cmpi .slt x12 (broadcastInDim S784x784 ![] bcast_S_S784x784 (constantI S_ 32 0#32)))
        (addi x12 (broadcastInDim S784x784 ![] bcast_S_S784x784 (constantI S_ 32 784#32))) x12))

/-! ## Before the first kernel -/

theorem v1_arg0 (c : Dev nD) : V1 m ρ c main_arg0 = mX m c := by
  show StableHlo.after hostOps0 (W0 m ρ c) (Proc.devRef .tc main_arg0) = _
  after_results

theorem v1_v9 (c : Dev nD) (k : Fin 512) (h : Fin 1536) :
    (V1 m ρ c main_v9 : S512x1536.Idx → EReal) (ix2 k h) = mWq m c (ix2 h k) := by
  have e : (V1 m ρ c main_v9 : S512x1536.Idx → EReal)
      = (truncf (F := Ideal) .bf16 (transpose S512x1536 [1, 0] (mWq m c) transposes_S1536x512_S512x1536_1_0) bitsLt_bf16_f32 : S512x1536.Idx → EReal) := by
    show StableHlo.after hostOps0 (W0 m ρ c) (Proc.devRef .tc main_v9) = _
    after_results
    try rfl
  rw [e]
  exact transpose_ix2_apply (mWq m c) transposes_S1536x512_S512x1536_1_0 k h

theorem v1_v10 (c : Dev nD) (h : Fin 1536) :
    (V1 m ρ c main_v10 : S1x1536.Idx → EReal) (ix2 (0 : Fin 1) h) = mA2 m c (ix1 h) := by
  have e : (V1 m ρ c main_v10 : S1x1536.Idx → EReal) = (shapeCast S1x1536 (mA2 m c) shapeCasts_S1536_S1x1536 : S1x1536.Idx → EReal) := by
    show StableHlo.after hostOps0 (W0 m ρ c) (Proc.devRef .tc main_v10) = _
    after_results
    try rfl
  rw [e]
  exact shapeCast_a_1a_apply (mA2 m c) shapeCasts_S1536_S1x1536 0 h

theorem v1_v11 (c : Dev nD) (h : Fin 1536) :
    (V1 m ρ c main_v11 : S1x1536.Idx → EReal) (ix2 (0 : Fin 1) h) = mA3 m c (ix1 h) := by
  have e : (V1 m ρ c main_v11 : S1x1536.Idx → EReal) = (shapeCast S1x1536 (mA3 m c) shapeCasts_S1536_S1x1536 : S1x1536.Idx → EReal) := by
    show StableHlo.after hostOps0 (W0 m ρ c) (Proc.devRef .tc main_v11) = _
    after_results
    try rfl
  rw [e]
  exact shapeCast_a_1a_apply (mA3 m c) shapeCasts_S1536_S1x1536 0 h

theorem v1_v12 (c : Dev nD) (h : Fin 1536) :
    (V1 m ρ c main_v12 : S1x1536.Idx → EReal) (ix2 (0 : Fin 1) h) = mA4 m c (ix1 h) := by
  have e : (V1 m ρ c main_v12 : S1x1536.Idx → EReal) = (shapeCast S1x1536 (mA4 m c) shapeCasts_S1536_S1x1536 : S1x1536.Idx → EReal) := by
    show StableHlo.after hostOps0 (W0 m ρ c) (Proc.devRef .tc main_v12) = _
    after_results
    try rfl
  rw [e]
  exact shapeCast_a_1a_apply (mA4 m c) shapeCasts_S1536_S1x1536 0 h

theorem v1_v13 (c : Dev nD) (h : Fin 1536) :
    (V1 m ρ c main_v13 : S1x1536.Idx → EReal) (ix2 (0 : Fin 1) h) = mA5 m c (ix1 h) := by
  have e : (V1 m ρ c main_v13 : S1x1536.Idx → EReal) = (shapeCast S1x1536 (mA5 m c) shapeCasts_S1536_S1x1536 : S1x1536.Idx → EReal) := by
    show StableHlo.after hostOps0 (W0 m ρ c) (Proc.devRef .tc main_v13) = _
    after_results
    try rfl
  rw [e]
  exact shapeCast_a_1a_apply (mA5 m c) shapeCasts_S1536_S1x1536 0 h

/-! ## Between the first and the second kernel -/

/-- The second kernel finds the first kernel's output array as the first kernel left it. -/
theorem v2_v14 (c : Dev nD) : V2 m ρ c main_v14 = (dat0 (V1 m ρ) c).arrAt 6 cfg0.N := W2_arr m ρ c 6

/-- The second kernel finds the gathered bias the host wrote before the first kernel. -/
theorem v2_v7 (c : Dev nD) :
    (V2 m ρ c main_v7 : S8x784x784.Idx → EReal) = biasK (m ((c : Thread nD τ).loc main_arg6)) (m ((c : Thread nD τ).loc main_arg12)) := by
  have e1 : W2 m ρ c (Proc.devRef .tc main_v7) = W1 m ρ c (Proc.devRef .tc main_v7) := W2_of_ne m ρ c main_v7 (by decide)
  show W2 m ρ c (Proc.devRef .tc main_v7) = _
  rw [e1]
  show StableHlo.after hostOps0 (W0 m ρ c) (Proc.devRef .tc main_v7) = _
  after_results
  try rfl

/-! ## Between the second and the third kernel -/

/-- The third kernel finds the second kernel's output array as the second kernel left it. -/
theorem v4_v15 (c : Dev nD) : V4 m ρ c main_v15 = (dat1 (V2 m ρ) c).arrAt 2 cfg1.N := by
  have e : V4 m ρ c main_v15 = W3 m ρ c (Proc.devRef .tc main_v15) := by
    show StableHlo.after hostOps2 (W3 m ρ c) (Proc.devRef .tc main_v15) = _
    after_results
  rw [e]
  exact W3_arr m ρ c 2

/-- An argument array the regions do not write is, after the second kernel, as launched. -/
theorem w3_arg7 (c : Dev nD) : W3 m ρ c (Proc.devRef .tc main_arg7) = m ((c : Thread nD τ).loc main_arg7) := by
  have e4 : W4 m ρ c (Proc.devRef .tc main_arg7) = W3 m ρ c (Proc.devRef .tc main_arg7) := by
    show StableHlo.after hostOps2 (W3 m ρ c) (Proc.devRef .tc main_arg7) = _
    after_results
  rw [← e4, ← W5_of_ne m ρ c main_arg7 (by decide)]
  exact W5_main_arg7 m ρ c
theorem w3_arg8 (c : Dev nD) : W3 m ρ c (Proc.devRef .tc main_arg8) = m ((c : Thread nD τ).loc main_arg8) := by
  have e4 : W4 m ρ c (Proc.devRef .tc main_arg8) = W3 m ρ c (Proc.devRef .tc main_arg8) := by
    show StableHlo.after hostOps2 (W3 m ρ c) (Proc.devRef .tc main_arg8) = _
    after_results
  rw [← e4, ← W5_of_ne m ρ c main_arg8 (by decide)]
  exact W5_main_arg8 m ρ c
theorem w3_arg9 (c : Dev nD) : W3 m ρ c (Proc.devRef .tc main_arg9) = m ((c : Thread nD τ).loc main_arg9) := by
  have e4 : W4 m ρ c (Proc.devRef .tc main_arg9) = W3 m ρ c (Proc.devRef .tc main_arg9) := by
    show StableHlo.after hostOps2 (W3 m ρ c) (Proc.devRef .tc main_arg9) = _
    after_results
  rw [← e4, ← W5_of_ne m ρ c main_arg9 (by decide)]
  exact W5_main_arg9 m ρ c
theorem w3_arg10 (c : Dev nD) : W3 m ρ c (Proc.devRef .tc main_arg10) = m ((c : Thread nD τ).loc main_arg10) := by
  have e4 : W4 m ρ c (Proc.devRef .tc main_arg10) = W3 m ρ c (Proc.devRef .tc main_arg10) := by
    show StableHlo.after hostOps2 (W3 m ρ c) (Proc.devRef .tc main_arg10) = _
    after_results
  rw [← e4, ← W5_of_ne m ρ c main_arg10 (by decide)]
  exact W5_main_arg10 m ρ c
theorem w3_arg11 (c : Dev nD) : W3 m ρ c (Proc.devRef .tc main_arg11) = m ((c : Thread nD τ).loc main_arg11) := by
  have e4 : W4 m ρ c (Proc.devRef .tc main_arg11) = W3 m ρ c (Proc.devRef .tc main_arg11) := by
    show StableHlo.after hostOps2 (W3 m ρ c) (Proc.devRef .tc main_arg11) = _
    after_results
  rw [← e4, ← W5_of_ne m ρ c main_arg11 (by decide)]
  exact W5_main_arg11 m ρ c

theorem v4_v17 (c : Dev nD) (e : Fin 1024) (o : Fin 512) :
    (V4 m ρ c main_v17 : S1024x512.Idx → EReal) (ix2 e o) = mWp m c (ix2 o e) := by
  have h : (V4 m ρ c main_v17 : S1024x512.Idx → EReal)
      = (truncf (F := Ideal) .bf16 (transpose S1024x512 [1, 0] (W3 m ρ c (Proc.devRef .tc main_arg7) : S512x1024.Idx → EReal) transposes_S512x1024_S1024x512_1_0) bitsLt_bf16_f32 : S1024x512.Idx → EReal) := by
    show StableHlo.after hostOps2 (W3 m ρ c) (Proc.devRef .tc main_v17) = _
    after_results
    try rfl
  rw [h, w3_arg7]
  exact transpose_ix2_apply (mWp m c) transposes_S512x1024_S1024x512_1_0 e o

theorem v4_v18 (c : Dev nD) (o : Fin 512) :
    (V4 m ρ c main_v18 : S1x512.Idx → EReal) (ix2 (0 : Fin 1) o) = mA8 m c (ix1 o) := by
  have h : (V4 m ρ c main_v18 : S1x512.Idx → EReal) = (shapeCast S1x512 (W3 m ρ c (Proc.devRef .tc main_arg8) : S512.Idx → EReal) shapeCasts_S512_S1x512 : S1x512.Idx → EReal) := by
    show StableHlo.after hostOps2 (W3 m ρ c) (Proc.devRef .tc main_v18) = _
    after_results
    try rfl
  rw [h, w3_arg8]
  exact shapeCast_a_1a_apply (mA8 m c) shapeCasts_S512_S1x512 0 o

theorem v4_v19 (c : Dev nD) (o : Fin 512) :
    (V4 m ρ c main_v19 : S1x512.Idx → EReal) (ix2 (0 : Fin 1) o) = mA9 m c (ix1 o) := by
  have h : (V4 m ρ c main_v19 : S1x512.Idx → EReal) = (shapeCast S1x512 (W3 m ρ c (Proc.devRef .tc main_arg9) : S512.Idx → EReal) shapeCasts_S512_S1x512 : S1x512.Idx → EReal) := by
    show StableHlo.after hostOps2 (W3 m ρ c) (Proc.devRef .tc main_v19) = _
    after_results
    try rfl
  rw [h, w3_arg9]
  exact shapeCast_a_1a_apply (mA9 m c) shapeCasts_S512_S1x512 0 o

theorem v4_v20 (c : Dev nD) (o : Fin 512) :
    (V4 m ρ c main_v20 : S1x512.Idx → EReal) (ix2 (0 : Fin 1) o) = mA10 m c (ix1 o) := by
  have h : (V4 m ρ c main_v20 : S1x512.Idx → EReal) = (shapeCast S1x512 (W3 m ρ c (Proc.devRef .tc main_arg10) : S512.Idx → EReal) shapeCasts_S512_S1x512 : S1x512.Idx → EReal) := by
    show StableHlo.after hostOps2 (W3 m ρ c) (Proc.devRef .tc main_v20) = _
    after_results
    try rfl
  rw [h, w3_arg10]
  exact shapeCast_a_1a_apply (mA10 m c) shapeCasts_S512_S1x512 0 o

theorem v4_v21 (c : Dev nD) (o : Fin 512) :
    (V4 m ρ c main_v21 : S1x512.Idx → EReal) (ix2 (0 : Fin 1) o) = mA11 m c (ix1 o) := by
  have h : (V4 m ρ c main_v21 : S1x512.Idx → EReal) = (shapeCast S1x512 (W3 m ρ c (Proc.devRef .tc main_arg11) : S512.Idx → EReal) shapeCasts_S512_S1x512 : S1x512.Idx → EReal) := by
    show StableHlo.after hostOps2 (W3 m ρ c) (Proc.devRef .tc main_v21) = _
    after_results
    try rfl
  rw [h, w3_arg11]
  exact shapeCast_a_1a_apply (mA11 m c) shapeCasts_S512_S1x512 0 o

end Cert.KernelIdeal.HostVals

end
-- ==== Proof.Spec.lean ====
/-
  The mathematics of the three stages, entry by entry, on the extended reals.

  * `bnE`: inference batch normalisation of one entry of a matrix product, `(mm - μ) · (γ · rsqrt (σ² + ε)) + β`.
  * `hswE`: hard-swish of one entry, `x · min 6 (max 0 (x + 3)) · (1/6)` with the three literals as their binary values.
  * `attn`: one head of softmax attention with an additive position bias, followed by hard-swish: the scores
    `s n j = (∑ c, Q n c · K j c) · scale + B n j`, the row maximum `M n` (never below -∞), the weights
    `exp (s n j - M n) / ∑ j', exp (s n j' - M n)`, and the weighted sum of the value rows.
-/
import Idealize.ShloMosaic.PureOps.Ideal
import Idealize.ShloMosaic.Lib.ValueIdx

noncomputable section

namespace Cert.Spec

open Idealize.ShloMosaic

/-- Batch normalisation of one entry: `(mm - μ) · (γ · rsqrt (σ² + ε)) + β`. -/
def bnE (mm mu g var beta : EReal) : EReal :=
  (mm - mu) * (g * Ideal.rsqrt (var + Ideal.ofBits .f32 0x3727C5AC#32)) + beta

/-- Hard-swish of one entry: `x · min 6 (max 0 (x + 3)) · (1/6)`. -/
def hswE (x : EReal) : EReal :=
  x * min (Ideal.ofBits .f32 0x40C00000#32) (max (Ideal.ofBits .f32 0x00000000#32) (x + Ideal.ofBits .f32 0x40400000#32))
    * Ideal.ofBits .f32 0x3E2AAAAB#32

/-- The score of query row `n` against key row `j`: the scaled inner product plus the position bias. -/
def score (Q K : Fin 784 → Fin 32 → EReal) (Bm : Fin 784 → Fin 784 → EReal) (n j : Fin 784) : EReal :=
  (∑ c : Fin 32, Q n c * K j c) * Ideal.ofBits .f32 0x3E3504F3#32 + Bm n j

/-- The maximum of a row of scores, taken from -∞. -/
def rowMax (s : Fin 784 → EReal) : EReal :=
  max (Ideal.ofBits .f32 0xFF800000#32) ((Finset.univ : Finset (Fin 784)).fold max (Ideal.ofBits .f32 0xFF800000#32) s)

/-- The unnormalised softmax weight `exp (s n j - M n)`. -/
def expo (Q K : Fin 784 → Fin 32 → EReal) (Bm : Fin 784 → Fin 784 → EReal) (n j : Fin 784) : EReal :=
  Ideal.exp (score Q K Bm n j - rowMax (score Q K Bm n))

/-- One head of attention at output row `n`, column `d`, after the hard-swish. -/
def attn (Q K : Fin 784 → Fin 32 → EReal) (V : Fin 784 → Fin 128 → EReal) (Bm : Fin 784 → Fin 784 → EReal)
    (n : Fin 784) (d : Fin 128) : EReal :=
  hswE (∑ j : Fin 784, Ideal.div (expo Q K Bm n j) (∑ j' : Fin 784, expo Q K Bm n j') * V j d)

end Cert.Spec

end
-- ==== Proof.Compose.lean ====
/-
  The three stages composed, as whole arrays over literal shapes: the projected activations `stageQ` (a matrix product
  with the weight's rows, batch-normalised per output channel), the attention output `stageA` (column `col` belongs to
  head `col / 128`, place `col % 128`; head `hd` reads the channels `192·hd + [0, 32)` as queries, `+ [32, 64)` as keys,
  `+ [64, 192)` as values), and the output projection `stageO`.
-/
import proofs.«120797_j82815559401482_1_alg».proof.Proof.Spec

noncomputable section

namespace Cert.Compose

open Idealize.ShloMosaic Idealize.ShloMosaic.ValueIdx

/-- The head a column of the attention output belongs to, and the column's place inside the head. -/
def hdOf (col : Fin 1024) : Fin 8 := ⟨col.val / 128, by have := col.isLt; omega⟩
def dOf (col : Fin 1024) : Fin 128 := ⟨col.val % 128, Nat.mod_lt _ (by decide)⟩

/-- One entry of the attention stage of batch `bt`, head `hd`, from a projected-activations array and a bias array. -/
def headAt (A0 : (⟨3, ![16, 784, 1536]⟩ : Shape).Idx → EReal) (A1 : (⟨3, ![8, 784, 784]⟩ : Shape).Idx → EReal)
    (bt : Fin 16) (n : Fin 784) (hd : Fin 8) (d : Fin 128) : EReal :=
  Cert.Spec.attn (fun n c => A0 (ix3 bt n (⟨192 * hd.val + c.val, by omega⟩ : Fin 1536)))
    (fun j c => A0 (ix3 bt j (⟨192 * hd.val + 32 + c.val, by omega⟩ : Fin 1536)))
    (fun j e => A0 (ix3 bt j (⟨192 * hd.val + 64 + e.val, by omega⟩ : Fin 1536)))
    (fun n j => A1 (ix3 hd n j)) n d

/-- The projected activations: entry `(bt, n, h)` is the batch normalisation of `∑ k, X[bt, n, k] · W[h, k]`. -/
def stageQ (X : (⟨3, ![16, 784, 512]⟩ : Shape).Idx → EReal) (W : (⟨2, ![1536, 512]⟩ : Shape).Idx → EReal)
    (g b mu var : (⟨1, ![1536]⟩ : Shape).Idx → EReal) : (⟨3, ![16, 784, 1536]⟩ : Shape).Idx → EReal :=
  fun i => Cert.Spec.bnE (∑ k : Fin 512, X (ix3 (i 0) (i 1) k) * W (ix2 (i 2) k)) (mu (ix1 (i 2))) (g (ix1 (i 2))) (var (ix1 (i 2))) (b (ix1 (i 2)))

/-- The attention output. -/
def stageA (Q : (⟨3, ![16, 784, 1536]⟩ : Shape).Idx → EReal) (B : (⟨3, ![8, 784, 784]⟩ : Shape).Idx → EReal) :
    (⟨3, ![16, 784, 1024]⟩ : Shape).Idx → EReal :=
  fun i => headAt Q B (i 0) (i 1) (hdOf (i 2)) (dOf (i 2))

/-- The output projection: entry `(bt, n, o)` is the batch normalisation of `∑ e, A[bt, n, e] · W[o, e]`. -/
def stageO (A : (⟨3, ![16, 784, 1024]⟩ : Shape).Idx → EReal) (W : (⟨2, ![512, 1024]⟩ : Shape).Idx → EReal)
    (g b mu var : (⟨1, ![512]⟩ : Shape).Idx → EReal) : (⟨3, ![16, 784, 512]⟩ : Shape).Idx → EReal :=
  fun i => Cert.Spec.bnE (∑ e : Fin 1024, A (ix3 (i 0) (i 1) e) * W (ix2 (i 2) e)) (mu (ix1 (i 2))) (g (ix1 (i 2))) (var (ix1 (i 2))) (b (ix1 (i 2)))

/-- The whole block. -/
def whole (X : (⟨3, ![16, 784, 512]⟩ : Shape).Idx → EReal) (Wq : (⟨2, ![1536, 512]⟩ : Shape).Idx → EReal)
    (g1 b1 mu1 var1 : (⟨1, ![1536]⟩ : Shape).Idx → EReal) (B : (⟨3, ![8, 784, 784]⟩ : Shape).Idx → EReal)
    (Wp : (⟨2, ![512, 1024]⟩ : Shape).Idx → EReal) (g2 b2 mu2 var2 : (⟨1, ![512]⟩ : Shape).Idx → EReal) :
    (⟨3, ![16, 784, 512]⟩ : Shape).Idx → EReal :=
  stageO (stageA (stageQ X Wq g1 b1 mu1 var1) B) Wp g2 b2 mu2 var2

end Cert.Compose

end
-- ==== Proof.Region0.lean ====
/-
  The first kernel's output array, entry by entry: with the grid over the 16 batches, point `t` reads batch `t` of the
  activations and the whole of the transposed weight and of the four normalisation rows, and writes back batch `t` of
  the result; the blocks tile the array, so after the region entry `(t, n, h)` holds the batch normalisation of
  `∑ k, x[t, n, k] · wᵀ[k, h]`.
-/
import proofs.«120797_j82815559401482_1_alg».proof.Proof.Gen.KernelIdeal.Frame
import proofs.«120797_j82815559401482_1_alg».proof.Proof.Spec
import proofs.«120797_j82815559401482_1_alg».proof.Proof.Compose
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The arrays the region reads, as it finds them. -/
abbrev aX (c : Dev nD) : S16x784x512.Idx → EReal := V c main_arg0
abbrev aW (c : Dev nD) : S512x1536.Idx → EReal := V c main_v9
abbrev aG (c : Dev nD) : S1x1536.Idx → EReal := V c main_v10
abbrev aB (c : Dev nD) : S1x1536.Idx → EReal := V c main_v11
abbrev aM (c : Dev nD) : S1x1536.Idx → EReal := V c main_v12
abbrev aS (c : Dev nD) : S1x1536.Idx → EReal := V c main_v13

/-- One entry of the first stage, from the arrays as the region finds them. -/
def g0 (c : Dev nD) (bt : Fin 16) (n : Fin 784) (h : Fin 1536) : EReal :=
  Cert.Spec.bnE (∑ k : Fin 512, aX V c (ix3 bt n k) * aW V c (ix2 k h))
    (aM V c (ix2 (0 : Fin 1) h)) (aG V c (ix2 (0 : Fin 1) h)) (aS V c (ix2 (0 : Fin 1) h)) (aB V c (ix2 (0 : Fin 1) h))

/-- The first stage as an array. -/
def G0 (c : Dev nD) : S16x784x1536.Idx → EReal := fun i => g0 V c (i 0) (i 1) (i 2)

/-- What a block of the output holds, entry by entry (the kernel body's arithmetic read at an index). -/
def BlockFact : Prop :=
  ∀ (x0 : Vec Ideal S1x784x512 .f32) (x1 : Vec Ideal S512x1536 .bf16) (x2 x3 x4 x5 : Vec Ideal S1x1536 .f32) (n : Fin 784) (h : Fin 1536),
    out0_6 (F := Ideal) x0 x1 x2 x3 x4 x5 (ix3 (0 : Fin 1) n h)
      = Cert.Spec.bnE (∑ k : Fin 512, x0 (ix3 (0 : Fin 1) n k) * x1 (ix2 k h)) (x4 (ix2 (0 : Fin 1) h)) (x2 (ix2 (0 : Fin 1) h)) (x5 (ix2 (0 : Fin 1) h)) (x3 (ix2 (0 : Fin 1) h))

/-- The index maps over the grid: the activations' and the result's block index is the batch, every other block index zero. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem tlt (t : Fin cfg0.N) : t.val < 16 := t.isLt

/-- Batch `t` of the activations, read through the block. -/
theorem read0 (c : Dev nD) (t : Fin cfg0.N) (n : Fin 784) (k : Fin 512) :
    iblk0 V c 0 t (ix3 (0 : Fin 1) n k) = aX V c (ix3 (⟨t.val, tlt t⟩ : Fin 16) n k) := by
  obtain ⟨e0, e1, e2, -⟩ := idx_facts t
  show V c main_arg0 (((cfg0.win 0).blk t).view.emb (ix3 (0 : Fin 1) n k)) = _
  refine congrArg (V c main_arg0) ?_
  funext a; apply Fin.ext
  match a with
  | ⟨0, _⟩ => show win0_0.index t (0 : Fin 3) * 1 + 1 * 0 = t.val; omega
  | ⟨1, _⟩ => show win0_0.index t (1 : Fin 3) * 784 + 1 * n.val = n.val; omega
  | ⟨2, _⟩ => show win0_0.index t (2 : Fin 3) * 512 + 1 * k.val = k.val; omega

/-- The transposed weight, read through its one block. -/
theorem read1 (c : Dev nD) (t : Fin cfg0.N) (k : Fin 512) (h : Fin 1536) :
    iblk0 V c 1 t (ix2 k h) = aW V c (ix2 k h) := by
  obtain ⟨-, -, -, e0, e1, -⟩ := idx_facts t
  show V c main_v9 (((cfg0.win 1).blk t).view.emb (ix2 k h)) = _
  refine congrArg (V c main_v9) ?_
  funext a; apply Fin.ext
  match a with
  | ⟨0, _⟩ => show win0_1.index t (0 : Fin 2) * 512 + 1 * k.val = k.val; omega
  | ⟨1, _⟩ => show win0_1.index t (1 : Fin 2) * 1536 + 1 * h.val = h.val; omega

theorem read2 (c : Dev nD) (t : Fin cfg0.N) (h : Fin 1536) :
    iblk0 V c 2 t (ix2 (0 : Fin 1) h) = aG V c (ix2 (0 : Fin 1) h) := by
  obtain ⟨-, -, -, -, -, e0, e1, -⟩ := idx_facts t
  show V c main_v10 (((cfg0.win 2).blk t).view.emb (ix2 (0 : Fin 1) h)) = _
  refine congrArg (V c main_v10) ?_
  funext a; apply Fin.ext
  match a with
  | ⟨0, _⟩ => show win0_2.index t (0 : Fin 2) * 1 + 1 * 0 = 0; omega
  | ⟨1, _⟩ => show win0_2.index t (1 : Fin 2) * 1536 + 1 * h.val = h.val; omega

theorem read3 (c : Dev nD) (t : Fin cfg0.N) (h : Fin 1536) :
    iblk0 V c 3 t (ix2 (0 : Fin 1) h) = aB V c (ix2 (0 : Fin 1) h) := by
  obtain ⟨-, -, -, -, -, -, -, e0, e1, -⟩ := idx_facts t
  show V c main_v11 (((cfg0.win 3).blk t).view.emb (ix2 (0 : Fin 1) h)) = _
  refine congrArg (V c main_v11) ?_
  funext a; apply Fin.ext
  match a with
  | ⟨0, _⟩ => show win0_3.index t (0 : Fin 2) * 1 + 1 * 0 = 0; omega
  | ⟨1, _⟩ => show win0_3.index t (1 : Fin 2) * 1536 + 1 * h.val = h.val; omega

theorem read4 (c : Dev nD) (t : Fin cfg0.N) (h : Fin 1536) :
    iblk0 V c 4 t (ix2 (0 : Fin 1) h) = aM V c (ix2 (0 : Fin 1) h) := by
  obtain ⟨-, -, -, -, -, -, -, -, -, e0, e1, -⟩ := idx_facts t
  show V c main_v12 (((cfg0.win 4).blk t).view.emb (ix2 (0 : Fin 1) h)) = _
  refine congrArg (V c main_v12) ?_
  funext a; apply Fin.ext
  match a with
  | ⟨0, _⟩ => show win0_4.index t (0 : Fin 2) * 1 + 1 * 0 = 0; omega
  | ⟨1, _⟩ => show win0_4.index t (1 : Fin 2) * 1536 + 1 * h.val = h.val; omega

theorem read5 (c : Dev nD) (t : Fin cfg0.N) (h : Fin 1536) :
    iblk0 V c 5 t (ix2 (0 : Fin 1) h) = aS V c (ix2 (0 : Fin 1) h) := by
  obtain ⟨-, -, -, -, -, -, -, -, -, -, -, e0, e1, -⟩ := idx_facts t
  show V c main_v13 (((cfg0.win 5).blk t).view.emb (ix2 (0 : Fin 1) h)) = _
  refine congrArg (V c main_v13) ?_
  funext a; apply Fin.ext
  match a with
  | ⟨0, _⟩ => show win0_5.index t (0 : Fin 2) * 1 + 1 * 0 = 0; omega
  | ⟨1, _⟩ => show win0_5.index t (1 : Fin 2) * 1536 + 1 * h.val = h.val; omega

/-- A block of the output, entry by entry, from blocks that are restrictions of whole arrays. -/
theorem blk_eq (hB : BlockFact) (x0 : Vec Ideal S1x784x512 .f32) (x1 : Vec Ideal S512x1536 .bf16) (x2 x3 x4 x5 : Vec Ideal S1x1536 .f32)
    (A0 : S16x784x512.Idx → EReal) (A1 : S512x1536.Idx → EReal) (A2 A3 A4 A5 : S1x1536.Idx → EReal) (bt : Fin 16)
    (h0 : ∀ n k, x0 (ix3 (0 : Fin 1) n k) = A0 (ix3 bt n k)) (h1 : ∀ k h, x1 (ix2 k h) = A1 (ix2 k h))
    (h2 : ∀ h, x2 (ix2 (0 : Fin 1) h) = A2 (ix2 (0 : Fin 1) h)) (h3 : ∀ h, x3 (ix2 (0 : Fin 1) h) = A3 (ix2 (0 : Fin 1) h))
    (h4 : ∀ h, x4 (ix2 (0 : Fin 1) h) = A4 (ix2 (0 : Fin 1) h)) (h5 : ∀ h, x5 (ix2 (0 : Fin 1) h) = A5 (ix2 (0 : Fin 1) h))
    (y : S1x784x1536.Idx) :
    out0_6 (F := Ideal) x0 x1 x2 x3 x4 x5 y
      = Cert.Spec.bnE (∑ k : Fin 512, A0 (ix3 bt (y 1) k) * A1 (ix2 k (y 2))) (A4 (ix2 (0 : Fin 1) (y 2))) (A2 (ix2 (0 : Fin 1) (y 2)))
          (A5 (ix2 (0 : Fin 1) (y 2))) (A3 (ix2 (0 : Fin 1) (y 2))) := by
  obtain ⟨a, n, h, rfl⟩ : ∃ (a : Fin 1) (n : Fin 784) (h : Fin 1536), y = ix3 a n h := ⟨y 0, y 1, y 2, eq_ix3 y⟩
  obtain rfl : a = 0 := Subsingleton.elim _ _
  rw [hB x0 x1 x2 x3 x4 x5 n h]
  simp only [h0, h1, h2, h3, h4, h5]

/-- What point `t` writes back is batch `t` of the first stage. -/
theorem flushed_eq (hB : BlockFact) (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  funext j
  show out0_6 (iblk0 V c 0 t) (iblk0 V c 1 t) (iblk0 V c 2 t) (iblk0 V c 3 t) (iblk0 V c 4 t) (iblk0 V c 5 t) j = G0 V c (((cfg0.win 6).blk t).view.emb j)
  refine (blk_eq hB _ _ _ _ _ _ (aX V c) (aW V c) (aG V c) (aB V c) (aM V c) (aS V c) ⟨t.val, tlt t⟩
    (read0 V c t) (read1 V c t) (read2 V c t) (read3 V c t) (read4 V c t) (read5 V c t) j).trans ?_
  obtain ⟨-, -, -, -, -, -, -, -, -, -, -, -, -, e0, e1, e2⟩ := idx_facts t
  have hemb : ((cfg0.win 6).blk t).view.emb j = ix3 (⟨t.val, tlt t⟩ : Fin 16) (j 1) (j 2) := by
    funext a; apply Fin.ext
    match a with
    | ⟨0, _⟩ => show win0_6.index t (0 : Fin 3) * 1 + 1 * (j 0).val = t.val; have hj : (j 0).val < 1 := (j 0).isLt; omega
    | ⟨1, _⟩ => show win0_6.index t (1 : Fin 3) * 784 + 1 * (j 1).val = (j 1).val; omega
    | ⟨2, _⟩ => show win0_6.index t (2 : Fin 3) * 1536 + 1 * (j 2).val = (j 2).val; omega
  rw [hemb]
  rfl

/-- An index of the result array is in point `t`'s block iff each coordinate is in the block's range on its axis. -/
theorem mem_blk (t : Fin cfg0.N) (i : S16x784x1536.Idx) :
    i ∈ ((cfg0.win 6).blk t).view.set ↔ ∀ a : Fin 3, win0_6.index t a * S1x784x1536.size a ≤ (i a).val ∧ (i a).val < win0_6.index t a * S1x784x1536.size a + S1x784x1536.size a := by
  show i ∈ ((View.whole main_v14).slice (win0_6.rect t)).set ↔ _
  rw [View.set_slice_whole, Rect.mem_set_unit]
  exact Iff.rfl

/-- The blocks tile the array: entry `(b, n, h)` is in the block of point `b`. -/
theorem cover (i : S16x784x1536.Idx) : ∃ t : Fin cfg0.N, (cfg0.win 6).flush t = true ∧ i ∈ ((cfg0.win 6).blk t).view.set := by
  have hi0 : (i 0).val < 16 := (i 0).isLt
  have hi1 : (i 1).val < 784 := (i 1).isLt
  have hi2 : (i 2).val < 1536 := (i 2).isLt
  refine ⟨⟨(i 0).val, hi0⟩, flush0_6 _, ?_⟩
  rw [mem_blk]
  obtain ⟨-, -, -, -, -, -, -, -, -, -, -, -, -, e0, e1, e2⟩ := idx_facts ⟨(i 0).val, hi0⟩
  intro a
  match a with
  | ⟨0, _⟩ => show win0_6.index ⟨(i 0).val, hi0⟩ (0 : Fin 3) * 1 ≤ (i 0).val ∧ (i 0).val < win0_6.index ⟨(i 0).val, hi0⟩ (0 : Fin 3) * 1 + 1; rw [e0]; show (i 0).val * 1 ≤ (i 0).val ∧ (i 0).val < (i 0).val * 1 + 1; omega
  | ⟨1, _⟩ => show win0_6.index ⟨(i 0).val, hi0⟩ (1 : Fin 3) * 784 ≤ (i 1).val ∧ (i 1).val < win0_6.index ⟨(i 0).val, hi0⟩ (1 : Fin 3) * 784 + 784; omega
  | ⟨2, _⟩ => show win0_6.index ⟨(i 0).val, hi0⟩ (2 : Fin 3) * 1536 ≤ (i 2).val ∧ (i 2).val < win0_6.index ⟨(i 0).val, hi0⟩ (2 : Fin 3) * 1536 + 1536; omega

/-- THE ARRAY after the region: the first stage of the arrays the region found. -/
theorem arr (hB : BlockFact) (c : Dev nD) : (dat0 V c).arrAt 6 cfg0.N = G0 V c :=
  (dat0 V c).arrAt_eq_of_cover 6 (G0 V c) (fun t _ => flushed_eq V hB c t) cover

/-- The first stage of the arrays the region found is the composed stage of the arrays they restate. -/
theorem G0_eq (c : Dev nD) (X : S16x784x512.Idx → EReal) (W : S1536x512.Idx → EReal) (g b mu var : S1536.Idx → EReal)
    (hX : aX V c = X) (hW : ∀ k h, aW V c (ix2 k h) = W (ix2 h k))
    (hG : ∀ h, aG V c (ix2 (0 : Fin 1) h) = g (ix1 h)) (hBt : ∀ h, aB V c (ix2 (0 : Fin 1) h) = b (ix1 h))
    (hM : ∀ h, aM V c (ix2 (0 : Fin 1) h) = mu (ix1 h)) (hS : ∀ h, aS V c (ix2 (0 : Fin 1) h) = var (ix1 h)) :
    G0 V c = Cert.Compose.stageQ X W g b mu var := by
  funext i
  obtain ⟨bt, n, h, rfl⟩ : ∃ (bt : Fin 16) (n : Fin 784) (h : Fin 1536), i = ix3 bt n h := ⟨i 0, i 1, i 2, eq_ix3 i⟩
  show g0 V c bt n h = Cert.Spec.bnE (∑ k : Fin 512, X (ix3 bt n k) * W (ix2 h k)) (mu (ix1 h)) (g (ix1 h)) (var (ix1 h)) (b (ix1 h))
  unfold g0
  simp only [hX, hW, hG, hBt, hM, hS]

end Cert.KernelIdeal.Region0

end
-- ==== Proof.Region1.lean ====
/-
  The second kernel's output array, entry by entry: with the grid over the 16 batches, point `t` reads batch `t` of the
  projected activations (per head `hd` the columns `192·hd + [0, 32)` are the queries, `+ [32, 64)` the keys,
  `+ [64, 192)` the values) and the whole position bias, and writes back batch `t` of the attention output, head `hd`
  in the columns `128·hd + [0, 128)`; the blocks tile the array.
-/
import proofs.«120797_j82815559401482_1_alg».proof.Proof.Gen.KernelIdeal.Frame
import proofs.«120797_j82815559401482_1_alg».proof.Proof.Spec
import proofs.«120797_j82815559401482_1_alg».proof.Proof.Compose
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Compose
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The arrays the region reads, as it finds them. -/
abbrev aQ (c : Dev nD) : S16x784x1536.Idx → EReal := V c main_v14
abbrev aBias (c : Dev nD) : S8x784x784.Idx → EReal := V c main_v7

/-- The attention stage as an array. -/
def G1 (c : Dev nD) : S16x784x1024.Idx → EReal := fun i => headAt (aQ V c) (aBias V c) (i 0) (i 1) (hdOf (i 2)) (dOf (i 2))

/-- What a block of the output holds, entry by entry (the kernel body's arithmetic read at an index). -/
def BlockFact : Prop :=
  ∀ (x0 : Vec Ideal S1x784x1536 .bf16) (x1 : Vec Ideal S8x784x784 .bf16) (n : Fin 784) (hd : Fin 8) (d : Fin 128),
    out1_2 (F := Ideal) x0 x1 (ix3 (0 : Fin 1) n (⟨128 * hd.val + d.val, by omega⟩ : Fin 1024))
      = Cert.Spec.attn (fun n c => x0 (ix3 (0 : Fin 1) n (⟨192 * hd.val + c.val, by omega⟩ : Fin 1536)))
          (fun j c => x0 (ix3 (0 : Fin 1) j (⟨192 * hd.val + 32 + c.val, by omega⟩ : Fin 1536)))
          (fun j e => x0 (ix3 (0 : Fin 1) j (⟨192 * hd.val + 64 + e.val, by omega⟩ : Fin 1536)))
          (fun n j => x1 (ix3 hd n j)) n d

/-- The index maps over the grid: the activations' and the result's block index is the batch, the bias's zero. -/
theorem idx_facts : ∀ t : Fin cfg1.N, win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

theorem tlt (t : Fin cfg1.N) : t.val < 16 := t.isLt

/-- Batch `t` of the projected activations, read through the block. -/
theorem read0 (c : Dev nD) (t : Fin cfg1.N) (n : Fin 784) (k : Fin 1536) :
    iblk1 V c 0 t (ix3 (0 : Fin 1) n k) = aQ V c (ix3 (⟨t.val, tlt t⟩ : Fin 16) n k) := by
  obtain ⟨e0, e1, e2, -⟩ := idx_facts t
  show V c main_v14 (((cfg1.win 0).blk t).view.emb (ix3 (0 : Fin 1) n k)) = _
  refine congrArg (V c main_v14) ?_
  funext a; apply Fin.ext
  match a with
  | ⟨0, _⟩ => show win1_0.index t (0 : Fin 3) * 1 + 1 * 0 = t.val; omega
  | ⟨1, _⟩ => show win1_0.index t (1 : Fin 3) * 784 + 1 * n.val = n.val; omega
  | ⟨2, _⟩ => show win1_0.index t (2 : Fin 3) * 1536 + 1 * k.val = k.val; omega

/-- The position bias, read through its one block. -/
theorem read1 (c : Dev nD) (t : Fin cfg1.N) (a : Fin 8) (n j : Fin 784) :
    iblk1 V c 1 t (ix3 a n j) = aBias V c (ix3 a n j) := by
  obtain ⟨-, -, -, e0, e1, e2, -⟩ := idx_facts t
  show V c main_v7 (((cfg1.win 1).blk t).view.emb (ix3 a n j)) = _
  refine congrArg (V c main_v7) ?_
  funext b; apply Fin.ext
  match b with
  | ⟨0, _⟩ => show win1_1.index t (0 : Fin 3) * 8 + 1 * a.val = a.val; omega
  | ⟨1, _⟩ => show win1_1.index t (1 : Fin 3) * 784 + 1 * n.val = n.val; omega
  | ⟨2, _⟩ => show win1_1.index t (2 : Fin 3) * 784 + 1 * j.val = j.val; omega

/-- A block of the output, entry by entry, from blocks that are restrictions of whole arrays. -/
theorem blk_eq (hB : BlockFact) (x0 : Vec Ideal S1x784x1536 .bf16) (x1 : Vec Ideal S8x784x784 .bf16)
    (A0 : S16x784x1536.Idx → EReal) (A1 : S8x784x784.Idx → EReal) (bt : Fin 16)
    (h0 : ∀ n k, x0 (ix3 (0 : Fin 1) n k) = A0 (ix3 bt n k)) (h1 : ∀ a n j, x1 (ix3 a n j) = A1 (ix3 a n j))
    (y : S1x784x1024.Idx) :
    out1_2 (F := Ideal) x0 x1 y = headAt A0 A1 bt (y 1) (hdOf (y 2)) (dOf (y 2)) := by
  obtain ⟨a, n, col, rfl⟩ : ∃ (a : Fin 1) (n : Fin 784) (col : Fin 1024), y = ix3 a n col := ⟨y 0, y 1, y 2, eq_ix3 y⟩
  obtain rfl : a = 0 := Subsingleton.elim _ _
  show out1_2 (F := Ideal) x0 x1 (ix3 (0 : Fin 1) n col) = headAt A0 A1 bt n (hdOf col) (dOf col)
  have hcol : col = (⟨128 * (hdOf col).val + (dOf col).val, by have := (hdOf col).isLt; have := (dOf col).isLt; omega⟩ : Fin 1024) :=
    Fin.ext (by show col.val = 128 * (col.val / 128) + col.val % 128; omega)
  refine (congrArg (fun z => out1_2 (F := Ideal) x0 x1 (ix3 (0 : Fin 1) n z)) hcol).trans ?_
  refine (hB x0 x1 n (hdOf col) (dOf col)).trans ?_
  unfold headAt
  simp only [h0, h1]

/-- What point `t` writes back is batch `t` of the attention stage. -/
theorem flushed_eq (hB : BlockFact) (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  funext j
  show out1_2 (iblk1 V c 0 t) (iblk1 V c 1 t) j = G1 V c (((cfg1.win 2).blk t).view.emb j)
  refine (blk_eq hB _ _ (aQ V c) (aBias V c) ⟨t.val, tlt t⟩ (read0 V c t) (read1 V c t) j).trans ?_
  obtain ⟨-, -, -, -, -, -, e0, e1, e2⟩ := idx_facts t
  have hemb : ((cfg1.win 2).blk t).view.emb j = ix3 (⟨t.val, tlt t⟩ : Fin 16) (j 1) (j 2) := by
    funext a; apply Fin.ext
    match a with
    | ⟨0, _⟩ => show win1_2.index t (0 : Fin 3) * 1 + 1 * (j 0).val = t.val; have hj : (j 0).val < 1 := (j 0).isLt; omega
    | ⟨1, _⟩ => show win1_2.index t (1 : Fin 3) * 784 + 1 * (j 1).val = (j 1).val; omega
    | ⟨2, _⟩ => show win1_2.index t (2 : Fin 3) * 1024 + 1 * (j 2).val = (j 2).val; omega
  rw [hemb]
  rfl

/-- An index of the result array is in point `t`'s block iff each coordinate is in the block's range on its axis. -/
theorem mem_blk (t : Fin cfg1.N) (i : S16x784x1024.Idx) :
    i ∈ ((cfg1.win 2).blk t).view.set ↔ ∀ a : Fin 3, win1_2.index t a * S1x784x1024.size a ≤ (i a).val ∧ (i a).val < win1_2.index t a * S1x784x1024.size a + S1x784x1024.size a := by
  show i ∈ ((View.whole main_v15).slice (win1_2.rect t)).set ↔ _
  rw [View.set_slice_whole, Rect.mem_set_unit]
  exact Iff.rfl

/-- The blocks tile the array: entry `(b, n, col)` is in the block of point `b`. -/
theorem cover (i : S16x784x1024.Idx) : ∃ t : Fin cfg1.N, (cfg1.win 2).flush t = true ∧ i ∈ ((cfg1.win 2).blk t).view.set := by
  have hi0 : (i 0).val < 16 := (i 0).isLt
  have hi1 : (i 1).val < 784 := (i 1).isLt
  have hi2 : (i 2).val < 1024 := (i 2).isLt
  refine ⟨⟨(i 0).val, hi0⟩, flush1_2 _, ?_⟩
  rw [mem_blk]
  obtain ⟨-, -, -, -, -, -, e0, e1, e2⟩ := idx_facts ⟨(i 0).val, hi0⟩
  intro a
  match a with
  | ⟨0, _⟩ => show win1_2.index ⟨(i 0).val, hi0⟩ (0 : Fin 3) * 1 ≤ (i 0).val ∧ (i 0).val < win1_2.index ⟨(i 0).val, hi0⟩ (0 : Fin 3) * 1 + 1; rw [e0]; show (i 0).val * 1 ≤ (i 0).val ∧ (i 0).val < (i 0).val * 1 + 1; omega
  | ⟨1, _⟩ => show win1_2.index ⟨(i 0).val, hi0⟩ (1 : Fin 3) * 784 ≤ (i 1).val ∧ (i 1).val < win1_2.index ⟨(i 0).val, hi0⟩ (1 : Fin 3) * 784 + 784; omega
  | ⟨2, _⟩ => show win1_2.index ⟨(i 0).val, hi0⟩ (2 : Fin 3) * 1024 ≤ (i 2).val ∧ (i 2).val < win1_2.index ⟨(i 0).val, hi0⟩ (2 : Fin 3) * 1024 + 1024; omega

/-- THE ARRAY after the region: the attention stage of the arrays the region found. -/
theorem arr (hB : BlockFact) (c : Dev nD) : (dat1 V c).arrAt 2 cfg1.N = G1 V c :=
  (dat1 V c).arrAt_eq_of_cover 2 (G1 V c) (fun t _ => flushed_eq V hB c t) cover

/-- The attention stage of the arrays the region found is the composed stage of the arrays they are. -/
theorem G1_eq (c : Dev nD) (Q : S16x784x1536.Idx → EReal) (B : S8x784x784.Idx → EReal)
    (hQ : aQ V c = Q) (hBi : aBias V c = B) : G1 V c = Cert.Compose.stageA Q B := by
  funext i
  unfold G1 Cert.Compose.stageA
  rw [hQ, hBi]

end Cert.KernelIdeal.Region1

end
-- ==== Proof.Region2.lean ====
/-
  The third kernel's output array, entry by entry: with the grid over the 16 batches, point `t` reads batch `t` of the
  attention output and the whole of the transposed projection weight and of the four normalisation rows, and writes
  back batch `t` of the result; the blocks tile the array, so after the region entry `(t, n, o)` holds the batch
  normalisation of `∑ e, a[t, n, e] · wᵀ[e, o]`.
-/
import proofs.«120797_j82815559401482_1_alg».proof.Proof.Gen.KernelIdeal.Frame
import proofs.«120797_j82815559401482_1_alg».proof.Proof.Spec
import proofs.«120797_j82815559401482_1_alg».proof.Proof.Compose
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The arrays the region reads, as it finds them. -/
abbrev aX (c : Dev nD) : S16x784x1024.Idx → EReal := V c main_v15
abbrev aW (c : Dev nD) : S1024x512.Idx → EReal := V c main_v17
abbrev aG (c : Dev nD) : S1x512.Idx → EReal := V c main_v18
abbrev aB (c : Dev nD) : S1x512.Idx → EReal := V c main_v19
abbrev aM (c : Dev nD) : S1x512.Idx → EReal := V c main_v20
abbrev aS (c : Dev nD) : S1x512.Idx → EReal := V c main_v21

/-- One entry of the last stage, from the arrays as the region finds them. -/
def g2 (c : Dev nD) (bt : Fin 16) (n : Fin 784) (h : Fin 512) : EReal :=
  Cert.Spec.bnE (∑ k : Fin 1024, aX V c (ix3 bt n k) * aW V c (ix2 k h))
    (aM V c (ix2 (0 : Fin 1) h)) (aG V c (ix2 (0 : Fin 1) h)) (aS V c (ix2 (0 : Fin 1) h)) (aB V c (ix2 (0 : Fin 1) h))

/-- The last stage as an array. -/
def G2 (c : Dev nD) : S16x784x512.Idx → EReal := fun i => g2 V c (i 0) (i 1) (i 2)

/-- What a block of the output holds, entry by entry (the kernel body's arithmetic read at an index). -/
def BlockFact : Prop :=
  ∀ (x0 : Vec Ideal S1x784x1024 .f32) (x1 : Vec Ideal S1024x512 .bf16) (x2 x3 x4 x5 : Vec Ideal S1x512 .f32) (n : Fin 784) (h : Fin 512),
    out2_6 (F := Ideal) x0 x1 x2 x3 x4 x5 (ix3 (0 : Fin 1) n h)
      = Cert.Spec.bnE (∑ k : Fin 1024, x0 (ix3 (0 : Fin 1) n k) * x1 (ix2 k h)) (x4 (ix2 (0 : Fin 1) h)) (x2 (ix2 (0 : Fin 1) h)) (x5 (ix2 (0 : Fin 1) h)) (x3 (ix2 (0 : Fin 1) h))

/-- The index maps over the grid: the activations' and the result's block index is the batch, every other block index zero. -/
theorem idx_facts : ∀ t : Fin cfg2.N, win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = t.val ∧ win2_6.index t (1 : Fin 3) = 0 ∧ win2_6.index t (2 : Fin 3) = 0 :=
  (by decide +kernel : ∀ t : Fin grid2.N, _)

theorem tlt (t : Fin cfg2.N) : t.val < 16 := t.isLt

/-- Batch `t` of the attention output, read through the block. -/
theorem read0 (c : Dev nD) (t : Fin cfg2.N) (n : Fin 784) (k : Fin 1024) :
    iblk2 V c 0 t (ix3 (0 : Fin 1) n k) = aX V c (ix3 (⟨t.val, tlt t⟩ : Fin 16) n k) := by
  obtain ⟨e0, e1, e2, -⟩ := idx_facts t
  show V c main_v15 (((cfg2.win 0).blk t).view.emb (ix3 (0 : Fin 1) n k)) = _
  refine congrArg (V c main_v15) ?_
  funext a; apply Fin.ext
  match a with
  | ⟨0, _⟩ => show win2_0.index t (0 : Fin 3) * 1 + 1 * 0 = t.val; omega
  | ⟨1, _⟩ => show win2_0.index t (1 : Fin 3) * 784 + 1 * n.val = n.val; omega
  | ⟨2, _⟩ => show win2_0.index t (2 : Fin 3) * 1024 + 1 * k.val = k.val; omega

/-- The transposed projection weight, read through its one block. -/
theorem read1 (c : Dev nD) (t : Fin cfg2.N) (k : Fin 1024) (h : Fin 512) :
    iblk2 V c 1 t (ix2 k h) = aW V c (ix2 k h) := by
  obtain ⟨-, -, -, e0, e1, -⟩ := idx_facts t
  show V c main_v17 (((cfg2.win 1).blk t).view.emb (ix2 k h)) = _
  refine congrArg (V c main_v17) ?_
  funext a; apply Fin.ext
  match a with
  | ⟨0, _⟩ => show win2_1.index t (0 : Fin 2) * 1024 + 1 * k.val = k.val; omega
  | ⟨1, _⟩ => show win2_1.index t (1 : Fin 2) * 512 + 1 * h.val = h.val; omega

theorem read2 (c : Dev nD) (t : Fin cfg2.N) (h : Fin 512) :
    iblk2 V c 2 t (ix2 (0 : Fin 1) h) = aG V c (ix2 (0 : Fin 1) h) := by
  obtain ⟨-, -, -, -, -, e0, e1, -⟩ := idx_facts t
  show V c main_v18 (((cfg2.win 2).blk t).view.emb (ix2 (0 : Fin 1) h)) = _
  refine congrArg (V c main_v18) ?_
  funext a; apply Fin.ext
  match a with
  | ⟨0, _⟩ => show win2_2.index t (0 : Fin 2) * 1 + 1 * 0 = 0; omega
  | ⟨1, _⟩ => show win2_2.index t (1 : Fin 2) * 512 + 1 * h.val = h.val; omega

theorem read3 (c : Dev nD) (t : Fin cfg2.N) (h : Fin 512) :
    iblk2 V c 3 t (ix2 (0 : Fin 1) h) = aB V c (ix2 (0 : Fin 1) h) := by
  obtain ⟨-, -, -, -, -, -, -, e0, e1, -⟩ := idx_facts t
  show V c main_v19 (((cfg2.win 3).blk t).view.emb (ix2 (0 : Fin 1) h)) = _
  refine congrArg (V c main_v19) ?_
  funext a; apply Fin.ext
  match a with
  | ⟨0, _⟩ => show win2_3.index t (0 : Fin 2) * 1 + 1 * 0 = 0; omega
  | ⟨1, _⟩ => show win2_3.index t (1 : Fin 2) * 512 + 1 * h.val = h.val; omega

theorem read4 (c : Dev nD) (t : Fin cfg2.N) (h : Fin 512) :
    iblk2 V c 4 t (ix2 (0 : Fin 1) h) = aM V c (ix2 (0 : Fin 1) h) := by
  obtain ⟨-, -, -, -, -, -, -, -, -, e0, e1, -⟩ := idx_facts t
  show V c main_v20 (((cfg2.win 4).blk t).view.emb (ix2 (0 : Fin 1) h)) = _
  refine congrArg (V c main_v20) ?_
  funext a; apply Fin.ext
  match a with
  | ⟨0, _⟩ => show win2_4.index t (0 : Fin 2) * 1 + 1 * 0 = 0; omega
  | ⟨1, _⟩ => show win2_4.index t (1 : Fin 2) * 512 + 1 * h.val = h.val; omega

theorem read5 (c : Dev nD) (t : Fin cfg2.N) (h : Fin 512) :
    iblk2 V c 5 t (ix2 (0 : Fin 1) h) = aS V c (ix2 (0 : Fin 1) h) := by
  obtain ⟨-, -, -, -, -, -, -, -, -, -, -, e0, e1, -⟩ := idx_facts t
  show V c main_v21 (((cfg2.win 5).blk t).view.emb (ix2 (0 : Fin 1) h)) = _
  refine congrArg (V c main_v21) ?_
  funext a; apply Fin.ext
  match a with
  | ⟨0, _⟩ => show win2_5.index t (0 : Fin 2) * 1 + 1 * 0 = 0; omega
  | ⟨1, _⟩ => show win2_5.index t (1 : Fin 2) * 512 + 1 * h.val = h.val; omega

/-- A block of the output, entry by entry, from blocks that are restrictions of whole arrays. -/
theorem blk_eq (hB : BlockFact) (x0 : Vec Ideal S1x784x1024 .f32) (x1 : Vec Ideal S1024x512 .bf16) (x2 x3 x4 x5 : Vec Ideal S1x512 .f32)
    (A0 : S16x784x1024.Idx → EReal) (A1 : S1024x512.Idx → EReal) (A2 A3 A4 A5 : S1x512.Idx → EReal) (bt : Fin 16)
    (h0 : ∀ n k, x0 (ix3 (0 : Fin 1) n k) = A0 (ix3 bt n k)) (h1 : ∀ k h, x1 (ix2 k h) = A1 (ix2 k h))
    (h2 : ∀ h, x2 (ix2 (0 : Fin 1) h) = A2 (ix2 (0 : Fin 1) h)) (h3 : ∀ h, x3 (ix2 (0 : Fin 1) h) = A3 (ix2 (0 : Fin 1) h))
    (h4 : ∀ h, x4 (ix2 (0 : Fin 1) h) = A4 (ix2 (0 : Fin 1) h)) (h5 : ∀ h, x5 (ix2 (0 : Fin 1) h) = A5 (ix2 (0 : Fin 1) h))
    (y : S1x784x512.Idx) :
    out2_6 (F := Ideal) x0 x1 x2 x3 x4 x5 y
      = Cert.Spec.bnE (∑ k : Fin 1024, A0 (ix3 bt (y 1) k) * A1 (ix2 k (y 2))) (A4 (ix2 (0 : Fin 1) (y 2))) (A2 (ix2 (0 : Fin 1) (y 2)))
          (A5 (ix2 (0 : Fin 1) (y 2))) (A3 (ix2 (0 : Fin 1) (y 2))) := by
  obtain ⟨a, n, h, rfl⟩ : ∃ (a : Fin 1) (n : Fin 784) (h : Fin 512), y = ix3 a n h := ⟨y 0, y 1, y 2, eq_ix3 y⟩
  obtain rfl : a = 0 := Subsingleton.elim _ _
  rw [hB x0 x1 x2 x3 x4 x5 n h]
  simp only [h0, h1, h2, h3, h4, h5]

/-- What point `t` writes back is batch `t` of the last stage. -/
theorem flushed_eq (hB : BlockFact) (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  funext j
  show out2_6 (iblk2 V c 0 t) (iblk2 V c 1 t) (iblk2 V c 2 t) (iblk2 V c 3 t) (iblk2 V c 4 t) (iblk2 V c 5 t) j = G2 V c (((cfg2.win 6).blk t).view.emb j)
  refine (blk_eq hB _ _ _ _ _ _ (aX V c) (aW V c) (aG V c) (aB V c) (aM V c) (aS V c) ⟨t.val, tlt t⟩
    (read0 V c t) (read1 V c t) (read2 V c t) (read3 V c t) (read4 V c t) (read5 V c t) j).trans ?_
  obtain ⟨-, -, -, -, -, -, -, -, -, -, -, -, -, e0, e1, e2⟩ := idx_facts t
  have hemb : ((cfg2.win 6).blk t).view.emb j = ix3 (⟨t.val, tlt t⟩ : Fin 16) (j 1) (j 2) := by
    funext a; apply Fin.ext
    match a with
    | ⟨0, _⟩ => show win2_6.index t (0 : Fin 3) * 1 + 1 * (j 0).val = t.val; have hj : (j 0).val < 1 := (j 0).isLt; omega
    | ⟨1, _⟩ => show win2_6.index t (1 : Fin 3) * 784 + 1 * (j 1).val = (j 1).val; omega
    | ⟨2, _⟩ => show win2_6.index t (2 : Fin 3) * 512 + 1 * (j 2).val = (j 2).val; omega
  rw [hemb]
  rfl

/-- An index of the result array is in point `t`'s block iff each coordinate is in the block's range on its axis. -/
theorem mem_blk (t : Fin cfg2.N) (i : S16x784x512.Idx) :
    i ∈ ((cfg2.win 6).blk t).view.set ↔ ∀ a : Fin 3, win2_6.index t a * S1x784x512.size a ≤ (i a).val ∧ (i a).val < win2_6.index t a * S1x784x512.size a + S1x784x512.size a := by
  show i ∈ ((View.whole main_v22).slice (win2_6.rect t)).set ↔ _
  rw [View.set_slice_whole, Rect.mem_set_unit]
  exact Iff.rfl

/-- The blocks tile the array: entry `(b, n, h)` is in the block of point `b`. -/
theorem cover (i : S16x784x512.Idx) : ∃ t : Fin cfg2.N, (cfg2.win 6).flush t = true ∧ i ∈ ((cfg2.win 6).blk t).view.set := by
  have hi0 : (i 0).val < 16 := (i 0).isLt
  have hi1 : (i 1).val < 784 := (i 1).isLt
  have hi2 : (i 2).val < 512 := (i 2).isLt
  refine ⟨⟨(i 0).val, hi0⟩, flush2_6 _, ?_⟩
  rw [mem_blk]
  obtain ⟨-, -, -, -, -, -, -, -, -, -, -, -, -, e0, e1, e2⟩ := idx_facts ⟨(i 0).val, hi0⟩
  intro a
  match a with
  | ⟨0, _⟩ => show win2_6.index ⟨(i 0).val, hi0⟩ (0 : Fin 3) * 1 ≤ (i 0).val ∧ (i 0).val < win2_6.index ⟨(i 0).val, hi0⟩ (0 : Fin 3) * 1 + 1; rw [e0]; show (i 0).val * 1 ≤ (i 0).val ∧ (i 0).val < (i 0).val * 1 + 1; omega
  | ⟨1, _⟩ => show win2_6.index ⟨(i 0).val, hi0⟩ (1 : Fin 3) * 784 ≤ (i 1).val ∧ (i 1).val < win2_6.index ⟨(i 0).val, hi0⟩ (1 : Fin 3) * 784 + 784; omega
  | ⟨2, _⟩ => show win2_6.index ⟨(i 0).val, hi0⟩ (2 : Fin 3) * 512 ≤ (i 2).val ∧ (i 2).val < win2_6.index ⟨(i 0).val, hi0⟩ (2 : Fin 3) * 512 + 512; omega

/-- THE ARRAY after the region: the last stage of the arrays the region found. -/
theorem arr (hB : BlockFact) (c : Dev nD) : (dat2 V c).arrAt 6 cfg2.N = G2 V c :=
  (dat2 V c).arrAt_eq_of_cover 6 (G2 V c) (fun t _ => flushed_eq V hB c t) cover

/-- The last stage of the arrays the region found is the composed stage of the arrays they restate. -/
theorem G2_eq (c : Dev nD) (X : S16x784x1024.Idx → EReal) (W : S512x1024.Idx → EReal) (g b mu var : S512.Idx → EReal)
    (hX : aX V c = X) (hW : ∀ k h, aW V c (ix2 k h) = W (ix2 h k))
    (hG : ∀ h, aG V c (ix2 (0 : Fin 1) h) = g (ix1 h)) (hBt : ∀ h, aB V c (ix2 (0 : Fin 1) h) = b (ix1 h))
    (hM : ∀ h, aM V c (ix2 (0 : Fin 1) h) = mu (ix1 h)) (hS : ∀ h, aS V c (ix2 (0 : Fin 1) h) = var (ix1 h)) :
    G2 V c = Cert.Compose.stageO X W g b mu var := by
  funext i
  obtain ⟨bt, n, h, rfl⟩ : ∃ (bt : Fin 16) (n : Fin 784) (h : Fin 512), i = ix3 bt n h := ⟨i 0, i 1, i 2, eq_ix3 i⟩
  show g2 V c bt n h = Cert.Spec.bnE (∑ k : Fin 1024, X (ix3 bt n k) * W (ix2 h k)) (mu (ix1 h)) (g (ix1 h)) (var (ix1 h)) (b (ix1 h))
  unfold g2
  simp only [hX, hW, hG, hBt, hM, hS]

end Cert.KernelIdeal.Region2

end
-- ==== Proof.LinKernel.lean ====
/-
  The two linear + batch-normalisation stages of the kernel program, entry by entry, on the extended reals.

  Each stage's output block is one store through the whole staging buffer, so the block IS the stored value: a
  matrix product of the loaded rows with the loaded weights (a sum over the contracted axis, the format changes being the
  identity on the extended reals), minus the mean row, times the scale row γ · rsqrt (σ² + ε), plus the shift row β,
  each row broadcast over the 784 positions. That is `Spec.bnE` of the inner product and the four row entries.
-/
import proofs.«120797_j82815559401482_1_alg».proof.Proof.Gen.KernelIdeal.Frame
import proofs.«120797_j82815559401482_1_alg».proof.Proof.Spec
import Idealize.ShloMosaic.Lib.ValueLayout
import Idealize.ShloMosaic.PureOps.Ideal.Laws

noncomputable section

namespace Cert.KernelIdeal.LinKernel

open Cert.KernelIdeal Idealize.ShloMosaic Idealize.ShloMosaic.ValueIdx

/-- The zero offsets of a rank-3 whole-buffer rectangle. -/
theorem zero3 : (![0, 0, 0] : Fin 3 → Nat) = fun _ => 0 := funext fun a => by fin_cases a <;> rfl
/-- The zero offsets of a rank-2 whole-buffer rectangle. -/
theorem zero2 : (![0, 0] : Fin 2 → Nat) = fun _ => 0 := funext fun a => by fin_cases a <;> rfl

/-- A reciprocal square root at an index is the extended reals' of the element. -/
theorem rsqrt_apply {s : Shape} {φ : FTy} (a : FVec Ideal s φ) (i : s.Idx) : rsqrt a i = Ideal.rsqrt (a i) := rfl

/-- The first stage's output block is the stored value of the loaded blocks: one store through the whole buffer, whole-buffer loads. -/
theorem out0_6_eq (x0 : Vec Ideal S1x784x512 .f32) (x1 : Vec Ideal S512x1536 .bf16) (x2 x3 x4 x5 : Vec Ideal S1x1536 .f32) :
    Gen.out0_6 (F := Ideal) x0 x1 x2 x3 x4 x5 = Gen.k0_pay1 (F := Ideal) x0 x1 x2 x3 x4 x5 := by
  unfold Gen.out0_6
  rw [View.canon_unit_zero zero3]
  simp only [View.ld_unit_zero (S := S1x784x512) zero3, View.ld_unit_zero (S := S512x1536) zero2, View.ld_unit_zero (S := S1x1536) zero2]

/-- The first stage's product: the left operand's row coordinate is the output's. -/
theorem lhs0_0 (i : S784x1536.Idx) (q : dot_S784x512_S512x1536_S784x1536_1_0_0_1_n_n.contr.Idx) :
    (dot_S784x512_S512x1536_S784x1536_1_0_0_1_n_n.lhsIdx i q 0).val = (i 0).val := by
  unfold DotDims.lhsIdx
  rw [dif_neg (show ¬(0 : Fin S784x512.rank) ∈ dot_S784x512_S512x1536_S784x1536_1_0_0_1_n_n.lhsBatch by decide), dif_pos (show (0 : Fin S784x512.rank) ∈ dot_S784x512_S512x1536_S784x1536_1_0_0_1_n_n.lhsNonContracting by decide)]
  rfl
/-- … its column coordinate is the contracted one. -/
theorem lhs0_1 (i : S784x1536.Idx) (q : dot_S784x512_S512x1536_S784x1536_1_0_0_1_n_n.contr.Idx) :
    (dot_S784x512_S512x1536_S784x1536_1_0_0_1_n_n.lhsIdx i q 1).val = (q ⟨0, by decide⟩).val :=
  dot_S784x512_S512x1536_S784x1536_1_0_0_1_n_n.lhsIdx_val_of_single rfl i q
/-- The right operand's row coordinate is the contracted one … -/
theorem rhs0_0 (i : S784x1536.Idx) (q : dot_S784x512_S512x1536_S784x1536_1_0_0_1_n_n.contr.Idx) :
    (dot_S784x512_S512x1536_S784x1536_1_0_0_1_n_n.rhsIdx i q 0).val = (q ⟨0, by decide⟩).val :=
  dot_S784x512_S512x1536_S784x1536_1_0_0_1_n_n.rhsIdx_val_of_single rfl i q
/-- … and its column coordinate is the output's. -/
theorem rhs0_1 (i : S784x1536.Idx) (q : dot_S784x512_S512x1536_S784x1536_1_0_0_1_n_n.contr.Idx) :
    (dot_S784x512_S512x1536_S784x1536_1_0_0_1_n_n.rhsIdx i q 1).val = (i 1).val := by
  unfold DotDims.rhsIdx
  rw [dif_neg (show ¬(1 : Fin S512x1536.rank) ∈ dot_S784x512_S512x1536_S784x1536_1_0_0_1_n_n.rhsBatch by decide), dif_pos (show (1 : Fin S512x1536.rank) ∈ dot_S784x512_S512x1536_S784x1536_1_0_0_1_n_n.rhsNonContracting by decide)]
  rfl

/-- The first stage's matrix product into the zero accumulator, at row `n` and column `h`: the sum over the 512 contracted entries. -/
theorem matmul0_apply (a : FVec Ideal S784x512 .bf16) (b : FVec Ideal S512x1536 .bf16) (n : Fin 784) (h : Fin 1536) :
    matmul dot_S784x512_S512x1536_S784x1536_1_0_0_1_n_n none a b (constant (F := Ideal) S784x1536 .f32 0x00000000#32) (ix2 n h)
      = ∑ c : Fin 512, a (ix2 n c) * b (ix2 c h) := by
  simp only [matmul]
  rw [Ideal.matmul_constant_zero_apply, ← Equiv.sum_comp (contrEquiv1 dot_S784x512_S512x1536_S784x1536_1_0_0_1_n_n 512 rfl rfl).symm]
  refine Finset.sum_congr rfl fun k _ => ?_
  have hk := contrEquiv1_symm_val dot_S784x512_S512x1536_S784x1536_1_0_0_1_n_n 512 rfl rfl k
  have el : dot_S784x512_S512x1536_S784x1536_1_0_0_1_n_n.lhsIdx (ix2 n h) ((contrEquiv1 dot_S784x512_S512x1536_S784x1536_1_0_0_1_n_n 512 rfl rfl).symm k) = ix2 n k := funext fun ax => Fin.ext (by
    match ax with
    | ⟨0, _⟩ => exact lhs0_0 _ _
    | ⟨1, _⟩ => exact (lhs0_1 _ _).trans hk)
  have er : dot_S784x512_S512x1536_S784x1536_1_0_0_1_n_n.rhsIdx (ix2 n h) ((contrEquiv1 dot_S784x512_S512x1536_S784x1536_1_0_0_1_n_n 512 rfl rfl).symm k) = ix2 k h := funext fun ax => Fin.ext (by
    match ax with
    | ⟨0, _⟩ => exact (rhs0_0 _ _).trans hk
    | ⟨1, _⟩ => exact rhs0_1 _ _)
  rw [el, er]

/-- THE FIRST STAGE AT AN ENTRY: batch normalisation of the inner product of input row `n` with weight column `h`. -/
theorem out0_6_apply (x0 : Vec Ideal S1x784x512 .f32) (x1 : Vec Ideal S512x1536 .bf16) (x2 x3 x4 x5 : Vec Ideal S1x1536 .f32) (n : Fin 784) (h : Fin 1536) :
    Gen.out0_6 (F := Ideal) x0 x1 x2 x3 x4 x5 (ValueIdx.ix3 (0 : Fin 1) n h)
      = Cert.Spec.bnE (∑ c : Fin 512, x0 (ValueIdx.ix3 (0 : Fin 1) n c) * x1 (ValueIdx.ix2 c h)) (x4 (ValueIdx.ix2 (0 : Fin 1) h)) (x2 (ValueIdx.ix2 (0 : Fin 1) h)) (x5 (ValueIdx.ix2 (0 : Fin 1) h)) (x3 (ValueIdx.ix2 (0 : Fin 1) h)) := by
  rw [out0_6_eq]
  unfold Gen.k0_pay1
  rw [shapeCast_ab_1ab_apply]
  simp only [truncf_apply, addf_apply, mulf_apply, subf_apply, broadcastTo_1b_ab_apply, shapeCast_self]
  rw [matmul0_apply]
  simp only [truncf_apply, shapeCast_1ab_ab_apply, rsqrt_apply, addf_apply, broadcast_apply, Ideal.ofBits_def, Cert.Spec.bnE]

/-! ## The last stage -/

/-- The last stage's output block is the stored value of the loaded blocks: one store through the whole buffer, whole-buffer loads. -/
theorem out2_6_eq (y0 : Vec Ideal S1x784x1024 .bf16) (y1 : Vec Ideal S1024x512 .bf16) (y2 y3 y4 y5 : Vec Ideal S1x512 .f32) :
    Gen.out2_6 (F := Ideal) y0 y1 y2 y3 y4 y5 = Gen.k2_pay1 (F := Ideal) y0 y1 y2 y3 y4 y5 := by
  unfold Gen.out2_6
  rw [View.canon_unit_zero zero3]
  simp only [View.ld_unit_zero (S := S1x784x1024) zero3, View.ld_unit_zero (S := S1024x512) zero2, View.ld_unit_zero (S := S1x512) zero2]

/-- The last stage's product: the left operand's row coordinate is the output's. -/
theorem lhs2_0 (i : S784x512.Idx) (q : dot_S784x1024_S1024x512_S784x512_1_0_0_1_n_n.contr.Idx) :
    (dot_S784x1024_S1024x512_S784x512_1_0_0_1_n_n.lhsIdx i q 0).val = (i 0).val := by
  unfold DotDims.lhsIdx
  rw [dif_neg (show ¬(0 : Fin S784x1024.rank) ∈ dot_S784x1024_S1024x512_S784x512_1_0_0_1_n_n.lhsBatch by decide), dif_pos (show (0 : Fin S784x1024.rank) ∈ dot_S784x1024_S1024x512_S784x512_1_0_0_1_n_n.lhsNonContracting by decide)]
  rfl
/-- … its column coordinate is the contracted one. -/
theorem lhs2_1 (i : S784x512.Idx) (q : dot_S784x1024_S1024x512_S784x512_1_0_0_1_n_n.contr.Idx) :
    (dot_S784x1024_S1024x512_S784x512_1_0_0_1_n_n.lhsIdx i q 1).val = (q ⟨0, by decide⟩).val :=
  dot_S784x1024_S1024x512_S784x512_1_0_0_1_n_n.lhsIdx_val_of_single rfl i q
/-- The right operand's row coordinate is the contracted one … -/
theorem rhs2_0 (i : S784x512.Idx) (q : dot_S784x1024_S1024x512_S784x512_1_0_0_1_n_n.contr.Idx) :
    (dot_S784x1024_S1024x512_S784x512_1_0_0_1_n_n.rhsIdx i q 0).val = (q ⟨0, by decide⟩).val :=
  dot_S784x1024_S1024x512_S784x512_1_0_0_1_n_n.rhsIdx_val_of_single rfl i q
/-- … and its column coordinate is the output's. -/
theorem rhs2_1 (i : S784x512.Idx) (q : dot_S784x1024_S1024x512_S784x512_1_0_0_1_n_n.contr.Idx) :
    (dot_S784x1024_S1024x512_S784x512_1_0_0_1_n_n.rhsIdx i q 1).val = (i 1).val := by
  unfold DotDims.rhsIdx
  rw [dif_neg (show ¬(1 : Fin S1024x512.rank) ∈ dot_S784x1024_S1024x512_S784x512_1_0_0_1_n_n.rhsBatch by decide), dif_pos (show (1 : Fin S1024x512.rank) ∈ dot_S784x1024_S1024x512_S784x512_1_0_0_1_n_n.rhsNonContracting by decide)]
  rfl

/-- The last stage's matrix product into the zero accumulator, at row `n` and column `o`: the sum over the 1024 contracted entries. -/
theorem matmul2_apply (a : FVec Ideal S784x1024 .bf16) (b : FVec Ideal S1024x512 .bf16) (n : Fin 784) (o : Fin 512) :
    matmul dot_S784x1024_S1024x512_S784x512_1_0_0_1_n_n none a b (constant (F := Ideal) S784x512 .f32 0x00000000#32) (ix2 n o)
      = ∑ e : Fin 1024, a (ix2 n e) * b (ix2 e o) := by
  simp only [matmul]
  rw [Ideal.matmul_constant_zero_apply, ← Equiv.sum_comp (contrEquiv1 dot_S784x1024_S1024x512_S784x512_1_0_0_1_n_n 1024 rfl rfl).symm]
  refine Finset.sum_congr rfl fun k _ => ?_
  have hk := contrEquiv1_symm_val dot_S784x1024_S1024x512_S784x512_1_0_0_1_n_n 1024 rfl rfl k
  have el : dot_S784x1024_S1024x512_S784x512_1_0_0_1_n_n.lhsIdx (ix2 n o) ((contrEquiv1 dot_S784x1024_S1024x512_S784x512_1_0_0_1_n_n 1024 rfl rfl).symm k) = ix2 n k := funext fun ax => Fin.ext (by
    match ax with
    | ⟨0, _⟩ => exact lhs2_0 _ _
    | ⟨1, _⟩ => exact (lhs2_1 _ _).trans hk)
  have er : dot_S784x1024_S1024x512_S784x512_1_0_0_1_n_n.rhsIdx (ix2 n o) ((contrEquiv1 dot_S784x1024_S1024x512_S784x512_1_0_0_1_n_n 1024 rfl rfl).symm k) = ix2 k o := funext fun ax => Fin.ext (by
    match ax with
    | ⟨0, _⟩ => exact (rhs2_0 _ _).trans hk
    | ⟨1, _⟩ => exact rhs2_1 _ _)
  rw [el, er]

/-- THE LAST STAGE AT AN ENTRY: batch normalisation of the inner product of attention-output row `n` with weight column `o`. -/
theorem out2_6_apply (y0 : Vec Ideal S1x784x1024 .bf16) (y1 : Vec Ideal S1024x512 .bf16) (y2 y3 y4 y5 : Vec Ideal S1x512 .f32) (n : Fin 784) (o : Fin 512) :
    Gen.out2_6 (F := Ideal) y0 y1 y2 y3 y4 y5 (ValueIdx.ix3 (0 : Fin 1) n o)
      = Cert.Spec.bnE (∑ e : Fin 1024, y0 (ValueIdx.ix3 (0 : Fin 1) n e) * y1 (ValueIdx.ix2 e o)) (y4 (ValueIdx.ix2 (0 : Fin 1) o)) (y2 (ValueIdx.ix2 (0 : Fin 1) o)) (y5 (ValueIdx.ix2 (0 : Fin 1) o)) (y3 (ValueIdx.ix2 (0 : Fin 1) o)) := by
  rw [out2_6_eq]
  unfold Gen.k2_pay1
  rw [shapeCast_ab_1ab_apply]
  simp only [addf_apply, mulf_apply, subf_apply, broadcastTo_1b_ab_apply, shapeCast_self]
  rw [matmul2_apply]
  simp only [shapeCast_1ab_ab_apply, rsqrt_apply, addf_apply, broadcast_apply, Ideal.ofBits_def, Cert.Spec.bnE]

end Cert.KernelIdeal.LinKernel

end
-- ==== Proof.KernelWhole.lean ====
/-
  The kernel program's result array as one function of the argument arrays: the third kernel's output is the output
  projection of the second kernel's output, which is the attention stage of the first kernel's output and the gathered
  bias, the first kernel's output being the projected activations; the host operations in between only transpose,
  recast and hand arrays on.
-/
import proofs.«120797_j82815559401482_1_alg».proof.Proof.Run
import proofs.«120797_j82815559401482_1_alg».proof.Proof.Host
import proofs.«120797_j82815559401482_1_alg».proof.Proof.Region0
import proofs.«120797_j82815559401482_1_alg».proof.Proof.Region1
import proofs.«120797_j82815559401482_1_alg».proof.Proof.Region2
import proofs.«120797_j82815559401482_1_alg».proof.Proof.LinKernel
import proofs.«120797_j82815559401482_1_alg».proof.Proof.Compose

set_option maxRecDepth 16384

noncomputable section

namespace Cert.KernelIdeal.Whole

open Cert.KernelIdeal Cert.KernelIdeal.Gen Cert.KernelIdeal.HostVals
open Idealize.ShloMosaic Idealize.ShloMosaic.TcCoe Idealize.SL.Sem Idealize.ShloMosaic.ValueIdx

variable (m : (ℓ : Loc nD τ sig) → Buf (Elt Ideal) ℓ) (ρ : Dev nD → PrngReg)

theorem hB0 : Region0.BlockFact := fun x0 x1 x2 x3 x4 x5 n h => LinKernel.out0_6_apply x0 x1 x2 x3 x4 x5 n h
theorem hB2 : Region2.BlockFact := fun y0 y1 y2 y3 y4 y5 n o => LinKernel.out2_6_apply y0 y1 y2 y3 y4 y5 n o

/-- The gathered bias of the launch memory. -/
abbrev mBias (c : Dev nD) : S8x784x784.Idx → EReal := biasK (m ((c : Thread nD τ).loc main_arg6)) (m ((c : Thread nD τ).loc main_arg12))

/-- After the first kernel: the projected activations. -/
theorem stage1 (c : Dev nD) :
    (dat0 (V1 m ρ) c).arrAt 6 cfg0.N = Cert.Compose.stageQ (mX m c) (mWq m c) (mA2 m c) (mA3 m c) (mA4 m c) (mA5 m c) :=
  (Region0.arr (V1 m ρ) hB0 c).trans
    (Region0.G0_eq (V1 m ρ) c _ _ _ _ _ _ (v1_arg0 m ρ c) (v1_v9 m ρ c) (v1_v10 m ρ c) (v1_v11 m ρ c) (v1_v12 m ρ c) (v1_v13 m ρ c))

/-- After the second kernel: the attention output. -/
theorem stage2 (hB1 : Region1.BlockFact) (c : Dev nD) :
    (dat1 (V2 m ρ) c).arrAt 2 cfg1.N
      = Cert.Compose.stageA (Cert.Compose.stageQ (mX m c) (mWq m c) (mA2 m c) (mA3 m c) (mA4 m c) (mA5 m c)) (mBias m c) :=
  (Region1.arr (V2 m ρ) hB1 c).trans
    (Region1.G1_eq (V2 m ρ) c _ _ ((v2_v14 m ρ c).trans (stage1 m ρ c)) (v2_v7 m ρ c))

/-- After the third kernel: the whole block. -/
theorem stage3 (hB1 : Region1.BlockFact) (c : Dev nD) :
    (dat2 (V4 m ρ) c).arrAt 6 cfg2.N
      = Cert.Compose.whole (mX m c) (mWq m c) (mA2 m c) (mA3 m c) (mA4 m c) (mA5 m c) (mBias m c) (mWp m c) (mA8 m c) (mA9 m c) (mA10 m c) (mA11 m c) :=
  (Region2.arr (V4 m ρ) hB2 c).trans
    (Region2.G2_eq (V4 m ρ) c _ _ _ _ _ _ ((v4_v15 m ρ c).trans (stage2 m ρ hB1 c)) (v4_v17 m ρ c) (v4_v18 m ρ c) (v4_v19 m ρ c) (v4_v20 m ρ c) (v4_v21 m ρ c))

/-- The result buffer after the run. -/
theorem result (hB1 : Region1.BlockFact) (c : Dev nD) :
    W5 m ρ c (Proc.devRef .tc main_v22)
      = Cert.Compose.whole (mX m c) (mWq m c) (mA2 m c) (mA3 m c) (mA4 m c) (mA5 m c) (mBias m c) (mWp m c) (mA8 m c) (mA9 m c) (mA10 m c) (mA11 m c) :=
  (W5_arr m ρ c 6).trans (stage3 m ρ hB1 c)

/-- The whole block of the launch memory. -/
abbrev wholeOf (c : Dev nD) : S16x784x512.Idx → EReal :=
  Cert.Compose.whole (mX m c) (mWq m c) (mA2 m c) (mA3 m c) (mA4 m c) (mA5 m c) (mBias m c) (mWp m c) (mA8 m c) (mA9 m c) (mA10 m c) (mA11 m c)

/-- The kernel program's run with its result named as the whole block of the argument arrays. -/
theorem run (hB1 : Region1.BlockFact) :
    θ_run (defs (F := Ideal)) (onTc (τ := τ) (main (F := Ideal))) ⟨m, fun _ => 0, ρ⟩ (fun r => ∀ c : Dev nD,
      r.2.mem ((c.tc : Thread nD τ).loc main_v22) = wholeOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ hB1 c), (h c).2⟩) (Cert.KernelIdeal.ResultRun.run m ρ)

end Cert.KernelIdeal.Whole

end
-- ==== Proof.AttnKernel.Head.lean ====
/-
  One head of the attention kernel, as a function of its four operands, read entry by entry.

  The kernel computes, for a query block `q`, a key block `k` (both 784 × 32), a value block `v` (784 × 128) and a
  bias `b` (784 × 784): the scores `q kᵀ · scale + b`, each row's maximum (taken from -∞), the exponentials of the
  scores minus their row's maximum, each row's sum of them, the quotients, the product of the quotients with `v`, and the
  hard-swish of that. `headCore` is that computation in the kernel's own vector operations; `headCore_apply` says that at
  row `n`, column `d` it is `Cert.Spec.attn` of the operands' entries.
-/
import proofs.«120797_j82815559401482_1_alg».proof.Proof.Gen.KernelIdeal
import proofs.«120797_j82815559401482_1_alg».proof.Proof.Spec
import Idealize.ShloMosaic.Lib.ValueIdx
import Idealize.ShloMosaic.Lib.Pipeline.Value
import Idealize.ShloMosaic.PureOps.Ideal.Laws

noncomputable section

namespace Cert.KernelIdeal.AttnKernel

open Cert.KernelIdeal Cert.KernelIdeal.Gen Idealize.ShloMosaic Idealize.ShloMosaic.ValueIdx

/-! ## The computation, stage by stage -/

/-- The scores: `q kᵀ` (a product into the zero matrix), times the scale, plus the bias. -/
def scoreV (q k : FVec Ideal S784x32 .bf16) (b : FVec Ideal S784x784 .f32) : FVec Ideal S784x784 .f32 :=
  addf (mulf (matmul dot_S784x32_S32x784_S784x784_1_0_0_1_n_n none q
      (transpose S32x784 [1, 0] k transposes_S784x32_p1_0_S32x784) (constant S784x784 .f32 0x00000000#32))
    (broadcast S784x784 (Scalar.ofBits .f32 0x3E3504F3#32))) b

/-- The maximum of each row of the scores, taken from -∞. -/
def rowMaxV (m : FVec Ideal S784 .f32) : FVec Ideal S784 .f32 :=
  maximumf (broadcast S784 (Scalar.ofBits .f32 0xFF800000#32)) m

/-- Each row's maximum by the lane reduction. -/
def redMaxV (s : FVec Ideal S784x784 .f32) : FVec Ideal S784 .f32 :=
  multiReduction .maximumf [1] S784 s 0xFF800000#32 reduces_S784x784_S784 (.inl rfl) rfl

/-- The exponentials of the scores minus their row's maximum `m`. -/
def expV (s : FVec Ideal S784x784 .f32) (m : FVec Ideal S784 .f32) : FVec Ideal S784x784 .f32 :=
  exp (subf s (broadcastTo S784x784 (shapeCast S784x1 m shapeCasts_S784_S784x1) broadcasts_S784x1_S784x784))

/-- Each row's sum, as a column. -/
def rowSumV (e : FVec Ideal S784x784 .f32) : FVec Ideal S784x1 .f32 :=
  shapeCast S784x1 (multiReduction .add [1] S784 e 0x00000000#32 reduces_S784x784_S784 (.inl rfl) rfl) shapeCasts_S784_S784x1

/-- The quotients of the exponentials by their row's sum `z`, times the values. -/
def pvV (e : FVec Ideal S784x784 .f32) (z : FVec Ideal S784x1 .f32) (v : FVec Ideal S784x128 .bf16) : FVec Ideal S784x128 .f32 :=
  matmul dot_S784x784_S784x128_S784x128_1_0_0_1_n_n none
    (truncf .bf16 (divf e (broadcastTo S784x784 z broadcasts_S784x1_S784x784)) bitsLt_bf16_f32) v
    (constant S784x128 .f32 0x00000000#32)

/-- The inner clamp of the hard-swish: `min 6 (max 0 y)` where `y` is `x + 3`. -/
def clampV (y : FVec Ideal S784x128 .f32) (zero : Ideal .f32) : FVec Ideal S784x128 .f32 :=
  minimumf (broadcast S784x128 (Scalar.ofBits .f32 0x40C00000#32)) (maximumf (broadcast S784x128 zero) y)

/-- The hard-swish before its last rounding: `x · clamp · (1/6)`. -/
def hswPreV (x y : FVec Ideal S784x128 .f32) (zero : Ideal .f32) : FVec Ideal S784x128 .f32 :=
  mulf (mulf x (clampV y zero)) (broadcast S784x128 (Scalar.ofBits .f32 0x3E2AAAAB#32))

/-- `x + 3`. -/
def plus3V (x : FVec Ideal S784x128 .f32) : FVec Ideal S784x128 .f32 :=
  addf x (broadcast S784x128 (Scalar.ofBits .f32 0x40400000#32))

/-- One head, from the transposition of the keys to the last rounding. -/
def headCore (q k : FVec Ideal S784x32 .bf16) (v : FVec Ideal S784x128 .bf16) (b : FVec Ideal S784x784 .f32) :
    FVec Ideal S784x128 .bf16 :=
  truncf .bf16
    (hswPreV (pvV (expV (scoreV q k b) (rowMaxV (redMaxV (scoreV q k b))))
        (rowSumV (expV (scoreV q k b) (rowMaxV (redMaxV (scoreV q k b))))) v)
      (plus3V (pvV (expV (scoreV q k b) (rowMaxV (redMaxV (scoreV q k b))))
        (rowSumV (expV (scoreV q k b) (rowMaxV (redMaxV (scoreV q k b))))) v))
      (Scalar.ofBits .f32 0x00000000#32))
    bitsLt_bf16_f32

/-! ## Each stage at an entry -/

/-- In `q kᵀ` the left operand is read at the output's row … -/
theorem qk_lhs0 (i : S784x784.Idx) (p : dot_S784x32_S32x784_S784x784_1_0_0_1_n_n.contr.Idx) :
    (dot_S784x32_S32x784_S784x784_1_0_0_1_n_n.lhsIdx i p 0).val = (i 0).val := by
  unfold DotDims.lhsIdx
  rw [dif_neg (show ¬(0 : Fin S784x32.rank) ∈ dot_S784x32_S32x784_S784x784_1_0_0_1_n_n.lhsBatch by decide),
    dif_pos (show (0 : Fin S784x32.rank) ∈ dot_S784x32_S32x784_S784x784_1_0_0_1_n_n.lhsNonContracting by decide)]
  rfl
/-- … and the contraction's coordinate, … -/
theorem qk_lhs1 (i : S784x784.Idx) (p : dot_S784x32_S32x784_S784x784_1_0_0_1_n_n.contr.Idx) :
    (dot_S784x32_S32x784_S784x784_1_0_0_1_n_n.lhsIdx i p 1).val = (p ⟨0, by decide⟩).val :=
  dot_S784x32_S32x784_S784x784_1_0_0_1_n_n.lhsIdx_val_of_single rfl i p
/-- … the right operand at the contraction's coordinate … -/
theorem qk_rhs0 (i : S784x784.Idx) (p : dot_S784x32_S32x784_S784x784_1_0_0_1_n_n.contr.Idx) :
    (dot_S784x32_S32x784_S784x784_1_0_0_1_n_n.rhsIdx i p 0).val = (p ⟨0, by decide⟩).val :=
  dot_S784x32_S32x784_S784x784_1_0_0_1_n_n.rhsIdx_val_of_single rfl i p
/-- … and the output's column. -/
theorem qk_rhs1 (i : S784x784.Idx) (p : dot_S784x32_S32x784_S784x784_1_0_0_1_n_n.contr.Idx) :
    (dot_S784x32_S32x784_S784x784_1_0_0_1_n_n.rhsIdx i p 1).val = (i 1).val := by
  unfold DotDims.rhsIdx
  rw [dif_neg (show ¬(1 : Fin S32x784.rank) ∈ dot_S784x32_S32x784_S784x784_1_0_0_1_n_n.rhsBatch by decide),
    dif_pos (show (1 : Fin S32x784.rank) ∈ dot_S784x32_S32x784_S784x784_1_0_0_1_n_n.rhsNonContracting by decide)]
  rfl

/-- The product `q kᵀ` at `(n, j)`: the inner product of query row `n` and key row `j`. -/
theorem qk_apply (q k : FVec Ideal S784x32 .bf16) (n j : Fin 784) :
    matmul dot_S784x32_S32x784_S784x784_1_0_0_1_n_n none q
        (transpose S32x784 [1, 0] k transposes_S784x32_p1_0_S32x784) (constant (F := Ideal) S784x784 .f32 0x00000000#32) (ix2 n j)
      = ∑ c : Fin 32, q (ix2 n c) * k (ix2 j c) := by
  simp only [matmul]
  rw [Ideal.matmul_constant_zero_apply,
    ← Equiv.sum_comp (contrEquiv1 dot_S784x32_S32x784_S784x784_1_0_0_1_n_n 32 rfl rfl).symm]
  refine Finset.sum_congr rfl fun c _ => ?_
  have hk := contrEquiv1_symm_val dot_S784x32_S32x784_S784x784_1_0_0_1_n_n 32 rfl rfl c
  have el : dot_S784x32_S32x784_S784x784_1_0_0_1_n_n.lhsIdx (ix2 n j)
      ((contrEquiv1 dot_S784x32_S32x784_S784x784_1_0_0_1_n_n 32 rfl rfl).symm c) = ix2 n c :=
    funext fun a => Fin.ext (by
      match a with
      | ⟨0, _⟩ => exact qk_lhs0 _ _
      | ⟨1, _⟩ => exact (qk_lhs1 _ _).trans hk)
  have er : dot_S784x32_S32x784_S784x784_1_0_0_1_n_n.rhsIdx (ix2 n j)
      ((contrEquiv1 dot_S784x32_S32x784_S784x784_1_0_0_1_n_n 32 rfl rfl).symm c) = ix2 c j :=
    funext fun a => Fin.ext (by
      match a with
      | ⟨0, _⟩ => exact (qk_rhs0 _ _).trans hk
      | ⟨1, _⟩ => exact qk_rhs1 _ _)
  rw [el, er]
  exact congrArg (q (ix2 n c) * ·) (transpose_apply [1, 0] k transposes_S784x32_p1_0_S32x784 (ix2 c j) (ix2 j c)
    (fun b => match b with | ⟨0, _⟩ => rfl | ⟨1, _⟩ => rfl))

/-- The scores at `(n, j)`. -/
theorem scoreV_apply (q k : FVec Ideal S784x32 .bf16) (b : FVec Ideal S784x784 .f32) (n j : Fin 784) :
    scoreV q k b (ix2 n j)
      = Spec.score (fun n c => q (ix2 n c)) (fun j c => k (ix2 j c)) (fun n j => b (ix2 n j)) n j := by
  unfold scoreV Spec.score
  rw [addf_apply, mulf_apply, qk_apply]
  rfl

/-- In the product with the values the left operand is read at the output's row … -/
theorem pv_lhs0 (i : S784x128.Idx) (p : dot_S784x784_S784x128_S784x128_1_0_0_1_n_n.contr.Idx) :
    (dot_S784x784_S784x128_S784x128_1_0_0_1_n_n.lhsIdx i p 0).val = (i 0).val := by
  unfold DotDims.lhsIdx
  rw [dif_neg (show ¬(0 : Fin S784x784.rank) ∈ dot_S784x784_S784x128_S784x128_1_0_0_1_n_n.lhsBatch by decide),
    dif_pos (show (0 : Fin S784x784.rank) ∈ dot_S784x784_S784x128_S784x128_1_0_0_1_n_n.lhsNonContracting by decide)]
  rfl
/-- … and the contraction's coordinate, … -/
theorem pv_lhs1 (i : S784x128.Idx) (p : dot_S784x784_S784x128_S784x128_1_0_0_1_n_n.contr.Idx) :
    (dot_S784x784_S784x128_S784x128_1_0_0_1_n_n.lhsIdx i p 1).val = (p ⟨0, by decide⟩).val :=
  dot_S784x784_S784x128_S784x128_1_0_0_1_n_n.lhsIdx_val_of_single rfl i p
/-- … the right operand at the contraction's coordinate … -/
theorem pv_rhs0 (i : S784x128.Idx) (p : dot_S784x784_S784x128_S784x128_1_0_0_1_n_n.contr.Idx) :
    (dot_S784x784_S784x128_S784x128_1_0_0_1_n_n.rhsIdx i p 0).val = (p ⟨0, by decide⟩).val :=
  dot_S784x784_S784x128_S784x128_1_0_0_1_n_n.rhsIdx_val_of_single rfl i p
/-- … and the output's column. -/
theorem pv_rhs1 (i : S784x128.Idx) (p : dot_S784x784_S784x128_S784x128_1_0_0_1_n_n.contr.Idx) :
    (dot_S784x784_S784x128_S784x128_1_0_0_1_n_n.rhsIdx i p 1).val = (i 1).val := by
  unfold DotDims.rhsIdx
  rw [dif_neg (show ¬(1 : Fin S784x128.rank) ∈ dot_S784x784_S784x128_S784x128_1_0_0_1_n_n.rhsBatch by decide),
    dif_pos (show (1 : Fin S784x128.rank) ∈ dot_S784x784_S784x128_S784x128_1_0_0_1_n_n.rhsNonContracting by decide)]
  rfl

/-- A product of a 784 × 784 matrix with the values, into the zero matrix, at `(n, d)`: the sum over the rows `j` of the values. -/
theorem wv_apply (w : FVec Ideal S784x784 .bf16) (v : FVec Ideal S784x128 .bf16) (n : Fin 784) (d : Fin 128) :
    matmul dot_S784x784_S784x128_S784x128_1_0_0_1_n_n none w v (constant (F := Ideal) S784x128 .f32 0x00000000#32) (ix2 n d)
      = ∑ j : Fin 784, w (ix2 n j) * v (ix2 j d) := by
  simp only [matmul]
  rw [Ideal.matmul_constant_zero_apply,
    ← Equiv.sum_comp (contrEquiv1 dot_S784x784_S784x128_S784x128_1_0_0_1_n_n 784 rfl rfl).symm]
  refine Finset.sum_congr rfl fun j _ => ?_
  have hk := contrEquiv1_symm_val dot_S784x784_S784x128_S784x128_1_0_0_1_n_n 784 rfl rfl j
  have el : dot_S784x784_S784x128_S784x128_1_0_0_1_n_n.lhsIdx (ix2 n d)
      ((contrEquiv1 dot_S784x784_S784x128_S784x128_1_0_0_1_n_n 784 rfl rfl).symm j) = ix2 n j :=
    funext fun a => Fin.ext (by
      match a with
      | ⟨0, _⟩ => exact pv_lhs0 _ _
      | ⟨1, _⟩ => exact (pv_lhs1 _ _).trans hk)
  have er : dot_S784x784_S784x128_S784x128_1_0_0_1_n_n.rhsIdx (ix2 n d)
      ((contrEquiv1 dot_S784x784_S784x128_S784x128_1_0_0_1_n_n 784 rfl rfl).symm j) = ix2 j d :=
    funext fun a => Fin.ext (by
      match a with
      | ⟨0, _⟩ => exact (pv_rhs0 _ _).trans hk
      | ⟨1, _⟩ => exact pv_rhs1 _ _)
  rw [el, er]

/-- The entry of the 784 × 784 matrix over row `n` of the reduced vector, at coordinate `j` of the reduced axis, is `(n, j)`. -/
theorem lift_row (n j : Fin 784) : reduces_S784x784_S784.lift (ix1 n) j = ix2 n j :=
  funext fun c => Fin.ext (by match c with | ⟨0, _⟩ => rfl | ⟨1, _⟩ => rfl)

/-- The lane reduction by maximum at row `n`: the fold of `max` from -∞ over the row. -/
theorem redMaxV_apply (s : FVec Ideal S784x784 .f32) (n : Fin 784) :
    redMaxV s (ix1 n)
      = (Finset.univ : Finset (Fin 784)).fold max (Ideal.ofBits .f32 0xFF800000#32) (fun j => s (ix2 n j)) := by
  unfold redMaxV
  refine (Ideal.multiReduction_maximumf_single s _ reduces_S784x784_S784 _ _ (ix1 n)).trans ?_
  exact congrArg (fun f => (Finset.univ : Finset (Fin 784)).fold max (Ideal.ofBits .f32 0xFF800000#32) f)
    (funext fun j => congrArg s (lift_row n j))

/-- The row maximum at row `n`. -/
theorem rowMaxV_apply (m : FVec Ideal S784 .f32) (n : Fin 784) :
    rowMaxV m (ix1 n) = max (Ideal.ofBits .f32 0xFF800000#32) (m (ix1 n)) := rfl

/-- A vector of 784 entries viewed as a column reads its entry `n` at `(n, 0)`. -/
theorem column_apply (m : FVec Ideal S784 .f32) (n : Fin 784) :
    shapeCast S784x1 m shapeCasts_S784_S784x1 (ix2 n (0 : Fin 1)) = m (ix1 n) :=
  shapeCast_apply m shapeCasts_S784_S784x1 (ix2 n (0 : Fin 1)) (ix1 n) (by
    rw [Shape.rowMajor_val_two, Shape.rowMajor_val_one]; show n.val = n.val * 1 + 0; omega)

/-- A column laid along every column of the 784 × 784 matrix reads its entry `(n, 0)` at `(n, j)`. -/
theorem alongRows_apply (z : FVec Ideal S784x1 .f32) (n j : Fin 784) :
    broadcastTo S784x784 z broadcasts_S784x1_S784x784 (ix2 n j) = z (ix2 n (0 : Fin 1)) :=
  broadcastTo_apply z broadcasts_S784x1_S784x784 (ix2 n j) (ix2 n (0 : Fin 1)) (fun a => by
    match a with
    | ⟨0, _⟩ => show n.val = if (784 : Nat) = 1 then 0 else n.val; rw [if_neg (by decide)]
    | ⟨1, _⟩ => show 0 = if (1 : Nat) = 1 then 0 else j.val; rw [if_pos rfl])

/-- The exponentials at `(n, j)`. -/
theorem expV_apply (s : FVec Ideal S784x784 .f32) (m : FVec Ideal S784 .f32) (n j : Fin 784) :
    expV s m (ix2 n j) = Ideal.exp (s (ix2 n j) - m (ix1 n)) := by
  unfold expV
  show Ideal.exp (s (ix2 n j) - broadcastTo S784x784 (shapeCast S784x1 m shapeCasts_S784_S784x1) broadcasts_S784x1_S784x784 (ix2 n j)) = _
  rw [alongRows_apply, column_apply]

/-- The row sums at `(n, 0)`. -/
theorem rowSumV_apply (e : FVec Ideal S784x784 .f32) (n : Fin 784) :
    rowSumV e (ix2 n (0 : Fin 1)) = ∑ j : Fin 784, e (ix2 n j) := by
  unfold rowSumV
  rw [column_apply]
  refine (Ideal.multiReduction_add_single e _ reduces_S784x784_S784 _ _ (ix1 n)).trans ?_
  exact Finset.sum_congr rfl fun j _ => congrArg e (lift_row n j)

/-- The quotients times the values at `(n, d)`. -/
theorem pvV_apply (e : FVec Ideal S784x784 .f32) (z : FVec Ideal S784x1 .f32) (v : FVec Ideal S784x128 .bf16)
    (n : Fin 784) (d : Fin 128) :
    pvV e z v (ix2 n d) = ∑ j : Fin 784, Ideal.div (e (ix2 n j)) (z (ix2 n (0 : Fin 1))) * v (ix2 j d) := by
  unfold pvV
  rw [wv_apply]
  refine Finset.sum_congr rfl fun j _ => ?_
  show Ideal.div (e (ix2 n j)) (broadcastTo S784x784 z broadcasts_S784x1_S784x784 (ix2 n j)) * _ = _
  rw [alongRows_apply]

/-- The hard-swish at an entry. -/
theorem hsw_apply (x : FVec Ideal S784x128 .f32) (n : Fin 784) (d : Fin 128) :
    hswPreV x (plus3V x) (Scalar.ofBits .f32 0x00000000#32) (ix2 n d) = Spec.hswE (x (ix2 n d)) := rfl

/-! ## The head at an entry -/

/-- One head at row `n`, column `d`: softmax attention with the bias, then hard-swish, of the operands' entries. -/
theorem headCore_apply (q k : FVec Ideal S784x32 .bf16) (v : FVec Ideal S784x128 .bf16) (b : FVec Ideal S784x784 .f32)
    (n : Fin 784) (d : Fin 128) :
    headCore q k v b (ix2 n d)
      = Spec.attn (fun n c => q (ix2 n c)) (fun j c => k (ix2 j c)) (fun j e => v (ix2 j e)) (fun n j => b (ix2 n j)) n d := by
  have hs : (fun j => scoreV q k b (ix2 n j))
      = Spec.score (fun n c => q (ix2 n c)) (fun j c => k (ix2 j c)) (fun n j => b (ix2 n j)) n :=
    funext fun j => scoreV_apply q k b n j
  have hm : rowMaxV (redMaxV (scoreV q k b)) (ix1 n)
      = Spec.rowMax (Spec.score (fun n c => q (ix2 n c)) (fun j c => k (ix2 j c)) (fun n j => b (ix2 n j)) n) := by
    rw [rowMaxV_apply, redMaxV_apply, hs]
    rfl
  have he : ∀ j, expV (scoreV q k b) (rowMaxV (redMaxV (scoreV q k b))) (ix2 n j)
      = Spec.expo (fun n c => q (ix2 n c)) (fun j c => k (ix2 j c)) (fun n j => b (ix2 n j)) n j := fun j => by
    rw [expV_apply, hm, scoreV_apply]
    rfl
  have hz : rowSumV (expV (scoreV q k b) (rowMaxV (redMaxV (scoreV q k b)))) (ix2 n (0 : Fin 1))
      = ∑ j : Fin 784, Spec.expo (fun n c => q (ix2 n c)) (fun j c => k (ix2 j c)) (fun n j => b (ix2 n j)) n j := by
    rw [rowSumV_apply]
    exact Finset.sum_congr rfl fun j _ => he j
  unfold headCore Spec.attn
  rw [truncf_apply, hsw_apply, pvV_apply, hz]
  exact congrArg Spec.hswE (Finset.sum_congr rfl fun j _ => by rw [he j])

end Cert.KernelIdeal.AttnKernel

end
-- ==== Proof.AttnKernel.lean ====
/-
  One block of the attention kernel's output, entry by entry, for all eight heads.

  The kernel reads a [1, 784, 1536] block `x0` of the query/key/value array (head `h`: columns `192 h + [0, 32)` the
  queries, `+ [32, 64)` the keys, `+ [64, 192)` the values) and the [8, 784, 784] bias `x1`, and writes a [1, 784, 1024]
  block, head `h` in columns `128 h + [0, 128)`. Each head's store holds `headCore` (AttnKernel/Head.lean) of that head's
  slices; read at an entry it is `Cert.Spec.attn` of the entries of `x0` and `x1`, and the eight stores tile the block.
-/
import proofs.«120797_j82815559401482_1_alg».proof.Proof.Gen.KernelIdeal.Frame
import proofs.«120797_j82815559401482_1_alg».proof.Proof.Spec
import proofs.«120797_j82815559401482_1_alg».proof.Proof.AttnKernel.Head
import Idealize.ShloMosaic.Lib.ValueIdx
import Idealize.ShloMosaic.Lib.Pipeline.Value
import Idealize.ShloMosaic.PureOps.Ideal.Laws

noncomputable section

namespace Cert.KernelIdeal.AttnKernel

open Cert.KernelIdeal Cert.KernelIdeal.Gen Idealize.ShloMosaic Idealize.ShloMosaic.ValueIdx

/-! ## One head's store, from the whole block and the whole bias -/

/-- The store of one head: the head's computation on the slices of the 784 × 1536 block `X` at column offsets `oq`,
    `ok`, `ov` and on plane `hb` of the bias `B`, viewed [1, 784, 128]. -/
def headOf (X : FVec Ideal S784x1536 .bf16) (B : FVec Ideal S8x784x784 .bf16) (oq ok ov hb : Nat)
    (hq : S784x1536.Slices ![0, oq] S784x32) (hk : S784x1536.Slices ![0, ok] S784x32)
    (hv : S784x1536.Slices ![0, ov] S784x128) (hB : S8x784x784.Slices ![hb, 0, 0] S1x784x784) :
    FVec Ideal S1x784x128 .bf16 :=
  shapeCast S1x784x128
    (headCore (extractStridedSlice S784x32 ![0, oq] X hq) (extractStridedSlice S784x32 ![0, ok] X hk)
      (extractStridedSlice S784x128 ![0, ov] X hv)
      (extf .f32 (shapeCast S784x784 (extractStridedSlice S1x784x784 ![hb, 0, 0] B hB) shapeCasts_S1x784x784_S784x784)
        bitsLt_bf16_f32))
    shapeCasts_S784x128_S1x784x128

/-- Head `h`'s store at `(0, n, d)`: attention over the entries of `X` and `B` at head `h`'s columns and plane. -/
theorem headOf_apply (X : FVec Ideal S784x1536 .bf16) (B : FVec Ideal S8x784x784 .bf16) (oq ok ov hb : Nat)
    (hq : S784x1536.Slices ![0, oq] S784x32) (hk : S784x1536.Slices ![0, ok] S784x32)
    (hv : S784x1536.Slices ![0, ov] S784x128) (hB : S8x784x784.Slices ![hb, 0, 0] S1x784x784)
    (h : Fin 8) (eq : oq = 192 * h.val) (ek : ok = 192 * h.val + 32) (ev : ov = 192 * h.val + 64) (eb : hb = h.val)
    (n : Fin 784) (d : Fin 128) :
    headOf X B oq ok ov hb hq hk hv hB (ix3 (0 : Fin 1) n d)
      = Spec.attn (fun n c => X (ix2 n (⟨192 * h.val + c.val, by omega⟩ : Fin 1536)))
          (fun j c => X (ix2 j (⟨192 * h.val + 32 + c.val, by omega⟩ : Fin 1536)))
          (fun j e => X (ix2 j (⟨192 * h.val + 64 + e.val, by omega⟩ : Fin 1536)))
          (fun n j => B (ix3 h n j)) n d := by
  subst eq ek ev eb
  unfold headOf
  refine (shapeCast_apply _ shapeCasts_S784x128_S1x784x128 (ix3 (0 : Fin 1) n d) (ix2 n d) (by
    rw [Shape.rowMajor_val_two, Shape.rowMajor_val_three]
    show n.val * 128 + d.val = (0 * 784 + n.val) * 128 + d.val; omega)).trans ?_
  rw [headCore_apply]
  have eQ : (fun (n : Fin 784) (c : Fin 32) => extractStridedSlice S784x32 ![0, 192 * h.val] X hq (ix2 n c))
      = fun n c => X (ix2 n (⟨192 * h.val + c.val, by omega⟩ : Fin 1536)) :=
    funext fun n => funext fun c => extractStridedSlice_apply _ X hq (ix2 n c) _ (fun a => by
      match a with
      | ⟨0, _⟩ => show n.val = 0 + n.val; omega
      | ⟨1, _⟩ => rfl)
  have eK : (fun (j : Fin 784) (c : Fin 32) => extractStridedSlice S784x32 ![0, 192 * h.val + 32] X hk (ix2 j c))
      = fun j c => X (ix2 j (⟨192 * h.val + 32 + c.val, by omega⟩ : Fin 1536)) :=
    funext fun j => funext fun c => extractStridedSlice_apply _ X hk (ix2 j c) _ (fun a => by
      match a with
      | ⟨0, _⟩ => show j.val = 0 + j.val; omega
      | ⟨1, _⟩ => rfl)
  have eV : (fun (j : Fin 784) (e : Fin 128) => extractStridedSlice S784x128 ![0, 192 * h.val + 64] X hv (ix2 j e))
      = fun j e => X (ix2 j (⟨192 * h.val + 64 + e.val, by omega⟩ : Fin 1536)) :=
    funext fun j => funext fun e => extractStridedSlice_apply _ X hv (ix2 j e) _ (fun a => by
      match a with
      | ⟨0, _⟩ => show j.val = 0 + j.val; omega
      | ⟨1, _⟩ => rfl)
  have eB : (fun (n j : Fin 784) => extf .f32 (shapeCast S784x784 (extractStridedSlice S1x784x784 ![h.val, 0, 0] B hB)
        shapeCasts_S1x784x784_S784x784) bitsLt_bf16_f32 (ix2 n j)) = fun n j => B (ix3 h n j) :=
    funext fun n => funext fun j => by
      rw [extf_apply]
      refine (shapeCast_apply _ shapeCasts_S1x784x784_S784x784 (ix2 n j) (ix3 (0 : Fin 1) n j) (by
        rw [Shape.rowMajor_val_two, Shape.rowMajor_val_three]
        show (0 * 784 + n.val) * 784 + j.val = n.val * 784 + j.val; omega)).trans ?_
      exact extractStridedSlice_apply _ B hB (ix3 (0 : Fin 1) n j) (ix3 h n j) (fun a => by
        match a with
        | ⟨0, _⟩ => show h.val = h.val + 0; omega
        | ⟨1, _⟩ => show n.val = 0 + n.val; omega
        | ⟨2, _⟩ => show j.val = 0 + j.val; omega)
  rw [eQ, eK, eV, eB]

/-! ## The eight stores are `headOf` at the eight heads' offsets

Each head's store is spelt through differently named intermediate values of the kernel's body; unfolded, each is the same
computation at its head's offsets. -/

theorem piece0_eq (v0 : Vec Ideal S1x784x1536 .bf16) (v2 : Vec Ideal S8x784x784 .bf16) :
    k1_pay5 (k1_pay4 v0 v2) = headOf (k1_pay2 v0) (k1_pay3 v2) 0 32 64 0 slices_S784x1536_o0_0_S784x32
      slices_S784x1536_o0_32_S784x32 slices_S784x1536_o0_64_S784x128 slices_S8x784x784_o0_0_0_S1x784x784 := rfl

theorem piece1_eq (X : FVec Ideal S784x1536 .bf16) (B : FVec Ideal S8x784x784 .bf16) :
    k1_pay6 X B = headOf X B 192 224 256 1 slices_S784x1536_o0_192_S784x32
      slices_S784x1536_o0_224_S784x32 slices_S784x1536_o0_256_S784x128 slices_S8x784x784_o1_0_0_S1x784x784 := rfl

theorem piece2_eq (X : FVec Ideal S784x1536 .bf16) (B : FVec Ideal S8x784x784 .bf16) :
    k1_pay11 (k1_pay7 X) (k1_pay8 X) (k1_pay9 B) (k1_pay10 X) = headOf X B 384 416 448 2 slices_S784x1536_o0_384_S784x32
      slices_S784x1536_o0_416_S784x32 slices_S784x1536_o0_448_S784x128 slices_S8x784x784_o2_0_0_S1x784x784 := rfl

theorem piece3_eq (X : FVec Ideal S784x1536 .bf16) (B : FVec Ideal S8x784x784 .bf16) :
    k1_pay15 (k1_pay12 X) (k1_pay13 X B) (k1_pay14 X B) (Scalar.ofBits .f32 0xFF800000#32)
      = headOf X B 576 608 640 3 slices_S784x1536_o0_576_S784x32
      slices_S784x1536_o0_608_S784x32 slices_S784x1536_o0_640_S784x128 slices_S8x784x784_o3_0_0_S1x784x784 := rfl

theorem piece4_eq (X : FVec Ideal S784x1536 .bf16) (B : FVec Ideal S8x784x784 .bf16) :
    k1_pay19 (k1_pay16 X) (k1_pay17 X B) (k1_pay18 X B) = headOf X B 768 800 832 4 slices_S784x1536_o0_768_S784x32
      slices_S784x1536_o0_800_S784x32 slices_S784x1536_o0_832_S784x128 slices_S8x784x784_o4_0_0_S1x784x784 := rfl

theorem piece5_eq (X : FVec Ideal S784x1536 .bf16) (B : FVec Ideal S8x784x784 .bf16) :
    k1_pay22 (k1_pay20 X B) (k1_pay21 X B) (Scalar.ofBits .f32 0x00000000#32)
      = headOf X B 960 992 1024 5 slices_S784x1536_o0_960_S784x32
      slices_S784x1536_o0_992_S784x32 slices_S784x1536_o0_1024_S784x128 slices_S8x784x784_o5_0_0_S1x784x784 := rfl

theorem piece6_eq (X : FVec Ideal S784x1536 .bf16) (B : FVec Ideal S8x784x784 .bf16) :
    k1_pay24 (k1_pay23 X B) = headOf X B 1152 1184 1216 6 slices_S784x1536_o0_1152_S784x32
      slices_S784x1536_o0_1184_S784x32 slices_S784x1536_o0_1216_S784x128 slices_S8x784x784_o6_0_0_S1x784x784 := rfl

theorem piece7_eq (X : FVec Ideal S784x1536 .bf16) (B : FVec Ideal S8x784x784 .bf16) :
    k1_pay1 (k1_pay25 X B) = headOf X B 1344 1376 1408 7 slices_S784x1536_o0_1344_S784x32
      slices_S784x1536_o0_1376_S784x32 slices_S784x1536_o0_1408_S784x128 slices_S8x784x784_o7_0_0_S1x784x784 := rfl

/-! ## The block and the bias as the kernel loads them -/

theorem zero3 : (![0, 0, 0] : Fin 3 → Nat) = fun _ => 0 := funext fun a => by fin_cases a <;> rfl

/-- The loaded block viewed 784 × 1536 reads `x0` at `(0, n, c)`. -/
theorem block_apply (x0 : Vec Ideal S1x784x1536 .bf16) (n : Fin 784) (c : Fin 1536) :
    k1_pay2 (View.ld x0 r1_0) (ix2 n c) = x0 (ix3 (0 : Fin 1) n c) := by
  show shapeCast S784x1536 (View.ld x0 r1_0) shapeCasts_S1x784x1536_S784x1536 (ix2 n c) = _
  rw [show View.ld x0 r1_0 = x0 from View.ld_unit_zero zero3 _ x0]
  exact shapeCast_apply x0 shapeCasts_S1x784x1536_S784x1536 (ix2 n c) (ix3 (0 : Fin 1) n c) (by
    rw [Shape.rowMajor_val_two, Shape.rowMajor_val_three]
    show (0 * 784 + n.val) * 1536 + c.val = n.val * 1536 + c.val; omega)

/-- The loaded bias is `x1`. -/
theorem bias_eq (x1 : Vec Ideal S8x784x784 .bf16) : k1_pay3 (View.ld x1 r1_1) = x1 := by
  show shapeCast S8x784x784 (View.ld x1 r1_1) shapeCasts_S8x784x784_S8x784x784 = _
  rw [show View.ld x1 r1_1 = x1 from View.ld_unit_zero zero3 _ x1]
  exact shapeCast_self x1 _

/-! ## The output block as one function of its index -/

/-- Head `h` of the attention at row `n`, column `d`, over the entries of the block `x0` and the bias `x1`. -/
def attnHead (x0 : Vec Ideal S1x784x1536 .bf16) (x1 : Vec Ideal S8x784x784 .bf16) (h : Fin 8) (n : Fin 784) (d : Fin 128) :
    EReal :=
  Spec.attn (fun n c => x0 (ix3 (0 : Fin 1) n (⟨192 * h.val + c.val, by omega⟩ : Fin 1536)))
    (fun j c => x0 (ix3 (0 : Fin 1) j (⟨192 * h.val + 32 + c.val, by omega⟩ : Fin 1536)))
    (fun j e => x0 (ix3 (0 : Fin 1) j (⟨192 * h.val + 64 + e.val, by omega⟩ : Fin 1536)))
    (fun n j => x1 (ix3 h n j)) n d

/-- The output block: at `(·, n, c)` head `c / 128` at row `n`, column `c % 128`. -/
def blockG (x0 : Vec Ideal S1x784x1536 .bf16) (x1 : Vec Ideal S8x784x784 .bf16) : S1x784x1024.Idx → EReal := fun y =>
  attnHead x0 x1 ⟨(y 2).val / 128, by have h : (y 2).val < 1024 := (y 2).isLt; omega⟩ ⟨(y 1).val, (y 1).isLt⟩
    ⟨(y 2).val % 128, Nat.mod_lt _ (by decide)⟩

/-- Head `h`'s store is the output block's function on the rectangle at column offset `128 h`. -/
theorem headOf_emb (x0 : Vec Ideal S1x784x1536 .bf16) (x1 : Vec Ideal S8x784x784 .bf16) (oq ok ov hb off : Nat)
    (hq : S784x1536.Slices ![0, oq] S784x32) (hk : S784x1536.Slices ![0, ok] S784x32)
    (hv : S784x1536.Slices ![0, ov] S784x128) (hB : S8x784x784.Slices ![hb, 0, 0] S1x784x784)
    (inb : ∀ a, (![0, 0, off] : Fin 3 → Nat) a + S1x784x128.size a ≤ S1x784x1024.size a)
    (h : Fin 8) (eq : oq = 192 * h.val) (ek : ok = 192 * h.val + 32) (ev : ov = 192 * h.val + 64) (eb : hb = h.val)
    (eoff : off = 128 * h.val) (x : S1x784x128.Idx) :
    headOf (k1_pay2 (View.ld x0 r1_0)) (k1_pay3 (View.ld x1 r1_1)) oq ok ov hb hq hk hv hB x
      = blockG x0 x1 ((Rect.unit (s := S1x784x1024) ![0, 0, off] S1x784x128.size inb).emb x) := by
  obtain ⟨a, n, d, rfl⟩ : ∃ (a : Fin 1) (n : Fin 784) (d : Fin 128), x = ix3 a n d := ⟨x 0, x 1, x 2, eq_ix3 x⟩
  obtain rfl : a = 0 := Subsingleton.elim _ _
  have e1 : ((Rect.unit (s := S1x784x1024) ![0, 0, off] S1x784x128.size inb).emb (ix3 (0 : Fin 1) n d) 1).val = n.val := by
    rw [Rect.emb_apply]; show 0 + 1 * n.val = n.val; omega
  have e2 : ((Rect.unit (s := S1x784x1024) ![0, 0, off] S1x784x128.size inb).emb (ix3 (0 : Fin 1) n d) 2).val
      = 128 * h.val + d.val := by
    rw [Rect.emb_apply]; show off + 1 * d.val = _; omega
  have hG : blockG x0 x1 ((Rect.unit (s := S1x784x1024) ![0, 0, off] S1x784x128.size inb).emb (ix3 (0 : Fin 1) n d))
      = attnHead x0 x1 h n d := by
    unfold blockG
    exact congr (congr (congrArg (attnHead x0 x1) (Fin.ext (by
      show ((Rect.unit (s := S1x784x1024) ![0, 0, off] S1x784x128.size inb).emb (ix3 (0 : Fin 1) n d) 2).val / 128 = h.val
      rw [e2]; omega))) (Fin.ext e1)) (Fin.ext (by
      show ((Rect.unit (s := S1x784x1024) ![0, 0, off] S1x784x128.size inb).emb (ix3 (0 : Fin 1) n d) 2).val % 128 = d.val
      rw [e2]; omega))
  rw [hG, headOf_apply _ _ oq ok ov hb hq hk hv hB h eq ek ev eb n d, bias_eq]
  unfold attnHead
  simp only [block_apply]

/-! ## The block at an entry -/

/-- The attention kernel's output block at row `n`, head `hd`, column `d` of the head: softmax attention with the
    position bias, then hard-swish, over head `hd`'s queries, keys and values in `x0` and its plane of `x1`. -/
theorem out1_2_apply (x0 : Vec Ideal S1x784x1536 .bf16) (x1 : Vec Ideal S8x784x784 .bf16) (n : Fin 784) (hd : Fin 8) (d : Fin 128) :
    Gen.out1_2 (F := Ideal) x0 x1 (ValueIdx.ix3 (0 : Fin 1) n (⟨128 * hd.val + d.val, by omega⟩ : Fin 1024))
      = Cert.Spec.attn (fun n c => x0 (ValueIdx.ix3 (0 : Fin 1) n (⟨192 * hd.val + c.val, by omega⟩ : Fin 1536)))
                       (fun j c => x0 (ValueIdx.ix3 (0 : Fin 1) j (⟨192 * hd.val + 32 + c.val, by omega⟩ : Fin 1536)))
                       (fun j e => x0 (ValueIdx.ix3 (0 : Fin 1) j (⟨192 * hd.val + 64 + e.val, by omega⟩ : Fin 1536)))
                       (fun n j => x1 (ValueIdx.ix3 hd n j)) n d := by
  unfold Gen.out1_2
  refine (View.canon_apply_of_pieces (blockG x0 x1) _ ?_ _ (Gen.cover1_2 _ _ _ _ _ _ _ _ _)).trans ?_
  · intro p hp
    simp only [List.mem_cons, List.not_mem_nil, or_false] at hp
    rcases hp with rfl | rfl | rfl | rfl | rfl | rfl | rfl | rfl
    · intro x
      exact (congrFun (piece7_eq _ _) x).trans
        (headOf_emb x0 x1 1344 1376 1408 7 896 _ _ _ _ inb_S1x784x1024_S1x784x128_0_0_896 7 (by decide) (by decide) (by decide) (by decide) (by decide) x)
    · intro x
      exact (congrFun (piece6_eq _ _) x).trans
        (headOf_emb x0 x1 1152 1184 1216 6 768 _ _ _ _ inb_S1x784x1024_S1x784x128_0_0_768 6 (by decide) (by decide) (by decide) (by decide) (by decide) x)
    · intro x
      exact (congrFun (piece5_eq _ _) x).trans
        (headOf_emb x0 x1 960 992 1024 5 640 _ _ _ _ inb_S1x784x1024_S1x784x128_0_0_640 5 (by decide) (by decide) (by decide) (by decide) (by decide) x)
    · intro x
      exact (congrFun (piece4_eq _ _) x).trans
        (headOf_emb x0 x1 768 800 832 4 512 _ _ _ _ inb_S1x784x1024_S1x784x128_0_0_512 4 (by decide) (by decide) (by decide) (by decide) (by decide) x)
    · intro x
      exact (congrFun (piece3_eq _ _) x).trans
        (headOf_emb x0 x1 576 608 640 3 384 _ _ _ _ inb_S1x784x1024_S1x784x128_0_0_384 3 (by decide) (by decide) (by decide) (by decide) (by decide) x)
    · intro x
      exact (congrFun (piece2_eq _ _) x).trans
        (headOf_emb x0 x1 384 416 448 2 256 _ _ _ _ inb_S1x784x1024_S1x784x128_0_0_256 2 (by decide) (by decide) (by decide) (by decide) (by decide) x)
    · intro x
      exact (congrFun (piece1_eq _ _) x).trans
        (headOf_emb x0 x1 192 224 256 1 128 _ _ _ _ inb_S1x784x1024_S1x784x128_0_0_128 1 (by decide) (by decide) (by decide) (by decide) (by decide) x)
    · intro x
      exact (congrFun (piece0_eq _ _) x).trans
        (headOf_emb x0 x1 0 32 64 0 0 _ _ _ _ inb_S1x784x1024_S1x784x128_0_0_0 0 (by decide) (by decide) (by decide) (by decide) (by decide) x)
  · show attnHead x0 x1 ⟨(128 * hd.val + d.val) / 128, _⟩ ⟨n.val, _⟩ ⟨(128 * hd.val + d.val) % 128, _⟩ = attnHead x0 x1 hd n d
    exact congr (congr (congrArg (attnHead x0 x1) (Fin.ext (by show (128 * hd.val + d.val) / 128 = hd.val; omega)))
      (Fin.ext rfl)) (Fin.ext (by show (128 * hd.val + d.val) % 128 = d.val; omega))

end Cert.KernelIdeal.AttnKernel

end
-- ==== Proof.LinRef.lean ====
/-
  The two linear + batch-normalisation stages of the reference program, entry by entry, on the extended reals.

  Each stage is a `dot_general` contracting the last axis of the activations with the last axis of the weights (a sum over
  the contracted axis), minus the mean, times γ · rsqrt (σ² + ε), plus β, the four vectors broadcast along the batch and
  position axes: `Spec.bnE` of the inner product and the four vector entries.
-/
import proofs.«120797_j82815559401482_1_alg».proof.Proof.Gen.ReferenceIdeal.Read
import proofs.«120797_j82815559401482_1_alg».proof.Proof.Spec

noncomputable section

namespace Cert.ReferenceIdeal.LinRef

open Cert.ReferenceIdeal Idealize.ShloMosaic Idealize.ShloMosaic.ValueIdx

/-- THE FIRST STAGE AT AN ENTRY: batch normalisation of the inner product of input row `(bt, n)` with weight row `h`. -/
theorem ref_v13_apply (x0 : (⟨S16x784x512, .f32⟩ : BufTy).Contents (Elt Ideal)) (x1 : (⟨S1536x512, .f32⟩ : BufTy).Contents (Elt Ideal)) (x2 x3 x4 x5 : (⟨S1536, .f32⟩ : BufTy).Contents (Elt Ideal)) (bt : Fin 16) (n : Fin 784) (h : Fin 1536) :
    Read.val_main_v13 (F := Ideal) x0 x1 x2 x3 x4 x5 (ValueIdx.ix3 bt n h)
      = Cert.Spec.bnE (∑ c : Fin 512, x0 (ValueIdx.ix3 bt n c) * x1 (ValueIdx.ix2 h c)) (x4 (ValueIdx.ix1 h)) (x2 (ValueIdx.ix1 h)) (x5 (ValueIdx.ix1 h)) (x3 (ValueIdx.ix1 h)) := by
  have el : ∀ k : Fin 512, Read.lidx_main_v0 (ix3 bt n h) k = ix3 bt n k := fun k => funext fun a => by
    match a with | ⟨0, _⟩ => rfl | ⟨1, _⟩ => rfl | ⟨2, _⟩ => rfl
  have er : ∀ k : Fin 512, Read.ridx_main_v0 (ix3 bt n h) k = ix2 h k := fun k => funext fun a => by
    match a with | ⟨0, _⟩ => rfl | ⟨1, _⟩ => rfl
  have e4 : Read.idx_main_v1 (Read.idx_main_v2 (ix3 bt n h)) = ix1 h := funext fun a => by
    match a with | ⟨0, _⟩ => rfl
  have e2 : Read.idx_main_v8 (Read.idx_main_v9 (ix3 bt n h)) = ix1 h := funext fun a => by
    match a with | ⟨0, _⟩ => rfl
  have e3 : Read.idx_main_v11 (Read.idx_main_v12 (ix3 bt n h)) = ix1 h := funext fun a => by
    match a with | ⟨0, _⟩ => rfl
  rw [Read.val_main_v13_apply, Read.val_main_v10_apply, Read.val_main_v3_apply, Read.val_main_v0_apply, Read.val_main_v2_apply, Read.val_main_v1_apply,
    Read.val_main_v9_apply, Read.val_main_v8_apply, Read.val_main_v7_apply, Read.val_main_v6_apply, Read.val_main_v5_apply, Read.val_main_v4_apply, Read.val_main_cst_apply,
    Read.val_main_v12_apply, Read.val_main_v11_apply]
  simp only [el, er, e4, e2, e3, Ideal.addf_def, Ideal.subf_def, Ideal.mulf_def, Ideal.hostUnary_rsqrt_def, Ideal.ofBits_def, Cert.Spec.bnE]

/-- THE LAST STAGE AT AN ENTRY: batch normalisation of the inner product of attention-output row `(bt, n)` with weight row `o`. -/
theorem ref_v67_apply (x0 : (⟨S16x784x512, .f32⟩ : BufTy).Contents (Elt Ideal)) (x1 : (⟨S1536x512, .f32⟩ : BufTy).Contents (Elt Ideal)) (x2 x3 x4 x5 : (⟨S1536, .f32⟩ : BufTy).Contents (Elt Ideal)) (x6 : (⟨S8x784, .f32⟩ : BufTy).Contents (Elt Ideal)) (x7 : (⟨S512x1024, .f32⟩ : BufTy).Contents (Elt Ideal)) (x8 x9 x10 x11 : (⟨S512, .f32⟩ : BufTy).Contents (Elt Ideal)) (x12 : (⟨S784x784, .i32⟩ : BufTy).Contents (Elt Ideal)) (bt : Fin 16) (n : Fin 784) (o : Fin 512) :
    Read.val_main_v67 (F := Ideal) x0 x1 x2 x3 x4 x5 x6 x7 x8 x9 x10 x11 x12 (ValueIdx.ix3 bt n o)
      = Cert.Spec.bnE (∑ e : Fin 1024, Read.val_main_v53 (F := Ideal) x0 x1 x2 x3 x4 x5 x6 x12 (ValueIdx.ix3 bt n e) * x7 (ValueIdx.ix2 o e)) (x10 (ValueIdx.ix1 o)) (x8 (ValueIdx.ix1 o)) (x11 (ValueIdx.ix1 o)) (x9 (ValueIdx.ix1 o)) := by
  have el : ∀ k : Fin 1024, Read.lidx_main_v54 (ix3 bt n o) k = ix3 bt n k := fun k => funext fun a => by
    match a with | ⟨0, _⟩ => rfl | ⟨1, _⟩ => rfl | ⟨2, _⟩ => rfl
  have er : ∀ k : Fin 1024, Read.ridx_main_v54 (ix3 bt n o) k = ix2 o k := fun k => funext fun a => by
    match a with | ⟨0, _⟩ => rfl | ⟨1, _⟩ => rfl
  have e10 : Read.idx_main_v55 (Read.idx_main_v56 (ix3 bt n o)) = ix1 o := funext fun a => by
    match a with | ⟨0, _⟩ => rfl
  have e8 : Read.idx_main_v62 (Read.idx_main_v63 (ix3 bt n o)) = ix1 o := funext fun a => by
    match a with | ⟨0, _⟩ => rfl
  have e9 : Read.idx_main_v65 (Read.idx_main_v66 (ix3 bt n o)) = ix1 o := funext fun a => by
    match a with | ⟨0, _⟩ => rfl
  rw [Read.val_main_v67_apply, Read.val_main_v64_apply, Read.val_main_v57_apply, Read.val_main_v54_apply, Read.val_main_v56_apply, Read.val_main_v55_apply,
    Read.val_main_v63_apply, Read.val_main_v62_apply, Read.val_main_v61_apply, Read.val_main_v60_apply, Read.val_main_v59_apply, Read.val_main_v58_apply, Read.val_main_cst_9_apply,
    Read.val_main_v66_apply, Read.val_main_v65_apply]
  simp only [el, er, e10, e8, e9, Ideal.addf_def, Ideal.subf_def, Ideal.mulf_def, Ideal.hostUnary_rsqrt_def, Ideal.ofBits_def, Cert.Spec.bnE]

end Cert.ReferenceIdeal.LinRef

end
-- ==== Proof.AttnRef.lean ====
/-
  The reference's attention block, read entry by entry.

  From the normalised projection (16 × 784 × 1536) the reference takes, for each head h of the eight, the
  query columns 192·h + [0, 32), the key columns 192·h + [32, 64) and the value columns 192·h + [64, 192);
  forms the scores (∑ c, Q n c · K j c) · scale + B h n j; subtracts the row maximum (taken from -∞); exponentiates;
  divides by the row sum; multiplies by the values; writes head h into the columns 128·h + [0, 128) of a
  16 × 784 × 1024 array; and applies the hard-swish. This module proves that the result at batch bt, row n,
  column 128·h + d is Spec.attn of those three column blocks of the projection and of the bias rows of head h.
-/
import proofs.«120797_j82815559401482_1_alg».proof.Proof.Gen.ReferenceIdeal.Read
import proofs.«120797_j82815559401482_1_alg».proof.Proof.Spec
import Idealize.ShloMosaic.Lib.ValueIdx
import Idealize.ShloMosaic.PureOps.Ideal.Laws
import Idealize.ShloMosaic.PureOps.Reduce

noncomputable section

namespace Cert.ReferenceIdeal.AttnRef

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix3 ix4)

section Stages

variable (x0 : (⟨S16x784x512, .f32⟩ : BufTy).Contents (Elt Ideal)) (x1 : (⟨S1536x512, .f32⟩ : BufTy).Contents (Elt Ideal))
  (x2 x3 x4 x5 : (⟨S1536, .f32⟩ : BufTy).Contents (Elt Ideal)) (x6 : (⟨S8x784, .f32⟩ : BufTy).Contents (Elt Ideal))
  (x12 : (⟨S784x784, .i32⟩ : BufTy).Contents (Elt Ideal))

/-- The query rows of head hd in batch bt: columns 192·hd + c, c < 32, of the projection. -/
abbrev Qm (bt : Fin 16) (hd : Fin 8) : Fin 784 → Fin 32 → EReal :=
  fun n c => val_main_v13 (F := Ideal) x0 x1 x2 x3 x4 x5 (ix3 bt n (⟨192 * hd.val + c.val, by omega⟩ : Fin 1536))

/-- The key rows: columns 192·hd + 32 + c, c < 32. -/
abbrev Km (bt : Fin 16) (hd : Fin 8) : Fin 784 → Fin 32 → EReal :=
  fun j c => val_main_v13 (F := Ideal) x0 x1 x2 x3 x4 x5 (ix3 bt j (⟨192 * hd.val + 32 + c.val, by omega⟩ : Fin 1536))

/-- The value rows: columns 192·hd + 64 + e, e < 128. -/
abbrev Vm (bt : Fin 16) (hd : Fin 8) : Fin 784 → Fin 128 → EReal :=
  fun j e => val_main_v13 (F := Ideal) x0 x1 x2 x3 x4 x5 (ix3 bt j (⟨192 * hd.val + 64 + e.val, by omega⟩ : Fin 1536))

/-- The position bias of head hd. -/
abbrev Bm (hd : Fin 8) : Fin 784 → Fin 784 → EReal :=
  fun n j => val_main_v27 (F := Ideal) x6 x12 (ix3 hd n j)

/-! ## The three column blocks -/

/-- The transposed query block at (bt, hd, n, c) is the projection at row (bt, n), column 192·hd + c. -/
theorem v18_at (bt : Fin 16) (hd : Fin 8) (n : Fin 784) (c : Fin 32) :
    val_main_v18 (F := Ideal) x0 x1 x2 x3 x4 x5 (ix4 bt hd n c) = Qm x0 x1 x2 x3 x4 x5 bt hd n c := by
  rw [val_main_v18_apply, val_main_v15_apply, val_main_v14_apply]
  refine congrArg (val_main_v13 (F := Ideal) x0 x1 x2 x3 x4 x5) (funext fun a => Fin.ext ?_)
  have h0 := bt.isLt; have h1 := hd.isLt; have h2 := n.isLt; have h3 := c.isLt
  match a with
  | ⟨0, _⟩ => show ((((bt.val * 784 + n.val) * 8 + hd.val) * 192 + c.val) / 1204224 = bt.val); omega
  | ⟨1, _⟩ => show ((((bt.val * 784 + n.val) * 8 + hd.val) * 192 + c.val) / 1536 % 784 = n.val); omega
  | ⟨2, _⟩ => show ((((bt.val * 784 + n.val) * 8 + hd.val) * 192 + c.val) % 1536 = 192 * hd.val + c.val); omega

/-- The transposed key block at (bt, hd, j, c) is the projection at row (bt, j), column 192·hd + 32 + c. -/
theorem v19_at (bt : Fin 16) (hd : Fin 8) (j : Fin 784) (c : Fin 32) :
    val_main_v19 (F := Ideal) x0 x1 x2 x3 x4 x5 (ix4 bt hd j c) = Km x0 x1 x2 x3 x4 x5 bt hd j c := by
  rw [val_main_v19_apply, val_main_v16_apply, val_main_v14_apply]
  refine congrArg (val_main_v13 (F := Ideal) x0 x1 x2 x3 x4 x5) (funext fun a => Fin.ext ?_)
  have h0 := bt.isLt; have h1 := hd.isLt; have h2 := j.isLt; have h3 := c.isLt
  match a with
  | ⟨0, _⟩ => show ((((bt.val * 784 + j.val) * 8 + hd.val) * 192 + (32 + c.val)) / 1204224 = bt.val); omega
  | ⟨1, _⟩ => show ((((bt.val * 784 + j.val) * 8 + hd.val) * 192 + (32 + c.val)) / 1536 % 784 = j.val); omega
  | ⟨2, _⟩ => show ((((bt.val * 784 + j.val) * 8 + hd.val) * 192 + (32 + c.val)) % 1536 = 192 * hd.val + 32 + c.val); omega

/-- The transposed value block at (bt, hd, j, e) is the projection at row (bt, j), column 192·hd + 64 + e. -/
theorem v20_at (bt : Fin 16) (hd : Fin 8) (j : Fin 784) (e : Fin 128) :
    val_main_v20 (F := Ideal) x0 x1 x2 x3 x4 x5 (ix4 bt hd j e) = Vm x0 x1 x2 x3 x4 x5 bt hd j e := by
  rw [val_main_v20_apply, val_main_v17_apply, val_main_v14_apply]
  refine congrArg (val_main_v13 (F := Ideal) x0 x1 x2 x3 x4 x5) (funext fun a => Fin.ext ?_)
  have h0 := bt.isLt; have h1 := hd.isLt; have h2 := j.isLt; have h3 := e.isLt
  match a with
  | ⟨0, _⟩ => show ((((bt.val * 784 + j.val) * 8 + hd.val) * 192 + (64 + e.val)) / 1204224 = bt.val); omega
  | ⟨1, _⟩ => show ((((bt.val * 784 + j.val) * 8 + hd.val) * 192 + (64 + e.val)) / 1536 % 784 = j.val); omega
  | ⟨2, _⟩ => show ((((bt.val * 784 + j.val) * 8 + hd.val) * 192 + (64 + e.val)) % 1536 = 192 * hd.val + 64 + e.val); omega

/-! ## The scores -/

/-- The score stage at (bt, hd, n, j) is the scaled inner product of query row n with key row j, plus the bias. -/
theorem v33_at (bt : Fin 16) (hd : Fin 8) (n j : Fin 784) :
    val_main_v33 (F := Ideal) x0 x1 x2 x3 x4 x5 x6 x12 (ix4 bt hd n j)
      = Cert.Spec.score (Qm x0 x1 x2 x3 x4 x5 bt hd) (Km x0 x1 x2 x3 x4 x5 bt hd) (Bm x6 x12 hd) n j := by
  rw [val_main_v33_apply, val_main_v30_apply, val_main_v28_apply, val_main_v29_apply, val_main_cst_1_apply,
    val_main_v32_apply, val_main_v31_apply]
  simp only [Ideal.addf_def, Ideal.mulf_def, Ideal.ofBits_def]
  have hs : ∀ k : Fin 32,
      val_main_v18 (F := Ideal) x0 x1 x2 x3 x4 x5 (lidx_main_v28 (ix4 bt hd n j) k)
        * val_main_v19 (F := Ideal) x0 x1 x2 x3 x4 x5 (ridx_main_v28 (ix4 bt hd n j) k)
        = Qm x0 x1 x2 x3 x4 x5 bt hd n k * Km x0 x1 x2 x3 x4 x5 bt hd j k := fun k => by
    have el : lidx_main_v28 (ix4 bt hd n j) k = ix4 bt hd n k := funext fun a => by
      match a with | ⟨0, _⟩ => rfl | ⟨1, _⟩ => rfl | ⟨2, _⟩ => rfl | ⟨3, _⟩ => rfl
    have er : ridx_main_v28 (ix4 bt hd n j) k = ix4 bt hd j k := funext fun a => by
      match a with | ⟨0, _⟩ => rfl | ⟨1, _⟩ => rfl | ⟨2, _⟩ => rfl | ⟨3, _⟩ => rfl
    rw [el, er, v18_at, v19_at]
  have hb : idx_main_v31 (idx_main_v32 (ix4 bt hd n j)) = ix3 hd n j := funext fun a => by
    match a with | ⟨0, _⟩ => rfl | ⟨1, _⟩ => rfl | ⟨2, _⟩ => rfl
  rw [Finset.sum_congr rfl (fun k _ => hs k), hb]
  rfl

/-! ## The row maximum -/

/-- A reduced index (bt, hd, n) with the dropped coordinate k put back is (bt, hd, n, k). -/
theorem lift_ix4 (h : S16x8x784x784.Reduces [3] S16x8x784) (bt : Fin 16) (hd : Fin 8) (n : Fin 784)
    (k : Fin (S16x8x784x784.size 3)) : h.lift (ix3 bt hd n) k = ix4 bt hd n (⟨k.val, k.isLt⟩ : Fin 784) := by
  funext c; apply Fin.ext
  fin_cases c <;> rfl

/-- The reduce with a maximum body over the last axis, from the literal -∞, at (bt, hd, n) is the fold of max over the row. -/
theorem reduce_max_at (y : FVec Ideal S16x8x784x784 .f32) (bt : Fin 16) (hd : Fin 8) (n : Fin 784) :
    Host.reduce FloatOps.maximumf y (val_main_cst_2 (F := Ideal)) reducesTo_S16x8x784x784_S16x8x784_d3 h_S_ (ix3 bt hd n)
      = (Finset.univ : Finset (Fin 784)).fold max (Ideal.ofBits .f32 0xFF800000#32) (fun j => y (ix4 bt hd n j)) := by
  have h : S16x8x784x784.Reduces [3] S16x8x784 := by decide
  rw [Host.reduce_eq_fold_single FloatOps.maximumf y _ reducesTo_S16x8x784x784_S16x8x784_d3 h h_S_]
  have hf : (y ∘ h.lift (ix3 bt hd n)) = fun k : Fin 784 => y (ix4 bt hd n k) :=
    funext fun k => congrArg y (lift_ix4 h bt hd n k)
  exact congrArg (fun f => Finset.fold max (Ideal.ofBits .f32 0xFF800000#32) f (Finset.univ : Finset (Fin 784))) hf

/-- The row-maximum stage at (bt, hd, n) is the maximum of the row of scores, never below -∞. -/
theorem v36_at (bt : Fin 16) (hd : Fin 8) (n : Fin 784) :
    val_main_v36 (F := Ideal) x0 x1 x2 x3 x4 x5 x6 x12 (ix3 bt hd n)
      = Cert.Spec.rowMax (Cert.Spec.score (Qm x0 x1 x2 x3 x4 x5 bt hd) (Km x0 x1 x2 x3 x4 x5 bt hd) (Bm x6 x12 hd) n) := by
  rw [val_main_v36_apply, val_main_v35_apply, val_main_cst_3_apply]
  unfold val_main_v34
  rw [reduce_max_at]
  have hrow : (fun j => val_main_v33 (F := Ideal) x0 x1 x2 x3 x4 x5 x6 x12 (ix4 bt hd n j))
      = Cert.Spec.score (Qm x0 x1 x2 x3 x4 x5 bt hd) (Km x0 x1 x2 x3 x4 x5 bt hd) (Bm x6 x12 hd) n :=
    funext fun j => v33_at x0 x1 x2 x3 x4 x5 x6 x12 bt hd n j
  rw [hrow]
  rfl

/-! ## The weights -/

/-- The exponentiated stage at (bt, hd, n, j) is exp (score - row maximum). -/
theorem v40_at (bt : Fin 16) (hd : Fin 8) (n j : Fin 784) :
    val_main_v40 (F := Ideal) x0 x1 x2 x3 x4 x5 x6 x12 (ix4 bt hd n j)
      = Cert.Spec.expo (Qm x0 x1 x2 x3 x4 x5 bt hd) (Km x0 x1 x2 x3 x4 x5 bt hd) (Bm x6 x12 hd) n j := by
  rw [val_main_v40_apply, val_main_v39_apply, val_main_v38_apply, val_main_v37_apply]
  have hi : idx_main_v37 (idx_main_v38 (ix4 bt hd n j)) = ix3 bt hd n := funext fun a => by
    match a with | ⟨0, _⟩ => rfl | ⟨1, _⟩ => rfl | ⟨2, _⟩ => rfl
  rw [hi, v33_at, v36_at]
  simp only [Ideal.hostUnary_exp_def, Ideal.subf_def]
  rfl

/-- The row-sum stage at (bt, hd, n) is the sum of the row of exponentials. -/
theorem v41_at (bt : Fin 16) (hd : Fin 8) (n : Fin 784) :
    val_main_v41 (F := Ideal) x0 x1 x2 x3 x4 x5 x6 x12 (ix3 bt hd n)
      = ∑ j' : Fin 784, Cert.Spec.expo (Qm x0 x1 x2 x3 x4 x5 bt hd) (Km x0 x1 x2 x3 x4 x5 bt hd) (Bm x6 x12 hd) n j' := by
  rw [val_main_v41_apply, val_main_cst_4_apply]
  simp only [Ideal.ofBits_def]
  rw [Ideal.ofBits_zero_f32, zero_add]
  refine Finset.sum_congr rfl fun k _ => ?_
  have hi : idx_main_v41 (ix3 bt hd n) k = ix4 bt hd n k := funext fun a => by
    match a with | ⟨0, _⟩ => rfl | ⟨1, _⟩ => rfl | ⟨2, _⟩ => rfl | ⟨3, _⟩ => rfl
  rw [hi, v40_at]

/-- The normalised weight at (bt, hd, n, j). -/
theorem v44_at (bt : Fin 16) (hd : Fin 8) (n j : Fin 784) :
    val_main_v44 (F := Ideal) x0 x1 x2 x3 x4 x5 x6 x12 (ix4 bt hd n j)
      = Ideal.div (Cert.Spec.expo (Qm x0 x1 x2 x3 x4 x5 bt hd) (Km x0 x1 x2 x3 x4 x5 bt hd) (Bm x6 x12 hd) n j)
          (∑ j' : Fin 784, Cert.Spec.expo (Qm x0 x1 x2 x3 x4 x5 bt hd) (Km x0 x1 x2 x3 x4 x5 bt hd) (Bm x6 x12 hd) n j') := by
  rw [val_main_v44_apply, val_main_v43_apply, val_main_v42_apply]
  have hi : idx_main_v42 (idx_main_v43 (ix4 bt hd n j)) = ix3 bt hd n := funext fun a => by
    match a with | ⟨0, _⟩ => rfl | ⟨1, _⟩ => rfl | ⟨2, _⟩ => rfl
  rw [hi, v40_at, v41_at]
  simp only [Ideal.hostDivf_def]

/-! ## The weighted sum of the values, and the layout back -/

/-- The attention output before the layout change, at (bt, hd, n, d). -/
theorem v45_at (bt : Fin 16) (hd : Fin 8) (n : Fin 784) (d : Fin 128) :
    val_main_v45 (F := Ideal) x0 x1 x2 x3 x4 x5 x6 x12 (ix4 bt hd n d)
      = ∑ j : Fin 784,
          Ideal.div (Cert.Spec.expo (Qm x0 x1 x2 x3 x4 x5 bt hd) (Km x0 x1 x2 x3 x4 x5 bt hd) (Bm x6 x12 hd) n j)
            (∑ j' : Fin 784, Cert.Spec.expo (Qm x0 x1 x2 x3 x4 x5 bt hd) (Km x0 x1 x2 x3 x4 x5 bt hd) (Bm x6 x12 hd) n j')
          * Vm x0 x1 x2 x3 x4 x5 bt hd j d := by
  rw [val_main_v45_apply]
  refine Finset.sum_congr rfl fun k _ => ?_
  have el : lidx_main_v45 (ix4 bt hd n d) k = ix4 bt hd n k := funext fun a => by
    match a with | ⟨0, _⟩ => rfl | ⟨1, _⟩ => rfl | ⟨2, _⟩ => rfl | ⟨3, _⟩ => rfl
  have er : ridx_main_v45 (ix4 bt hd n d) k = ix4 bt hd k d := funext fun a => by
    match a with | ⟨0, _⟩ => rfl | ⟨1, _⟩ => rfl | ⟨2, _⟩ => rfl | ⟨3, _⟩ => rfl
  rw [el, er, v44_at, v20_at]

/-- Head hd's block of the 16 × 784 × 1024 array: row (bt, n), column 128·hd + d, is the output at (bt, hd, n, d). -/
theorem v47_at (bt : Fin 16) (hd : Fin 8) (n : Fin 784) (d : Fin 128) :
    val_main_v47 (F := Ideal) x0 x1 x2 x3 x4 x5 x6 x12 (ix3 bt n (⟨128 * hd.val + d.val, by omega⟩ : Fin 1024))
      = val_main_v45 (F := Ideal) x0 x1 x2 x3 x4 x5 x6 x12 (ix4 bt hd n d) := by
  rw [val_main_v47_apply, val_main_v46_apply]
  refine congrArg (val_main_v45 (F := Ideal) x0 x1 x2 x3 x4 x5 x6 x12) (funext fun a => Fin.ext ?_)
  have h0 := bt.isLt; have h1 := hd.isLt; have h2 := n.isLt; have h3 := d.isLt
  match a with
  | ⟨0, _⟩ => show (((bt.val * 784 + n.val) * 1024 + (128 * hd.val + d.val)) / 802816 = bt.val); omega
  | ⟨1, _⟩ => show (((bt.val * 784 + n.val) * 1024 + (128 * hd.val + d.val)) / 128 % 8 = hd.val); omega
  | ⟨2, _⟩ => show (((bt.val * 784 + n.val) * 1024 + (128 * hd.val + d.val)) / 1024 % 784 = n.val); omega
  | ⟨3, _⟩ => show (((bt.val * 784 + n.val) * 1024 + (128 * hd.val + d.val)) % 128 = d.val); omega

/-! ## The hard-swish -/

/-- The last stage is the hard-swish of the stage before it, entry by entry. -/
theorem v53_hsw (i : S16x784x1024.Idx) :
    val_main_v53 (F := Ideal) x0 x1 x2 x3 x4 x5 x6 x12 i
      = Cert.Spec.hswE (val_main_v47 (F := Ideal) x0 x1 x2 x3 x4 x5 x6 x12 i) := by
  rw [val_main_v53_apply, val_main_v51_apply, val_main_v50_apply, val_main_call0_v4_apply, val_main_call0_v3_apply,
    val_main_cst_7_apply, val_main_call0_v2_apply, val_main_call0_v1_apply, val_main_call0_v0_apply, val_main_cst_6_apply,
    val_main_v49_apply, val_main_v48_apply, val_main_cst_5_apply, val_main_v52_apply, val_main_cst_8_apply]
  simp only [Ideal.addf_def, Ideal.mulf_def, Ideal.maximumf_def, Ideal.minimumf_def, Ideal.ofBits_def]
  rfl

end Stages

/-! ## The attention block -/

/-- The reference's attention output after the hard-swish, at batch bt, row n, column 128·hd + d, is one head of
    softmax attention (Spec.attn) of the query, key and value column blocks of the projection and the head's bias. -/
theorem ref_v53_apply (x0 : (⟨S16x784x512, .f32⟩ : BufTy).Contents (Elt Ideal)) (x1 : (⟨S1536x512, .f32⟩ : BufTy).Contents (Elt Ideal))
    (x2 x3 x4 x5 : (⟨S1536, .f32⟩ : BufTy).Contents (Elt Ideal)) (x6 : (⟨S8x784, .f32⟩ : BufTy).Contents (Elt Ideal))
    (x12 : (⟨S784x784, .i32⟩ : BufTy).Contents (Elt Ideal)) (bt : Fin 16) (n : Fin 784) (hd : Fin 8) (d : Fin 128) :
    Read.val_main_v53 (F := Ideal) x0 x1 x2 x3 x4 x5 x6 x12 (ValueIdx.ix3 bt n (⟨128 * hd.val + d.val, by omega⟩ : Fin 1024))
      = Cert.Spec.attn (fun n c => Read.val_main_v13 (F := Ideal) x0 x1 x2 x3 x4 x5 (ValueIdx.ix3 bt n (⟨192 * hd.val + c.val, by omega⟩ : Fin 1536)))
          (fun j c => Read.val_main_v13 (F := Ideal) x0 x1 x2 x3 x4 x5 (ValueIdx.ix3 bt j (⟨192 * hd.val + 32 + c.val, by omega⟩ : Fin 1536)))
          (fun j e => Read.val_main_v13 (F := Ideal) x0 x1 x2 x3 x4 x5 (ValueIdx.ix3 bt j (⟨192 * hd.val + 64 + e.val, by omega⟩ : Fin 1536)))
          (fun n j => Read.val_main_v27 (F := Ideal) x6 x12 (ValueIdx.ix3 hd n j)) n d := by
  rw [v53_hsw, v47_at, v45_at]
  rfl

end Cert.ReferenceIdeal.AttnRef

end
-- ==== Proof.RefWhole.lean ====
/-
  The reference's result is the composition of the three stages.

  The projected activations are the first linear + batch-normalisation stage entry by entry; column `e` of the attention
  output belongs to head `e / 128` at place `e % 128` (`e = 128 · (e / 128) + e % 128`), where it is one head of attention of
  the query, key and value column blocks of the projected activations and the head's bias; the result is the last linear
  + batch-normalisation stage of that attention output.
-/
import proofs.«120797_j82815559401482_1_alg».proof.Proof.LinRef
import proofs.«120797_j82815559401482_1_alg».proof.Proof.AttnRef
import proofs.«120797_j82815559401482_1_alg».proof.Proof.Compose

noncomputable section

namespace Cert.ReferenceIdeal.RefWhole

open Cert.ReferenceIdeal Idealize.ShloMosaic Idealize.ShloMosaic.ValueIdx

/-- The reference's projected activations are the first stage of the composition. -/
theorem ref_v13_eq (x0 : (⟨S16x784x512, .f32⟩ : BufTy).Contents (Elt Ideal)) (x1 : (⟨S1536x512, .f32⟩ : BufTy).Contents (Elt Ideal)) (x2 x3 x4 x5 : (⟨S1536, .f32⟩ : BufTy).Contents (Elt Ideal)) :
    Read.val_main_v13 (F := Ideal) x0 x1 x2 x3 x4 x5 = Cert.Compose.stageQ x0 x1 x2 x3 x4 x5 := by
  funext i
  obtain ⟨bt, n, h, rfl⟩ : ∃ (bt : Fin 16) (n : Fin 784) (h : Fin 1536), i = ix3 bt n h := ⟨i 0, i 1, i 2, eq_ix3 i⟩
  rw [LinRef.ref_v13_apply]
  rfl

/-- The reference's attention output is the attention stage of its projected activations and its gathered bias:
    column `e` is `128 · (e / 128) + e % 128`. -/
theorem ref_v53_eq (x0 : (⟨S16x784x512, .f32⟩ : BufTy).Contents (Elt Ideal)) (x1 : (⟨S1536x512, .f32⟩ : BufTy).Contents (Elt Ideal)) (x2 x3 x4 x5 : (⟨S1536, .f32⟩ : BufTy).Contents (Elt Ideal)) (x6 : (⟨S8x784, .f32⟩ : BufTy).Contents (Elt Ideal)) (x12 : (⟨S784x784, .i32⟩ : BufTy).Contents (Elt Ideal)) :
    Read.val_main_v53 (F := Ideal) x0 x1 x2 x3 x4 x5 x6 x12
      = Cert.Compose.stageA (Read.val_main_v13 (F := Ideal) x0 x1 x2 x3 x4 x5) (Read.val_main_v27 (F := Ideal) x6 x12) := by
  funext i
  obtain ⟨bt, n, e, rfl⟩ : ∃ (bt : Fin 16) (n : Fin 784) (e : Fin 1024), i = ix3 bt n e := ⟨i 0, i 1, i 2, eq_ix3 i⟩
  have hlt : 128 * (Cert.Compose.hdOf e).val + (Cert.Compose.dOf e).val < 1024 := by
    show 128 * (e.val / 128) + e.val % 128 < 1024
    have := e.isLt; omega
  have he : e = (⟨128 * (Cert.Compose.hdOf e).val + (Cert.Compose.dOf e).val, hlt⟩ : Fin 1024) := Fin.ext (by
    show e.val = 128 * (e.val / 128) + e.val % 128
    omega)
  refine (congrArg (fun e' : Fin 1024 => Read.val_main_v53 (F := Ideal) x0 x1 x2 x3 x4 x5 x6 x12 (ix3 bt n e')) he).trans ?_
  exact AttnRef.ref_v53_apply x0 x1 x2 x3 x4 x5 x6 x12 bt n (Cert.Compose.hdOf e) (Cert.Compose.dOf e)

/-- THE REFERENCE'S RESULT IS THE COMPOSITION of the three stages at its arguments and its gathered bias. -/
theorem ref_eq_whole (x0 : (⟨S16x784x512, .f32⟩ : BufTy).Contents (Elt Ideal)) (x1 : (⟨S1536x512, .f32⟩ : BufTy).Contents (Elt Ideal)) (x2 x3 x4 x5 : (⟨S1536, .f32⟩ : BufTy).Contents (Elt Ideal)) (x6 : (⟨S8x784, .f32⟩ : BufTy).Contents (Elt Ideal)) (x7 : (⟨S512x1024, .f32⟩ : BufTy).Contents (Elt Ideal)) (x8 x9 x10 x11 : (⟨S512, .f32⟩ : BufTy).Contents (Elt Ideal)) (x12 : (⟨S784x784, .i32⟩ : BufTy).Contents (Elt Ideal)) :
    Read.val_main_v67 (F := Ideal) x0 x1 x2 x3 x4 x5 x6 x7 x8 x9 x10 x11 x12
      = Cert.Compose.whole x0 x1 x2 x3 x4 x5 (Read.val_main_v27 (F := Ideal) x6 x12) x7 x8 x9 x10 x11 := by
  funext i
  obtain ⟨bt, n, o, rfl⟩ : ∃ (bt : Fin 16) (n : Fin 784) (o : Fin 512), i = ix3 bt n o := ⟨i 0, i 1, i 2, eq_ix3 i⟩
  rw [LinRef.ref_v67_apply, ref_v53_eq, ref_v13_eq]
  rfl

end Cert.ReferenceIdeal.RefWhole

end
-- ==== Proof.BiasBridge.lean ====
/-
  The position bias the kernel program's host gathers is the position bias the reference gathers.

  Both programs wrap a negative index by adding 784 (select on "index < 0"), give the index array a trailing unit axis,
  and gather the table's rows at it, with the same dimension numbers: the two terms are built from the same
  operations over the same literal shapes, each program spelling the shapes and the dimension-number records by its
  own names.
-/
import proofs.«120797_j82815559401482_1_alg».proof.Proof.Host
import proofs.«120797_j82815559401482_1_alg».proof.Proof.Gen.ReferenceIdeal.Read

noncomputable section

namespace Cert.BiasBridge

open Idealize.ShloMosaic

/-- The two programs' gather dimension numbers are the same record. -/
theorem gather_dims_eq :
    Cert.KernelIdeal.gather_S8x784_S784x784x1_S8x784x784_0_1_n_n_1_2_81 = Cert.ReferenceIdeal.gather_S8x784_S784x784x1_S8x784x784_0_1_n_n_1_2_81 := rfl

/-- THE GATHERED BIAS of the kernel program is the reference's gather stage. -/
theorem bias_eq (x6 : (⟨Cert.KernelIdeal.S8x784, .f32⟩ : BufTy).Contents (Elt Ideal)) (x12 : (⟨Cert.KernelIdeal.S784x784, .i32⟩ : BufTy).Contents (Elt Ideal)) :
    Cert.KernelIdeal.HostVals.biasK x6 x12 = Cert.ReferenceIdeal.Read.val_main_v27 (F := Ideal) x6 x12 := by
  unfold Cert.KernelIdeal.HostVals.biasK Cert.ReferenceIdeal.Read.val_main_v27 Cert.ReferenceIdeal.Read.val_main_v26
    Cert.ReferenceIdeal.Read.val_main_v25 Cert.ReferenceIdeal.Read.val_main_v24 Cert.ReferenceIdeal.Read.val_main_v23
    Cert.ReferenceIdeal.Read.val_main_v22 Cert.ReferenceIdeal.Read.val_main_v21 Cert.ReferenceIdeal.Read.val_main_c
    Cert.ReferenceIdeal.Read.val_main_c_0
  rw [gather_dims_eq]

end Cert.BiasBridge

end
-- ==== Proof.lean ====
/-
  The certificate of the attention block: a Pallas program of three kernels — a linear map with batch normalisation
  producing queries, keys and values; per-head softmax attention with an additive position bias followed by a
  hard-swish; a second linear map with batch normalisation — against its plain reference.

  On the extended reals both programs compute ONE function of the argument arrays, the composition `Compose.whole`:
  every change of float format is the identity, a matrix product into a zero accumulator and a host contraction are the
  same finite sum, a lane reduction and a host reduction are the same sum or the same fold of `max` from -∞, and the
  literals (the batch-norm epsilon, the attention scale, the hard-swish constants) are the same binary words on both
  sides, so no law beyond reading both programs entry by entry is needed and the finiteness of the inputs is never used.
  The kernel side reads each kernel's output array off its grid of blocks (batch `t` at grid point `t`) and follows the
  arrays through the host operations between the kernels; the reference side reads its operations one at a time.
  The ideal pass rewrote nothing, so `preserves` is trivial; the three frames are the programs' runs with the results dropped.
-/
import proofs.«120797_j82815559401482_1_alg».proof.Defs
import proofs.«120797_j82815559401482_1_alg».proof.Proof.Gen.Kernel
import proofs.«120797_j82815559401482_1_alg».proof.Proof.Gen.Kernel.Skeleton
import proofs.«120797_j82815559401482_1_alg».proof.Proof.Gen.Kernel.Launch
import proofs.«120797_j82815559401482_1_alg».proof.Proof.Gen.Kernel.Points
import proofs.«120797_j82815559401482_1_alg».proof.Proof.Gen.Kernel.Frame
import proofs.«120797_j82815559401482_1_alg».proof.Proof.Gen.KernelIdeal
import proofs.«120797_j82815559401482_1_alg».proof.Proof.Gen.KernelIdeal.Skeleton
import proofs.«120797_j82815559401482_1_alg».proof.Proof.Gen.KernelIdeal.Launch
import proofs.«120797_j82815559401482_1_alg».proof.Proof.Gen.KernelIdeal.Points
import proofs.«120797_j82815559401482_1_alg».proof.Proof.Gen.KernelIdeal.Frame
import proofs.«120797_j82815559401482_1_alg».proof.Proof.Gen.ReferenceIdeal
import proofs.«120797_j82815559401482_1_alg».proof.Proof.Gen.ReferenceIdeal.Run
import proofs.«120797_j82815559401482_1_alg».proof.Proof.Gen.ReferenceIdeal.Read
import proofs.«120797_j82815559401482_1_alg».proof.Proof.Gen.Pre_finite_inputs
import proofs.«120797_j82815559401482_1_alg».proof.Proof.KernelWhole
import proofs.«120797_j82815559401482_1_alg».proof.Proof.AttnKernel
import proofs.«120797_j82815559401482_1_alg».proof.Proof.RefWhole
import proofs.«120797_j82815559401482_1_alg».proof.Proof.BiasBridge
import Idealize.ShloMosaic.Adequacy
import Idealize.ShloMosaic.Init

noncomputable section

namespace Cert.Proof

open Idealize.ShloMosaic Idealize.SL.Sem Cert.Kernel

/-- One block of the attention kernel's output, entry by entry. -/
theorem attnBlock : Cert.KernelIdeal.Region1.BlockFact :=
  fun x0 x1 n hd d => Cert.KernelIdeal.AttnKernel.out1_2_apply x0 x1 n hd d

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the whole block of the argument arrays. -/
theorem algebraic : Cert.algebraic_KernelIdeal_ReferenceIdeal := by
  intro m ρ m' ρ' _ hagree
  refine ⟨_, Cert.KernelIdeal.Whole.run m ρ attnBlock, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v67_eq, Cert.ReferenceIdeal.RefWhole.ref_eq_whole, a0, a1, a2, a3, a4, a5, a6, a7, a8, a9, a10, a11, a12,
    ← Cert.BiasBridge.bias_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
